-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x56x56 : Shape := ⟨4, ![16, 256, 56, 56]⟩
abbrev S256x256 : Shape := ⟨2, ![256, 256]⟩
abbrev S256 : Shape := ⟨1, ![256]⟩
abbrev S_ : Shape := ⟨0, ![]⟩

class Facts : Prop where
  bcast_S_S16x256x56x56 : S_.BroadcastsInDim S16x256x56x56 (![] : Fin 0 → Fin S16x256x56x56.rank)
  reducesTo_S16x256x56x56_S_d0_1_2_3 : S16x256x56x56.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16x256x56x56 .f32) (main_arg1 : FVec F S256x256 .f32) (main_arg2 : FVec F S256 .f32) (main_arg3 : FVec F S256 .f32) : IVec S_ 1 :=
  let main_v0 : FVec F S16x256x56x56 .f32 := Host.absf main_arg0
  let main_cst : FVec F S_ .f32 := constant S_ .f32 0x7F800000#32
  let main_v1 : FVec F S16x256x56x56 .f32 := broadcastInDim S16x256x56x56 ![] bcast_S_S16x256x56x56 main_cst
  let main_v2 : IVec S16x256x56x56 1 := cmpf .olt main_v0 main_v1
  let main_c : IVec S_ 1 := constantI S_ 1 1#1
  let main_v3 : IVec S_ 1 := (fun x v => Host.reduce IntOp.andi x v reducesTo_S16x256x56x56_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16x256x56x56 : Shape := ⟨4, ![16, 256, 56, 56]⟩
abbrev S256x256 : Shape := ⟨2, ![256, 256]⟩
abbrev S256 : Shape := ⟨1, ![256]⟩
abbrev S16x256x3136 : Shape := ⟨3, ![16, 256, 3136]⟩
abbrev S16x3136x256 : Shape := ⟨3, ![16, 3136, 256]⟩
abbrev S1x256 : Shape := ⟨2, ![1, 256]⟩
abbrev S8x2x3136x256 : Shape := ⟨4, ![8, 2, 3136, 256]⟩
abbrev S1x2x3136x256 : Shape := ⟨4, ![1, 2, 3136, 256]⟩
abbrev S8x6272x256 : Shape := ⟨3, ![8, 6272, 256]⟩
abbrev S2x3136x256 : Shape := ⟨3, ![2, 3136, 256]⟩
abbrev S6272x256 : Shape := ⟨2, ![6272, 256]⟩
abbrev S1x6272x256 : Shape := ⟨3, ![1, 6272, 256]⟩

abbrev nBuf : Space → Nat
  | .hbm => 13
  | .vmem => 12
  | .smem => 0
  | _ => 0

abbrev bufTy : (tb : Table) → Fin (tcTables nBuf tb) → BufTy
  | .hbm, ⟨0, _⟩ => ⟨S16x256x56x56, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S16x256x3136, .f32⟩
  | .hbm, ⟨5, _⟩ => ⟨S16x3136x256, .f32⟩
  | .hbm, ⟨6, _⟩ => ⟨S1x256, .f32⟩
  | .hbm, ⟨7, _⟩ => ⟨S1x256, .f32⟩
  | .hbm, ⟨8, _⟩ => ⟨S8x2x3136x256, .f32⟩
  | .hbm, ⟨9, _⟩ => ⟨S8x2x3136x256, .f32⟩
  | .hbm, ⟨10, _⟩ => ⟨S16x3136x256, .f32⟩
  | .hbm, ⟨11, _⟩ => ⟨S16x256x3136, .f32⟩
  | .hbm, ⟨12, _⟩ => ⟨S16x256x56x56, .f32⟩
  | .local _ .vmem, ⟨0, _⟩ => ⟨S256x256, .f32⟩
  | .local _ .vmem, ⟨1, _⟩ => ⟨S1x256, .f32⟩
  | .local _ .vmem, ⟨2, _⟩ => ⟨S1x256, .f32⟩
  | .local _ .vmem, ⟨3, _⟩ => ⟨S1x2x3136x256, .f32⟩
  | .local _ .vmem, ⟨4, _⟩ => ⟨S1x2x3136x256, .f32⟩
  | .local _ .vmem, ⟨5, _⟩ => ⟨S1x2x3136x256, .f32⟩
  | .local _ .vmem, ⟨6, _⟩ => ⟨S1x2x3136x256, .f32⟩
  | .local _ .vmem, ⟨7, _⟩ => ⟨S8x6272x256, .bf16⟩
  | .local _ .vmem, ⟨8, _⟩ => ⟨S256x256, .f32⟩
  | .local _ .vmem, ⟨9, _⟩ => ⟨S1x256, .f32⟩
  | .local _ .vmem, ⟨10, _⟩ => ⟨S256x256, .bf16⟩
  | .local _ .vmem, ⟨11, _⟩ => ⟨S1x256, .f32⟩
  | _, _ => ⟨S16x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg1 : BitVec 32 := BitVec.ofNat 32 (i 1).val
  let v20 : Index := Scalar.indexCast arg1
  let c0_10 : Index := 0#32
  let c0_11 : Index := 0#32
  ![v20.toNat, 0, 0]
def k0_cond4 (i : grid0.Coords) : BitVec 1 :=
  let arg0 : BitVec 32 := BitVec.ofNat 32 (i 0).val
  let c1_i32 : BitVec 32 := 1#32
  let v13 : BitVec 1 := Scalar.cmpi .eq arg0 c1_i32
  let v14 : BitVec 32 := Scalar.extui v13
  let c0_i32_6 : BitVec 32 := 0#32
  let v15 : BitVec 1 := Scalar.cmpi .ne v14 c0_i32_6
  v15

def k0_off2 (i : grid0.Coords) : Fin 3 → Nat :=
  let arg1 : BitVec 32 := BitVec.ofNat 32 (i 1).val
  let v16 : Index := Scalar.indexCast arg1
  let c0 : Index := 0#32
  let c0_7 : Index := 0#32
  ![v16.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let v1 : BitVec 32 := Scalar.muli arg0 v0
  let v2 : BitVec 32 := Scalar.addi arg1 v1
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x3136x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x3136x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16x256x56x56_S16x256x3136 : S16x256x56x56.ShapeCasts S16x256x3136
  transposes_S16x256x3136_S16x3136x256_0_2_1 : S16x256x3136.Transposes [0, 2, 1] S16x3136x256
  shapeCasts_S256_S1x256 : S256.ShapeCasts S1x256
  shapeCasts_S16x3136x256_S8x2x3136x256 : S16x3136x256.ShapeCasts S8x2x3136x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x2x3136x256_S1x2x3136x256_0_0_0_0 : ∀ a, (![0, 0, 0, 0] : Fin 4 → Nat) a + S1x2x3136x256.size a ≤ S1x2x3136x256.size a
  h_S1x2x3136x256 : 0 < S1x2x3136x256.numel
  shapeCasts_S1x2x3136x256_S2x3136x256 : S1x2x3136x256.ShapeCasts S2x3136x256
  shapeCasts_S2x3136x256_S6272x256 : S2x3136x256.ShapeCasts S6272x256
  bitsLt_bf16_f32 : FTy.bits .bf16 < FTy.bits .f32
  h_S1x6272x256 : 0 < S1x6272x256.numel
  shapeCasts_S1x6272x256_S6272x256 : S1x6272x256.ShapeCasts S6272x256
  shapeCasts_S6272x256_S1x6272x256 : S6272x256.ShapeCasts S1x6272x256
  reduces_S6272x256_S256 : S6272x256.Reduces [0] S256
  transposes_S256x256_p1_0_S256x256 : S256x256.Transposes [1, 0] S256x256
  broadcasts_S1x256_S256x256 : S1x256.Broadcasts S256x256
  slices_S256x256_o0_0_S1x256 : S256x256.Slices ![0, 0] S1x256
  reduces_S256x256_S256 : S256x256.Reduces [0] S256
  packedbf16_S256x256_S256x256_0_0 : (Rect.unit (s := S256x256) ![0, 0] S256x256.size inb_S256x256_S256x256_0_0).PackedRows (EltTy.packing .bf16)
  broadcasts_S1x256_S6272x256 : S1x256.Broadcasts S6272x256
  shapeCasts_S6272x256_S2x3136x256 : S6272x256.ShapeCasts S2x3136x256
  shapeCasts_S2x3136x256_S1x2x3136x256 : S2x3136x256.ShapeCasts S1x2x3136x256
  shapeCasts_S8x2x3136x256_S16x3136x256 : S8x2x3136x256.ShapeCasts S16x3136x256
  transposes_S16x3136x256_S16x256x3136_0_2_1 : S16x3136x256.Transposes [0, 2, 1] S16x256x3136
  shapeCasts_S16x256x3136_S16x256x56x56 : S16x256x3136.ShapeCasts S16x256x56x56
  dot_S6272x256_S6272x256_S256x256_0_0_1_1_n_n_wf : DotDims.WF S6272x256 S6272x256 S256x256 [0] [0] [1] [1] [] []
  dot_S256x256_S256x256_S256x256_1_0_0_1_n_n_wf : DotDims.WF S256x256 S256x256 S256x256 [1] [0] [0] [1] [] []
  dot_S6272x256_S256x256_S6272x256_1_0_0_1_n_n_wf : DotDims.WF S6272x256 S256x256 S6272x256 [1] [0] [0] [1] [] []
  hrank0 : 0 < grid0.rank
  k0_off1_inb : ∀ i : grid0.Coords, ∀ (k0_h2 : k0_cond2 i = 1#1), ∀ a, (k0_off1 i) a + S1x6272x256.size a ≤ S8x6272x256.size a
  k0_off1_packedbf16 : ∀ i : grid0.Coords, ∀ (k0_h2 : k0_cond2 i = 1#1), (Rect.unit (s := S8x6272x256) (k0_off1 i) S1x6272x256.size (k0_off1_inb i k0_h2)).PackedRows (EltTy.packing .bf16)
  k0_off2_inb : ∀ i : grid0.Coords, ∀ (k0_h4 : k0_cond4 i = 1#1), ∀ a, (k0_off2 i) a + S1x6272x256.size a ≤ S8x6272x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .f32 = 32 ∨ (Rect.block (s := S256x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x3136x256.size a ≤ S8x2x3136x256.size a
  hwx0_3 : ∀ i : grid0.Coords, EltTy.bits .f32 = 32 ∨ (Rect.block (s := S8x2x3136x256) S1x2x3136x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x3136x256.size a ≤ S8x2x3136x256.size a
  hwx0_4 : ∀ i : grid0.Coords, EltTy.bits .f32 = 32 ∨ (Rect.block (s := S8x2x3136x256) S1x2x3136x256.size (cc0_transform_4 i) (hinb0_4 i)).WholeWords (EltTy.packing .f32)

variable [Facts₀]

def dot_S6272x256_S6272x256_S256x256_0_0_1_1_n_n : DotDims S6272x256 S6272x256 S256x256 where
  lhsContracting := [0]
  rhsContracting := [0]
  lhsNonContracting := [1]
  rhsNonContracting := [1]
  lhsBatch := []
  rhsBatch := []
  wf := dot_S6272x256_S6272x256_S256x256_0_0_1_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S6272x256_S256x256_S6272x256_1_0_0_1_n_n : DotDims S6272x256 S256x256 S6272x256 where
  lhsContracting := [1]
  rhsContracting := [0]
  lhsNonContracting := [0]
  rhsNonContracting := [1]
  lhsBatch := []
  rhsBatch := []
  wf := dot_S6272x256_S256x256_S6272x256_1_0_0_1_n_n_wf

abbrev win0_0 : Pipeline.Window sig grid0 :=
  Pipeline.Window.ofSpec (Memref.whole main_arg1) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2x3136x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2x3136x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S16x256x56x56 : Shape := ⟨4, ![16, 256, 56, 56]⟩
abbrev S256x256 : Shape := ⟨2, ![256, 256]⟩
abbrev S256 : Shape := ⟨1, ![256]⟩
abbrev S16x256x3136 : Shape := ⟨3, ![16, 256, 3136]⟩
abbrev S_ : Shape := ⟨0, ![]⟩
abbrev S16x256x3200 : Shape := ⟨3, ![16, 256, 3200]⟩
abbrev S2x256x256 : Shape := ⟨3, ![2, 256, 256]⟩
abbrev S2x256x1 : Shape := ⟨3, ![2, 256, 1]⟩
abbrev S1x256x640 : Shape := ⟨3, ![1, 256, 640]⟩
abbrev S1x256x256 : Shape := ⟨3, ![1, 256, 256]⟩
abbrev S1x256x1 : Shape := ⟨3, ![1, 256, 1]⟩
abbrev S256x1 : Shape := ⟨2, ![256, 1]⟩
abbrev S256x640 : Shape := ⟨2, ![256, 640]⟩

abbrev nBuf : Space → Nat
  | .hbm => 45
  | .vmem => 12
  | .smem => 0
  | _ => 0

abbrev bufTy : (tb : Table) → Fin (tcTables nBuf tb) → BufTy
  | .hbm, ⟨0, _⟩ => ⟨S16x256x56x56, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S16x256x3136, .f32⟩
  | .hbm, ⟨5, _⟩ => ⟨S_, .i32⟩
  | .hbm, ⟨6, _⟩ => ⟨S_, .f32⟩
  | .hbm, ⟨7, _⟩ => ⟨S16x256x3200, .f32⟩
  | .hbm, ⟨8, _⟩ => ⟨S2x256x256, .f32⟩
  | .hbm, ⟨9, _⟩ => ⟨S2x256x1, .f32⟩
  | .hbm, ⟨10, _⟩ => ⟨S_, .f32⟩
  | .hbm, ⟨11, _⟩ => ⟨S256x256, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256, .f32⟩
  | .hbm, ⟨22, _⟩ => ⟨S256x1, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S_, .f32⟩
  | .hbm, ⟨29, _⟩ => ⟨S256x1, .f32⟩
  | .hbm, ⟨30, _⟩ => ⟨S256x1, .f32⟩
  | .hbm, ⟨31, _⟩ => ⟨S_, .f32⟩
  | .hbm, ⟨32, _⟩ => ⟨S256x1, .f32⟩
  | .hbm, ⟨33, _⟩ => ⟨S256x1, .f32⟩
  | .hbm, ⟨34, _⟩ => ⟨S256x1, .f32⟩
  | .hbm, ⟨35, _⟩ => ⟨S256x1, .f32⟩
  | .hbm, ⟨36, _⟩ => ⟨S256x1, .f32⟩
  | .hbm, ⟨37, _⟩ => ⟨S256x1, .f32⟩
  | .hbm, ⟨38, _⟩ => ⟨S256x1, .f32⟩
  | .hbm, ⟨39, _⟩ => ⟨S256x1, .f32⟩
  | .hbm, ⟨40, _⟩ => ⟨S256x256, .f32⟩
  | .hbm, ⟨41, _⟩ => ⟨S256x256, .f32⟩
  | .hbm, ⟨42, _⟩ => ⟨S16x256x3200, .f32⟩
  | .hbm, ⟨43, _⟩ => ⟨S16x256x3136, .f32⟩
  | .hbm, ⟨44, _⟩ => ⟨S16x256x56x56, .f32⟩
  | .local _ .vmem, ⟨0, _⟩ => ⟨S1x256x640, .f32⟩
  | .local _ .vmem, ⟨1, _⟩ => ⟨S1x256x640, .f32⟩
  | .local _ .vmem, ⟨2, _⟩ => ⟨S1x256x256, .f32⟩
  | .local _ .vmem, ⟨3, _⟩ => ⟨S1x256x256, .f32⟩
  | .local _ .vmem, ⟨4, _⟩ => ⟨S1x256x1, .f32⟩
  | .local _ .vmem, ⟨5, _⟩ => ⟨S1x256x1, .f32⟩
  | .local _ .vmem, ⟨6, _⟩ => ⟨S256x256, .f32⟩
  | .local _ .vmem, ⟨7, _⟩ => ⟨S256x1, .f32⟩
  | .local _ .vmem, ⟨8, _⟩ => ⟨S1x256x640, .f32⟩
  | .local _ .vmem, ⟨9, _⟩ => ⟨S1x256x640, .f32⟩
  | .local _ .vmem, ⟨10, _⟩ => ⟨S1x256x640, .f32⟩
  | .local _ .vmem, ⟨11, _⟩ => ⟨S1x256x640, .f32⟩
  | _, _ => ⟨S16x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨3, ![2, 8, 5], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev grid1 : Pipeline.Grid := ⟨2, ![16, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .vmem S256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x256x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S16x256x56x56_S16x256x3136 : S16x256x56x56.ShapeCasts S16x256x3136
  pads_S16x256x3136_S16x256x3200_000_000_0640 : S16x256x3136.Pads (![0, 0, 0] : Fin 3 → Nat) ![0, 0, 64] ![0, 0, 0] S16x256x3200
  h_S_ : 0 < S_.numel
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S1x256x640_S1x256x640_0_0_0 : ∀ a, (![0, 0, 0] : Fin 3 → Nat) a + S1x256x640.size a ≤ S1x256x640.size a
  h_S1x256x640 : 0 < S1x256x640.numel
  shapeCasts_S1x256x640_S256x640 : S1x256x640.ShapeCasts S256x640
  reduces_S256x640_S256 : S256x640.Reduces [1] S256
  shapeCasts_S256_S256x1 : S256.ShapeCasts S256x1
  reducesTo_S2x256x256_S256x256_d0 : S2x256x256.ReducesTo [0] S256x256
  reducesTo_S2x256x1_S256x1_d0 : S2x256x1.ReducesTo [0] S256x1
  bcast_S_S256x1 : S_.BroadcastsInDim S256x1 (![] : Fin 0 → Fin S256x1.rank)
  reducesTo_S256x256_S256_d1 : S256x256.ReducesTo [1] S256
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x640 : S256x1.Broadcasts S256x640
  shapeCasts_S256x640_S1x256x640 : S256x640.ShapeCasts S1x256x640
  slices_S16x256x3200_S16x256x3136_0_0_0 : S16x256x3200.Slices ![0, 0, 0] S16x256x3136
  shapeCasts_S16x256x3136_S16x256x56x56 : S16x256x3136.ShapeCasts S16x256x56x56
  dot_S256x640_S256x640_S256x256_1_1_0_0_n_n_wf : DotDims.WF S256x640 S256x640 S256x256 [1] [1] [0] [0] [] []
  dot_S256x256_S256x1_S256x1_1_0_0_1_n_n_wf : DotDims.WF S256x256 S256x1 S256x1 [1] [0] [0] [1] [] []
  dot_S256x256_S256x256_S256x256_1_0_0_1_n_n_wf : DotDims.WF S256x256 S256x256 S256x256 [1] [0] [0] [1] [] []
  dot_S256x256_S256x640_S256x640_1_0_0_1_n_n_wf : DotDims.WF S256x256 S256x640 S256x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x640.size a ≤ S16x256x3200.size a
  hwx0_0 : ∀ i : grid0.Coords, EltTy.bits .f32 = 32 ∨ (Rect.block (s := S16x256x3200) S1x256x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S2x256x256.size a
  hwx0_1 : ∀ i : grid0.Coords, EltTy.bits .f32 = 32 ∨ (Rect.block (s := S2x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S2x256x1.size a
  hwx0_2 : ∀ i : grid0.Coords, EltTy.bits .f32 = 32 ∨ (Rect.block (s := S2x256x1) S1x256x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S256x256.size a
  hwx1_0 : ∀ i : grid1.Coords, EltTy.bits .f32 = 32 ∨ (Rect.block (s := S256x256) S256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S256x1.size a
  hwx1_1 : ∀ i : grid1.Coords, EltTy.bits .f32 = 32 ∨ (Rect.block (s := S256x1) S256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x640.size a ≤ S16x256x3200.size a
  hwx1_2 : ∀ i : grid1.Coords, EltTy.bits .f32 = 32 ∨ (Rect.block (s := S16x256x3200) S1x256x640.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x640.size a ≤ S16x256x3200.size a
  hwx1_3 : ∀ i : grid1.Coords, EltTy.bits .f32 = 32 ∨ (Rect.block (s := S16x256x3200) S1x256x640.size (cc1_transform_3 i) (hinb1_3 i)).WholeWords (EltTy.packing .f32)

variable [Facts₀]

def dot_S256x640_S256x640_S256x256_1_1_0_0_n_n : DotDims S256x640 S256x640 S256x256 where
  lhsContracting := [1]
  rhsContracting := [1]
  lhsNonContracting := [0]
  rhsNonContracting := [0]
  lhsBatch := []
  rhsBatch := []
  wf := dot_S256x640_S256x640_S256x256_1_1_0_0_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x640_S256x640_1_0_0_1_n_n : DotDims S256x256 S256x640 S256x640 where
  lhsContracting := [1]
  rhsContracting := [0]
  lhsNonContracting := [0]
  rhsNonContracting := [1]
  lhsBatch := []
  rhsBatch := []
  wf := dot_S256x256_S256x640_S256x640_1_0_0_1_n_n_wf

abbrev win0_0 : Pipeline.Window sig grid0 :=
  Pipeline.Window.ofSpec (Memref.whole main_v1) S1x256x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S1x256x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S1x256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S256x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v25) S256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256x640.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x256x640.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KCondsBits.lean ====
/-
  The fused body branches four times on the grid point (p, b) of the 2 × 8 grid, walked p-major:
  it zeroes the Gram accumulator and the column sums at (0, 0); accumulates them, and keeps the
  pair's rows, at every (0, b); folds the batch statistics into the weight at (0, 7); applies the
  folded weight at every (1, b). Here each condition is decided over the sixteen points in closed
  form, and the output window is idle exactly on the first eight.
-/
import proofs.«152739_g2000502477920874_pallasbulk_293_22_alg».proof.Proof.Gen.Kernel.Frame
import proofs.«152739_g2000502477920874_pallasbulk_293_22_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- (p, b) = (0, 0): the accumulators are zeroed. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- p = 0: the pair's rows are kept and accumulated. -/
abbrev cond0_1 (i : grid0.Coords) : Prop := k0_cond2 i = 1#1
theorem hcond0_1 : ∀ t : Fin cfg0.N, cond0_1 (grid0.coords t) ↔ t.val < 8 :=
  (by decide +kernel : ∀ t : Fin grid0.N, cond0_1 (grid0.coords t) ↔ t.val < 8)

/-- (p, b) = (0, 7): the statistics are folded into the weight. -/
abbrev cond0_2 (i : grid0.Coords) : Prop := (Scalar.cmpi .ne (Scalar.extui (Scalar.andi (Scalar.cmpi .eq (BitVec.ofNat 32 (i 0).val) 0#32) (Scalar.cmpi .eq (BitVec.ofNat 32 (i 1).val) 7#32))) 0#32) = 1#1
theorem hcond0_2 : ∀ t : Fin cfg0.N, cond0_2 (grid0.coords t) ↔ t.val = 7 :=
  (by decide +kernel : ∀ t : Fin grid0.N, cond0_2 (grid0.coords t) ↔ t.val = 7)

/-- p = 1: the folded weight is applied to the kept rows. -/
abbrev cond0_3 (i : grid0.Coords) : Prop := k0_cond4 i = 1#1
theorem hcond0_3 : ∀ t : Fin cfg0.N, cond0_3 (grid0.coords t) ↔ 8 ≤ t.val :=
  (by decide +kernel : ∀ t : Fin grid0.N, cond0_3 (grid0.coords t) ↔ 8 ≤ t.val)

/-- The inputs are never idle; the output is idle on the first eight points and written back on none of them. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, cfg0.idle 4 (grid0.coords t) = decide (t.val < 8) :=
  (by decide +kernel : ∀ t : Fin grid0.N, cfg0.idle 4 (grid0.coords t) = decide (t.val < 8))
theorem flush0_4 : ∀ t : Fin cfg0.N, (cfg0.win 4).flush t = decide (8 ≤ t.val) :=
  (by decide +kernel : ∀ t : Fin grid0.N, win0_4.flush t = decide (8 ≤ t.val))

/-- Each window's current staging memref at a point, and the five scratch buffers. -/
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x3136x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x3136x256 .f32 := win0_4.stage (cfg0.slots t 4)
abbrev hs0_4 (t : Fin cfg0.N) : (ms0_4 t).IsWhole := hstage0_4 ((cfg0.slots t 4).cast nbuf0_4)
abbrev scM0_0 : Memref sig .tc .vmem S8x6272x256 .bf16 := Memref.whole cc0_scratch0
abbrev scM0_1 : Memref sig .tc .vmem S256x256 .f32 := Memref.whole cc0_scratch1
abbrev scM0_2 : Memref sig .tc .vmem S1x256 .f32 := Memref.whole cc0_scratch2
abbrev scM0_3 : Memref sig .tc .vmem S256x256 .bf16 := Memref.whole cc0_scratch3
abbrev scM0_4 : Memref sig .tc .vmem S1x256 .f32 := Memref.whole cc0_scratch4

/-- What the launch hands the region beside the windows: the five scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.KRunABits.lean ====
/-
  The fused body run whole at the first point (0, 0): the accumulators zeroed, then the pair's rows kept and accumulated.
  From the four input windows' buffers at their blocks, the output's buffer and the five scratch buffers at
  given contents, the body runs to the continuation with the inputs as they were and every buffer it stored into
  at its earlier contents overwritten by the stores made, newest first; the stores are found by running the body.
-/
import proofs.«152739_g2000502477920874_pallasbulk_293_22_alg».proof.Proof.KCondsBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kRunA (c : Dev nD) (i : grid0.Coords) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x2x3136x256 .f32) (harg5 : arg5.IsWhole) (arg6 : Memref sig .tc .vmem S1x2x3136x256 .f32) (harg6 : arg6.IsWhole) (arg7 : Memref sig .tc .vmem S8x6272x256 .bf16) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (hc0 : cond0_0 i) (hc1 : cond0_1 i) (hc2 : ¬cond0_2 i) (hc3 : ¬cond0_3 i)
    (x0 : Vec F S256x256 .f32) (x1 : Vec F S1x256 .f32) (x2 : Vec F S1x256 .f32) (x3 : Vec F S1x2x3136x256 .f32) (x4 : Vec F S1x2x3136x256 .f32)
    (xs0 : Vec F S8x6272x256 .bf16) (xs1 : Vec F S256x256 .f32) (xs2 : Vec F S1x256 .f32) (xs3 : Vec F S256x256 .bf16) (xs4 : Vec F S1x256 .f32) :
    Σ' (L7 : List (View.Piece (Elt F) S8x6272x256 .bf16)), Σ' (L8 : List (View.Piece (Elt F) S256x256 .f32)), { L9 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xs0) L7) ∗ (arg8.view.loc (c : Thread nD τ) ↦[arg8.view.set]{fullShare} arg8.view.writes (Elt F) (harg8.unread xs1) L8) ∗ (arg9.view.loc (c : Thread nD τ) ↦[arg9.view.set]{fullShare} arg9.view.writes (Elt F) (harg9.unread xs2) L9) ∗ owns (c : Thread nD τ) arg10 fullShare xs3 ∗ owns (c : Thread nD τ) arg11 fullShare xs4) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3; obtain rfl := harg11.eq_unread hfs4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    isplitl [HS0]; · iexact HS0
    isplitl [HS1]; · iexact HS1
    isplitl [HS2]; · iexact HS2
    isplitl [HS3]
    · iexists _; isplitr; · ipureintro; exact harg10.read_unread _
      iexact HS3
    iexists _; isplitr; · ipureintro; exact harg11.read_unread _
    iexact HS4

end Cert.Kernel.Gen

end
-- ==== Proof.KRunBBits.lean ====
/-
  The fused body run whole at a point (0, b), 0 < b < 7: the pair's rows kept and accumulated.
  From the four input windows' buffers at their blocks, the output's buffer and the five scratch buffers at
  given contents, the body runs to the continuation with the inputs as they were and every buffer it stored into
  at its earlier contents overwritten by the stores made, newest first; the stores are found by running the body.
-/
import proofs.«152739_g2000502477920874_pallasbulk_293_22_alg».proof.Proof.KCondsBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kRunB (c : Dev nD) (i : grid0.Coords) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x2x3136x256 .f32) (harg5 : arg5.IsWhole) (arg6 : Memref sig .tc .vmem S1x2x3136x256 .f32) (harg6 : arg6.IsWhole) (arg7 : Memref sig .tc .vmem S8x6272x256 .bf16) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (hc0 : ¬cond0_0 i) (hc1 : cond0_1 i) (hc2 : ¬cond0_2 i) (hc3 : ¬cond0_3 i)
    (x0 : Vec F S256x256 .f32) (x1 : Vec F S1x256 .f32) (x2 : Vec F S1x256 .f32) (x3 : Vec F S1x2x3136x256 .f32) (x4 : Vec F S1x2x3136x256 .f32)
    (xs0 : Vec F S8x6272x256 .bf16) (xs1 : Vec F S256x256 .f32) (xs2 : Vec F S1x256 .f32) (xs3 : Vec F S256x256 .bf16) (xs4 : Vec F S1x256 .f32) :
    Σ' (L7 : List (View.Piece (Elt F) S8x6272x256 .bf16)), Σ' (L8 : List (View.Piece (Elt F) S256x256 .f32)), { L9 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xs0) L7) ∗ (arg8.view.loc (c : Thread nD τ) ↦[arg8.view.set]{fullShare} arg8.view.writes (Elt F) (harg8.unread xs1) L8) ∗ (arg9.view.loc (c : Thread nD τ) ↦[arg9.view.set]{fullShare} arg9.view.writes (Elt F) (harg9.unread xs2) L9) ∗ owns (c : Thread nD τ) arg10 fullShare xs3 ∗ owns (c : Thread nD τ) arg11 fullShare xs4) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3; obtain rfl := harg11.eq_unread hfs4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    isplitl [HS0]; · iexact HS0
    isplitl [HS1]; · iexact HS1
    isplitl [HS2]; · iexact HS2
    isplitl [HS3]
    · iexists _; isplitr; · ipureintro; exact harg10.read_unread _
      iexact HS3
    iexists _; isplitr; · ipureintro; exact harg11.read_unread _
    iexact HS4

end Cert.Kernel.Gen

end
-- ==== Proof.KRunCBits.lean ====
/-
  The fused body run whole at the point (0, 7): the last pair kept and accumulated, then the statistics folded into the weight and the shift.
  From the four input windows' buffers at their blocks, the output's buffer and the five scratch buffers at
  given contents, the body runs to the continuation with the inputs as they were and every buffer it stored into
  at its earlier contents overwritten by the stores made, newest first; the stores are found by running the body.
-/
import proofs.«152739_g2000502477920874_pallasbulk_293_22_alg».proof.Proof.KCondsBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kRunC (c : Dev nD) (i : grid0.Coords) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x2x3136x256 .f32) (harg5 : arg5.IsWhole) (arg6 : Memref sig .tc .vmem S1x2x3136x256 .f32) (harg6 : arg6.IsWhole) (arg7 : Memref sig .tc .vmem S8x6272x256 .bf16) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (hc0 : ¬cond0_0 i) (hc1 : cond0_1 i) (hc2 : cond0_2 i) (hc3 : ¬cond0_3 i)
    (x0 : Vec F S256x256 .f32) (x1 : Vec F S1x256 .f32) (x2 : Vec F S1x256 .f32) (x3 : Vec F S1x2x3136x256 .f32) (x4 : Vec F S1x2x3136x256 .f32)
    (xs0 : Vec F S8x6272x256 .bf16) (xs1 : Vec F S256x256 .f32) (xs2 : Vec F S1x256 .f32) (xs3 : Vec F S256x256 .bf16) (xs4 : Vec F S1x256 .f32) :
    Σ' (L7 : List (View.Piece (Elt F) S8x6272x256 .bf16)), Σ' (L8 : List (View.Piece (Elt F) S256x256 .f32)), Σ' (L9 : List (View.Piece (Elt F) S1x256 .f32)), Σ' (L10 : List (View.Piece (Elt F) S256x256 .bf16)), { L11 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xs0) L7) ∗ (arg8.view.loc (c : Thread nD τ) ↦[arg8.view.set]{fullShare} arg8.view.writes (Elt F) (harg8.unread xs1) L8) ∗ (arg9.view.loc (c : Thread nD τ) ↦[arg9.view.set]{fullShare} arg9.view.writes (Elt F) (harg9.unread xs2) L9) ∗ (arg10.view.loc (c : Thread nD τ) ↦[arg10.view.set]{fullShare} arg10.view.writes (Elt F) (harg10.unread xs3) L10) ∗ (arg11.view.loc (c : Thread nD τ) ↦[arg11.view.set]{fullShare} arg11.view.writes (Elt F) (harg11.unread xs4) L11)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__fused_body_eq_skeleton]; unfold cc0__fused_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3; obtain rfl := harg11.eq_unread hfs4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    isplitl [HS0]; · iexact HS0
    isplitl [HS1]; · iexact HS1
    isplitl [HS2]; · iexact HS2
    isplitl [HS3]; · iexact HS3
    iexact HS4

end Cert.Kernel.Gen

end
-- ==== Proof.KRunDBits.lean ====
/-
  The fused body run whole at a point (1, b): the folded weight applied to the pair's kept rows, the shift added, the negative part dropped.
  From the four input windows' buffers at their blocks, the output's buffer and the five scratch buffers at
  given contents, the body runs to the continuation with the inputs as they were and every buffer it stored into
  at its earlier contents overwritten by the stores made, newest first; the stores are found by running the body.
-/
import proofs.«152739_g2000502477920874_pallasbulk_293_22_alg».proof.Proof.KCondsBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kRunD (c : Dev nD) (i : grid0.Coords) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x2x3136x256 .f32) (harg5 : arg5.IsWhole) (arg6 : Memref sig .tc .vmem S1x2x3136x256 .f32) (harg6 : arg6.IsWhole) (arg7 : Memref sig .tc .vmem S8x6272x256 .bf16) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (hc0 : ¬cond0_0 i) (hc1 : ¬cond0_1 i) (hc2 : ¬cond0_2 i) (hc3 : cond0_3 i)
    (x0 : Vec F S256x256 .f32) (x1 : Vec F S1x256 .f32) (x2 : Vec F S1x256 .f32) (x3 : Vec F S1x2x3136x256 .f32) (x4 : Vec F S1x2x3136x256 .f32)
    (xs0 : Vec F S8x6272x256 .bf16) (xs1 : Vec F S256x256 .f32) (xs2 : Vec F S1x256 .f32) (xs3 : Vec F S256x256 .bf16) (xs4 : Vec F S1x256 .f32) :
    { LO : List (View.Piece (Elt F) S1x2x3136x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3; obtain rfl := harg11.eq_unread hfs4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]
    · iexists _; isplitr; · ipureintro; exact harg10.read_unread _
      iexact HS3
    iexists _; isplitr; · ipureintro; exact harg11.read_unread _
    iexact HS4

end Cert.Kernel.Gen

end
-- ==== Proof.KPiecesBits.lean ====
/-
  What each run of the fused body leaves in the buffers it stores into, read back as plain functions of
  what it was handed: the Gram accumulator grows by the pair's XᵀX, the column sums by the pair's column
  sums, both from zero at the first point; the pair's rows land in their slab of the kept-rows scratch and
  every other slab keeps what it held; at (0, 7) the folded weight and the shift are the printed functions
  of the weight, the finished accumulators, gamma and beta; at (1, b) the output block is the printed
  function of slab b, the folded weight and the shift.
-/
import proofs.«152739_g2000502477920874_pallasbulk_293_22_alg».proof.Proof.KRunABits
import proofs.«152739_g2000502477920874_pallasbulk_293_22_alg».proof.Proof.KRunBBits
import proofs.«152739_g2000502477920874_pallasbulk_293_22_alg».proof.Proof.KRunCBits
import proofs.«152739_g2000502477920874_pallasbulk_293_22_alg».proof.Proof.KRunDBits
import Idealize.ShloMosaic.Lib.Pipeline.Value
import Idealize.ShloMosaic.Lib.WritesUnit

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz4 : (![0, 0, 0, 0] : Fin 4 → ℕ) = fun _ => 0 := by funext a; fin_cases a <;> rfl

section Whole
variable {sp : Space} {S : Shape} {e : EltTy} (M : Memref sig .tc sp S e) (h : M.IsWhole)

/-- A load of a whole buffer through the zero-offset whole rectangle reads its contents. -/
theorem readAt_whole {off : Fin S.rank → ℕ} (hz : off = fun _ => 0) (inb : ∀ a, off a + S.size a ≤ S.size a) (x : S.Idx → Elt F e) :
    View.readAt (Elt F) M.view (Rect.unit off S.size inb).toLoadRect (h.unread x) = x := by
  rw [View.readAt_eq_ld, h.read_unread, View.ld_unit_zero hz]

/-- After stores the newest of which goes through the zero-offset whole rectangle, the buffer reads that store's value. -/
theorem read_whole_store {off : Fin S.rank → ℕ} (hz : off = fun _ => 0) (inb : ∀ a, off a + S.size a ≤ S.size a)
    (f : M.view.ty.Contents (Elt F)) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero hz inb y⟩), View.canon_cons_unit_zero hz]

end Whole

/-- Slab `b` of the kept-rows scratch: pair `b`'s 6272 rows. -/
abbrev slabInb (b : ℕ) (hb : b < 8) : ∀ a, (![b, 0, 0] : Fin 3 → ℕ) a + S1x6272x256.size a ≤ S8x6272x256.size a := by
  intro a; fin_cases a
  · show b + 1 ≤ 8; omega
  · show 0 + 6272 ≤ 6272; omega
  · show 0 + 256 ≤ 256; omega
abbrev slab (b : ℕ) (hb : b < 8) : Rect S8x6272x256 := Rect.unit (s := S8x6272x256) ![b, 0, 0] S1x6272x256.size (slabInb b hb)

/-- A load through a slab-sized rectangle at offsets equal to slab `b`'s reads slab `b`. -/
theorem ld_slab_congr {off : Fin 3 → ℕ} {b : ℕ} (h : off = ![b, 0, 0]) (inb : ∀ a, off a + S1x6272x256.size a ≤ S8x6272x256.size a) (b' : ℕ) (hb : b < 8)
    (X : Vec F S8x6272x256 .bf16) (hb' : b' = b := by rfl) :
    View.ld X (Rect.unit (s := S8x6272x256) off S1x6272x256.size inb) = View.ld X (slab b hb) := by
  subst h; rfl

section Slab
variable (M : Memref sig .tc .vmem S8x6272x256 .bf16) (f : M.view.ty.Contents (Elt F))

/-- The slab just stored reads the stored rows; -/
theorem slab_hit {off : Fin 3 → ℕ} (inb : ∀ a, off a + S1x6272x256.size a ≤ S8x6272x256.size a) (w : Vec F S1x6272x256 .bf16)
    (b : ℕ) (hb : b < 8) (hoff : off = ![b, 0, 0]) :
    View.ld (M.view.read (Elt F) (M.view.writes (Elt F) f [(⟨Rect.unit off S1x6272x256.size inb, w⟩ : View.Piece (Elt F) S8x6272x256 .bf16)])) (slab b hb) = w := by
  funext x
  show M.view.read (Elt F) _ ((slab b hb).emb x) = w x
  refine View.read_writes_cons_unit_of_mem M.view f inb w [] ((slab b hb).emb x) x hoff fun a => ?_
  rw [Rect.emb_apply]; show (![b, 0, 0] : Fin 3 → ℕ) a + 1 * (x a).val = _; omega

/-- every other slab reads what it held. -/
theorem slab_miss {off : Fin 3 → ℕ} (inb : ∀ a, off a + S1x6272x256.size a ≤ S8x6272x256.size a) (w : Vec F S1x6272x256 .bf16)
    (b b' : ℕ) (hb' : b' < 8) (hoff : off = ![b, 0, 0]) (hne : b' ≠ b) :
    View.ld (M.view.read (Elt F) (M.view.writes (Elt F) f [(⟨Rect.unit off S1x6272x256.size inb, w⟩ : View.Piece (Elt F) S8x6272x256 .bf16)])) (slab b' hb')
      = View.ld (M.view.read (Elt F) f) (slab b' hb') := by
  funext x
  show M.view.read (Elt F) _ ((slab b' hb').emb x) = M.view.read (Elt F) f ((slab b' hb').emb x)
  have h0 : ((slab b' hb').emb x 0).val = b' + (x 0).val := by
    rw [Rect.emb_apply]; show b' + 1 * (x 0).val = _; omega
  have hx0 : (x 0).val < 1 := (x 0).isLt
  rw [View.read_writes_cons_unit_of_not_mem M.view f inb w [] ((slab b' hb').emb x) hoff 0
    (by show _ < b ∨ b + 1 ≤ _; omega)]
  rfl

end Slab

variable (c : Dev nD) (i : grid0.Coords) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x2x3136x256 .f32) (harg5 : arg5.IsWhole) (arg6 : Memref sig .tc .vmem S1x2x3136x256 .f32) (harg6 : arg6.IsWhole) (arg7 : Memref sig .tc .vmem S8x6272x256 .bf16) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole)
variable (x0 : Vec F S256x256 .f32) (x1 : Vec F S1x256 .f32) (x2 : Vec F S1x256 .f32) (x3 : Vec F S1x2x3136x256 .f32) (x4 : Vec F S1x2x3136x256 .f32)
    (xs0 : Vec F S8x6272x256 .bf16) (xs1 : Vec F S256x256 .f32) (xs2 : Vec F S1x256 .f32) (xs3 : Vec F S256x256 .bf16) (xs4 : Vec F S1x256 .f32)

/-! ### The first point -/
section A
variable (hc0 : cond0_0 i) (hc1 : cond0_1 i) (hc2 : ¬cond0_2 i) (hc3 : ¬cond0_3 i)

theorem runA_g : arg8.view.read (Elt F) (arg8.view.writes (Elt F) (harg8.unread xs1) (kRunA c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).2.1) = k0_pay6 x3 k0_pay1 := by
  unfold kRunA; dsimp only; sl_unfold_words
  rw [read_whole_store arg8 hz2, readAt_whole arg5 harg5 hz4, View.readCov_unit_zero _ hz2]

theorem runA_s : arg9.view.read (Elt F) (arg9.view.writes (Elt F) (harg9.unread xs2) (kRunA c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).2.2.1) = k0_pay7 x3 k0_pay2 := by
  unfold kRunA; dsimp only; sl_unfold_words
  rw [read_whole_store arg9 hz2, readAt_whole arg5 harg5 hz4, View.readCov_unit_zero _ hz2]

theorem runA_hit (b : ℕ) (hb : b < 8) (hoff : k0_off1 i = ![b, 0, 0]) :
    View.ld (arg7.view.read (Elt F) (arg7.view.writes (Elt F) (harg7.unread xs0) (kRunA c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).1)) (slab b hb) = k0_pay5 x3 := by
  unfold kRunA; dsimp only; sl_unfold_words
  refine (slab_hit arg7 _ _ _ b hb hoff).trans ?_
  rw [readAt_whole arg5 harg5 hz4]

theorem runA_miss (b b' : ℕ) (hb' : b' < 8) (hoff : k0_off1 i = ![b, 0, 0]) (hne : b' ≠ b) :
    View.ld (arg7.view.read (Elt F) (arg7.view.writes (Elt F) (harg7.unread xs0) (kRunA c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).1)) (slab b' hb') = View.ld xs0 (slab b' hb') := by
  unfold kRunA; dsimp only; sl_unfold_words
  refine (slab_miss arg7 _ _ _ b b' hb' hoff hne).trans ?_
  rw [harg7.read_unread]
end A

/-! ### A middle point of the first phase -/
section B
variable (hc0 : ¬cond0_0 i) (hc1 : cond0_1 i) (hc2 : ¬cond0_2 i) (hc3 : ¬cond0_3 i)

theorem runB_g : arg8.view.read (Elt F) (arg8.view.writes (Elt F) (harg8.unread xs1) (kRunB c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).2.1) = k0_pay6 x3 xs1 := by
  unfold kRunB; dsimp only; sl_unfold_words
  rw [read_whole_store arg8 hz2, readAt_whole arg5 harg5 hz4, readAt_whole arg8 harg8 hz2]

theorem runB_s : arg9.view.read (Elt F) (arg9.view.writes (Elt F) (harg9.unread xs2) (kRunB c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).2.2.1) = k0_pay7 x3 xs2 := by
  unfold kRunB; dsimp only; sl_unfold_words
  rw [read_whole_store arg9 hz2, readAt_whole arg5 harg5 hz4, readAt_whole arg9 harg9 hz2]

theorem runB_hit (b : ℕ) (hb : b < 8) (hoff : k0_off1 i = ![b, 0, 0]) :
    View.ld (arg7.view.read (Elt F) (arg7.view.writes (Elt F) (harg7.unread xs0) (kRunB c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).1)) (slab b hb) = k0_pay5 x3 := by
  unfold kRunB; dsimp only; sl_unfold_words
  refine (slab_hit arg7 _ _ _ b hb hoff).trans ?_
  rw [readAt_whole arg5 harg5 hz4]

theorem runB_miss (b b' : ℕ) (hb' : b' < 8) (hoff : k0_off1 i = ![b, 0, 0]) (hne : b' ≠ b) :
    View.ld (arg7.view.read (Elt F) (arg7.view.writes (Elt F) (harg7.unread xs0) (kRunB c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).1)) (slab b' hb') = View.ld xs0 (slab b' hb') := by
  unfold kRunB; dsimp only; sl_unfold_words
  refine (slab_miss arg7 _ _ _ b b' hb' hoff hne).trans ?_
  rw [harg7.read_unread]
end B

/-! ### The last point of the first phase -/
section C
variable (hc0 : ¬cond0_0 i) (hc1 : cond0_1 i) (hc2 : cond0_2 i) (hc3 : ¬cond0_3 i)

theorem runC_g : arg8.view.read (Elt F) (arg8.view.writes (Elt F) (harg8.unread xs1) (kRunC c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).2.1) = k0_pay6 x3 xs1 := by
  unfold kRunC; dsimp only; sl_unfold_words
  rw [read_whole_store arg8 hz2, readAt_whole arg5 harg5 hz4, readAt_whole arg8 harg8 hz2]

theorem runC_s : arg9.view.read (Elt F) (arg9.view.writes (Elt F) (harg9.unread xs2) (kRunC c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).2.2.1) = k0_pay7 x3 xs2 := by
  unfold kRunC; dsimp only; sl_unfold_words
  rw [read_whole_store arg9 hz2, readAt_whole arg5 harg5 hz4, readAt_whole arg9 harg9 hz2]

theorem runC_wf : arg10.view.read (Elt F) (arg10.view.writes (Elt F) (harg10.unread xs3) (kRunC c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).2.2.2.1)
    = k0_pay8 (k0_pay14 x0 (k0_pay6 x3 xs1) (k0_pay7 x3 xs2) x1) := by
  unfold kRunC; dsimp only; sl_unfold_words
  rw [read_whole_store arg10 hz2, readAt_whole arg2 harg2 hz2, readAt_whole arg3 harg3 hz2, View.readCov_unit_zero _ hz2, View.readCov_unit_zero _ hz2,
    readAt_whole arg5 harg5 hz4, readAt_whole arg8 harg8 hz2, readAt_whole arg9 harg9 hz2]

theorem runC_sh : arg11.view.read (Elt F) (arg11.view.writes (Elt F) (harg11.unread xs4) (kRunC c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).2.2.2.2.1)
    = k0_pay13 x0 (k0_pay6 x3 xs1) (k0_pay7 x3 xs2) x1 x2 := by
  unfold kRunC; dsimp only; sl_unfold_words
  rw [read_whole_store arg11 hz2, readAt_whole arg2 harg2 hz2, readAt_whole arg3 harg3 hz2, readAt_whole arg4 harg4 hz2, View.readCov_unit_zero _ hz2, View.readCov_unit_zero _ hz2,
    readAt_whole arg5 harg5 hz4, readAt_whole arg8 harg8 hz2, readAt_whole arg9 harg9 hz2]

theorem runC_hit (b : ℕ) (hb : b < 8) (hoff : k0_off1 i = ![b, 0, 0]) :
    View.ld (arg7.view.read (Elt F) (arg7.view.writes (Elt F) (harg7.unread xs0) (kRunC c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).1)) (slab b hb) = k0_pay5 x3 := by
  unfold kRunC; dsimp only; sl_unfold_words
  refine (slab_hit arg7 _ _ _ b hb hoff).trans ?_
  rw [readAt_whole arg5 harg5 hz4]

theorem runC_miss (b b' : ℕ) (hb' : b' < 8) (hoff : k0_off1 i = ![b, 0, 0]) (hne : b' ≠ b) :
    View.ld (arg7.view.read (Elt F) (arg7.view.writes (Elt F) (harg7.unread xs0) (kRunC c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).1)) (slab b' hb') = View.ld xs0 (slab b' hb') := by
  unfold kRunC; dsimp only; sl_unfold_words
  refine (slab_miss arg7 _ _ _ b b' hb' hoff hne).trans ?_
  rw [harg7.read_unread]
end C

/-! ### A point of the second phase -/
section D
variable (hc0 : ¬cond0_0 i) (hc1 : ¬cond0_1 i) (hc2 : ¬cond0_2 i) (hc3 : cond0_3 i)

theorem runD_out (f : arg6.view.ty.Contents (Elt F)) (b : ℕ) (hb : b < 8) (hoff : k0_off2 i = ![b, 0, 0]) :
    arg6.view.read (Elt F) (arg6.view.writes (Elt F) f (kRunD c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).1) = k0_pay9 (View.ld xs0 (slab b hb)) xs3 xs4 := by
  unfold kRunD; dsimp only; sl_unfold_words
  rw [read_whole_store arg6 hz4, readAt_whole arg10 harg10 hz2, readAt_whole arg11 harg11 hz2, View.readAt_eq_ld, harg7.read_unread]
  exact congrArg (fun v => k0_pay9 v xs3 xs4) (ld_slab_congr hoff _ b hb xs0)
end D

end Cert.Kernel.Gen

end
-- ==== Proof.KInvBits.lean ====
/-
  The proof data of the one pipeline. Before point n the five scratch buffers hold: the Gram accumulator
  and the column sums of the pairs so far (from zero), each kept pair in its slab, and, once the first
  phase is over, the folded weight and the shift; at (1, b) the output block is the printed function of
  slab b, the folded weight and the shift. The invariant is carried point by point through the four runs.
-/
import proofs.«152739_g2000502477920874_pallasbulk_293_22_alg».proof.Proof.KPiecesBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point number `n` of the sixteen. -/
def tAt (n : ℕ) : Fin cfg0.N := ⟨n % 16, lt_of_lt_of_eq (Nat.mod_lt n (by decide)) N_0.symm⟩
theorem tAt_val (t : Fin cfg0.N) : tAt t.val = t := Fin.ext (Nat.mod_eq_of_lt (lt_of_lt_of_eq t.isLt N_0))

/-- In the first phase the pair's slab is slab `t`; in the second the slab read is slab `t - 8`. -/
theorem off1_eq : ∀ t : Fin cfg0.N, t.val < 8 → k0_off1 (grid0.coords t) = ![t.val, 0, 0] :=
  (by decide +kernel : ∀ t : Fin grid0.N, t.val < 8 → k0_off1 (grid0.coords t) = ![t.val, 0, 0])
theorem off2_eq : ∀ t : Fin cfg0.N, 8 ≤ t.val → k0_off2 (grid0.coords t) = ![t.val - 8, 0, 0] :=
  (by decide +kernel : ∀ t : Fin grid0.N, 8 ≤ t.val → k0_off2 (grid0.coords t) = ![t.val - 8, 0, 0])

/-- Pair `n`'s rows, the weight, gamma and beta as the region finds them. -/
def Xn (c : Dev nD) (n : ℕ) : Vec F S1x2x3136x256 .f32 := iblk m c 3 (tAt n)
def Wb (c : Dev nD) : Vec F S256x256 .f32 := iblk m c 0 (tAt 7)
def γb (c : Dev nD) : Vec F S1x256 .f32 := iblk m c 1 (tAt 7)
def βb (c : Dev nD) : Vec F S1x256 .f32 := iblk m c 2 (tAt 7)
theorem Xn_val (c : Dev nD) (t : Fin cfg0.N) : Xn m c t.val = iblk m c 3 t := by unfold Xn; rw [tAt_val]

/-- The Gram accumulator and the column sums after pairs 0 … n. -/
def Gk (c : Dev nD) : ℕ → Vec F S256x256 .f32
  | 0 => k0_pay6 (Xn m c 0) k0_pay1
  | n + 1 => k0_pay6 (Xn m c (n + 1)) (Gk c n)
def Sk (c : Dev nD) : ℕ → Vec F S1x256 .f32
  | 0 => k0_pay7 (Xn m c 0) k0_pay2
  | n + 1 => k0_pay7 (Xn m c (n + 1)) (Sk c n)
/-- The folded weight and the shift. -/
def WFk (c : Dev nD) : Vec F S256x256 .bf16 := k0_pay8 (k0_pay14 (Wb m c) (Gk m c 7) (Sk m c 7) (γb m c))
def SHk (c : Dev nD) : Vec F S1x256 .f32 := k0_pay13 (Wb m c) (Gk m c 7) (Sk m c 7) (γb m c) (βb m c)
/-- The output block of point `t` of the second phase. -/
def outK (c : Dev nD) (t : Fin cfg0.N) : Vec F S1x2x3136x256 .f32 := k0_pay9 (k0_pay5 (Xn m c (t.val - 8))) (WFk m c) (SHk m c)

/-- What the scratch buffers hold before point `n`. -/
def Inv (c : Dev nD) (n : ℕ) (xs0 : Vec F S8x6272x256 .bf16) (xs1 : Vec F S256x256 .f32) (xs2 : Vec F S1x256 .f32) (xs3 : Vec F S256x256 .bf16) (xs4 : Vec F S1x256 .f32) : Prop :=
  (∀ k, n = k + 1 → k < 8 → xs1 = Gk m c k ∧ xs2 = Sk m c k)
  ∧ (∀ b (hb : b < 8), b < n → View.ld xs0 (slab b hb) = k0_pay5 (Xn m c b))
  ∧ (8 ≤ n → xs3 = WFk m c ∧ xs4 = SHk m c)

variable {m}
theorem inv_A {c : Dev nD} {n : ℕ} (hn : n = 0) (hn8 : n < 8) {xs3 : Vec F S256x256 .bf16} {xs4 : Vec F S1x256 .f32} {ys0 : Vec F S8x6272x256 .bf16}
    (hhit : View.ld ys0 (slab n hn8) = k0_pay5 (Xn m c n)) :
    Inv m c (n + 1) ys0 (k0_pay6 (Xn m c n) k0_pay1) (k0_pay7 (Xn m c n) k0_pay2) xs3 xs4 := by
  subst hn
  refine ⟨fun k hk _ => ?_, fun b hb hb1 => ?_, fun h => by omega⟩
  · obtain rfl : k = 0 := by omega
    exact ⟨rfl, rfl⟩
  · obtain rfl : b = 0 := by omega
    exact hhit

theorem inv_B {c : Dev nD} {n : ℕ} (h0 : 0 < n) (h7 : n < 7) {xs0 : Vec F S8x6272x256 .bf16} {xs1 : Vec F S256x256 .f32} {xs2 : Vec F S1x256 .f32} {xs3 : Vec F S256x256 .bf16} {xs4 : Vec F S1x256 .f32}
    (hinv : Inv m c n xs0 xs1 xs2 xs3 xs4) {ys0 : Vec F S8x6272x256 .bf16}
    (hn8 : n < 8) (hhit : View.ld ys0 (slab n hn8) = k0_pay5 (Xn m c n))
    (hmiss : ∀ b' (hb' : b' < 8), b' ≠ n → View.ld ys0 (slab b' hb') = View.ld xs0 (slab b' hb')) :
    Inv m c (n + 1) ys0 (k0_pay6 (Xn m c n) xs1) (k0_pay7 (Xn m c n) xs2) xs3 xs4 := by
  obtain ⟨hgs, hsl, _⟩ := hinv
  refine ⟨fun k hk _ => ?_, fun b hb hb1 => ?_, fun h => by omega⟩
  · obtain rfl : k = n := by omega
    obtain ⟨k', rfl⟩ : ∃ k', k = k' + 1 := ⟨k - 1, by omega⟩
    obtain ⟨e1, e2⟩ := hgs k' rfl (by omega)
    rw [e1, e2]; exact ⟨rfl, rfl⟩
  · by_cases hbn : b = n
    · subst hbn; exact hhit
    · rw [hmiss b hb hbn]; exact hsl b hb (by omega)

theorem inv_C {c : Dev nD} {n : ℕ} (hn : n = 7) (hn8 : n < 8) {xs0 : Vec F S8x6272x256 .bf16} {xs1 : Vec F S256x256 .f32} {xs2 : Vec F S1x256 .f32} {xs3 : Vec F S256x256 .bf16} {xs4 : Vec F S1x256 .f32}
    (hinv : Inv m c n xs0 xs1 xs2 xs3 xs4) {ys0 : Vec F S8x6272x256 .bf16}
    (hhit : View.ld ys0 (slab n hn8) = k0_pay5 (Xn m c n))
    (hmiss : ∀ b' (hb' : b' < 8), b' ≠ n → View.ld ys0 (slab b' hb') = View.ld xs0 (slab b' hb')) :
    Inv m c (n + 1) ys0 (k0_pay6 (Xn m c n) xs1) (k0_pay7 (Xn m c n) xs2)
      (k0_pay8 (k0_pay14 (Wb m c) (k0_pay6 (Xn m c n) xs1) (k0_pay7 (Xn m c n) xs2) (γb m c)))
      (k0_pay13 (Wb m c) (k0_pay6 (Xn m c n) xs1) (k0_pay7 (Xn m c n) xs2) (γb m c) (βb m c)) := by
  subst hn
  obtain ⟨hgs, hsl, _⟩ := hinv
  obtain ⟨e1, e2⟩ := hgs 6 rfl (by decide)
  have g7 : k0_pay6 (Xn m c 7) xs1 = Gk m c 7 := by rw [e1]; rfl
  have s7 : k0_pay7 (Xn m c 7) xs2 = Sk m c 7 := by rw [e2]; rfl
  refine ⟨fun k hk _ => ?_, fun b hb hb1 => ?_, fun _ => ?_⟩
  · obtain rfl : k = 7 := by omega
    exact ⟨g7, s7⟩
  · by_cases hbn : b = 7
    · subst hbn; exact hhit
    · rw [hmiss b hb hbn]; exact hsl b hb (by omega)
  · rw [g7, s7]; exact ⟨rfl, rfl⟩

theorem inv_D {c : Dev nD} {n : ℕ} (h8 : 8 ≤ n) {xs0 : Vec F S8x6272x256 .bf16} {xs1 : Vec F S256x256 .f32} {xs2 : Vec F S1x256 .f32} {xs3 : Vec F S256x256 .bf16} {xs4 : Vec F S1x256 .f32}
    (hinv : Inv m c n xs0 xs1 xs2 xs3 xs4) : Inv m c (n + 1) xs0 xs1 xs2 xs3 xs4 := by
  obtain ⟨_, hsl, hw⟩ := hinv
  exact ⟨fun k hk hk8 => by omega, fun b hb _ => hsl b hb (by omega), fun _ => hw h8⟩
variable (m)

/-- The region's invariant before point `n`: the five scratch buffers at contents of which `Inv` holds, and the generator register. -/
def PhiK (c : Dev nD) (n : ℕ) : sProp 𝕄 :=
  iprop(∃ xs0, ∃ xs1, ∃ xs2, ∃ xs3, ∃ xs4, ⌜Inv m c n xs0 xs1 xs2 xs3 xs4⌝
    ∗ (owns (c : Thread nD τ) scM0_0 fullShare xs0 ∗ owns (c : Thread nD τ) scM0_1 fullShare xs1 ∗ owns (c : Thread nD τ) scM0_2 fullShare xs2 ∗ owns (c : Thread nD τ) scM0_3 fullShare xs3 ∗ owns (c : Thread nD τ) scM0_4 fullShare xs4)
    ∗ (∃ r, prngReg c r))

/-- The proof data: the arrays as the region finds them; the inputs' buffers at their blocks; the output's at `outK`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outK m c t
  Φ t := PhiK m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outK m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.Kernel.Gen

end
-- ==== Proof.KBodyBits.lean ====
/-
  The body obligation: at each of the sixteen points the fused body, from the invariant before the point,
  runs to the invariant after it, leaving the inputs' buffers as they were and, in the second phase, the
  output's buffer at the block the proof data name; in the first phase the output's buffer is handed back
  as it was found.
-/
import proofs.«152739_g2000502477920874_pallasbulk_293_22_alg».proof.Proof.KInvBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiK m c (t.val + 1) from rfl, show (dats m 0 c).Φ t.castSucc = PhiK m c t.val from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  have hN : t.val < 16 := lt_of_lt_of_eq t.isLt (show cfg0.N = 16 from N_0)
  unfold PhiK
  by_cases h0 : t.val = 0
  · -- the first point
      rw [Dat.leavesExact_idle _ 4 t ((idleAt0_4 t).trans (decide_eq_true (by omega))) ((flush0_4 t).trans (decide_eq_false (by omega)))]
      iintro ⟨⟨%xs0, %xs1, %xs2, %xs3, %xs4, %hinv, ⟨HS0, HS1, HS2, HS3, HS4⟩, Hg⟩, Ho, ⟨%d0, H0⟩, ⟨%d1, H1⟩, ⟨%d2, H2⟩, ⟨%d3, H3⟩, ⟨%d4, H4⟩⟩
      iapply ((kRunA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr (by omega)) (fun h => by have := (hcond0_2 t).mp h; omega) (fun h => by have := (hcond0_3 t).mp h; omega) (iblk m c 0 t) (iblk m c 1 t) (iblk m c 2 t) (iblk m c 3 t) ((dats m 0 c).before 4 t d4) xs0 xs1 xs2 xs3 xs4).2.2.2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      iintro ⟨H0, H1, H2, H3, H4, HS0, HS1, HS2, HS3, HS4⟩
      isplitl [HS0 HS1 HS2 HS3 HS4 Hg]
      · iexists _, _, _, _, _
        isplitr; swap
        · isplitl [HS0 HS1 HS2 HS3 HS4]
          · isplitl [HS0]
            · unfold owns; iexists _; isplitr; swap; · iexact HS0
              ipureintro; rfl
            isplitl [HS1]
            · unfold owns; iexists _; isplitr; swap; · iexact HS1
              ipureintro; rfl
            isplitl [HS2]
            · unfold owns; iexists _; isplitr; swap; · iexact HS2
              ipureintro; rfl
            isplitl [HS3]
            · iexact HS3
            iexact HS4
          iexact Hg
        · ipureintro
          rw [runA_g, runA_s, ← Xn_val m c t]
          exact inv_A h0 (by omega) (runA_hit c _ _ _ _ _ _ _ _ _ _ _ _ _ _ _ _ _ _ _ _ _ _ _ _ _ _ _ _ _ _ _ _ _ _ _ t.val (by omega) (off1_eq t (by omega)))
      isplitl [Ho]; · iexact Ho
      isplitl [H0]; · iexact H0
      isplitl [H1]; · iexact H1
      isplitl [H2]; · iexact H2
      isplitl [H3]; · iexact H3
      iexists d4; iexact H4
  · by_cases h7' : t.val < 7
    · -- a middle point of the first phase
        rw [Dat.leavesExact_idle _ 4 t ((idleAt0_4 t).trans (decide_eq_true (by omega))) ((flush0_4 t).trans (decide_eq_false (by omega)))]
        iintro ⟨⟨%xs0, %xs1, %xs2, %xs3, %xs4, %hinv, ⟨HS0, HS1, HS2, HS3, HS4⟩, Hg⟩, Ho, ⟨%d0, H0⟩, ⟨%d1, H1⟩, ⟨%d2, H2⟩, ⟨%d3, H3⟩, ⟨%d4, H4⟩⟩
        iapply ((kRunB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr (by omega)) (fun h => by have := (hcond0_2 t).mp h; omega) (fun h => by have := (hcond0_3 t).mp h; omega) (iblk m c 0 t) (iblk m c 1 t) (iblk m c 2 t) (iblk m c 3 t) ((dats m 0 c).before 4 t d4) xs0 xs1 xs2 xs3 xs4).2.2.2 Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        isplitl [HS4]; · iexact HS4
        iintro ⟨H0, H1, H2, H3, H4, HS0, HS1, HS2, HS3, HS4⟩
        isplitl [HS0 HS1 HS2 HS3 HS4 Hg]
        · iexists _, _, _, _, _
          isplitr; swap
          · isplitl [HS0 HS1 HS2 HS3 HS4]
            · isplitl [HS0]
              · unfold owns; iexists _; isplitr; swap; · iexact HS0
                ipureintro; rfl
              isplitl [HS1]
              · unfold owns; iexists _; isplitr; swap; · iexact HS1
                ipureintro; rfl
              isplitl [HS2]
              · unfold owns; iexists _; isplitr; swap; · iexact HS2
                ipureintro; rfl
              isplitl [HS3]
              · iexact HS3
              iexact HS4
            iexact Hg
          · ipureintro
            rw [runB_g, runB_s, ← Xn_val m c t]
            exact inv_B (by omega) h7' hinv (by omega) (runB_hit c _ _ _ _ _ _ _ _ _ _ _ _ _ _ _ _ _ _ _ _ _ _ _ _ _ _ _ _ _ _ _ _ _ _ _ t.val (by omega) (off1_eq t (by omega)))
              (fun b' hb' hne => runB_miss c _ _ _ _ _ _ _ _ _ _ _ _ _ _ _ _ _ _ _ _ _ _ _ _ _ _ _ _ _ _ _ _ _ _ _ t.val b' hb' (off1_eq t (by omega)) hne)
        isplitl [Ho]; · iexact Ho
        isplitl [H0]; · iexact H0
        isplitl [H1]; · iexact H1
        isplitl [H2]; · iexact H2
        isplitl [H3]; · iexact H3
        iexists d4; iexact H4
    · by_cases h7 : t.val = 7
      · -- the last point of the first phase
        rw [Dat.leavesExact_idle _ 4 t ((idleAt0_4 t).trans (decide_eq_true (by omega))) ((flush0_4 t).trans (decide_eq_false (by omega)))]
        iintro ⟨⟨%xs0, %xs1, %xs2, %xs3, %xs4, %hinv, ⟨HS0, HS1, HS2, HS3, HS4⟩, Hg⟩, Ho, ⟨%d0, H0⟩, ⟨%d1, H1⟩, ⟨%d2, H2⟩, ⟨%d3, H3⟩, ⟨%d4, H4⟩⟩
        iapply ((kRunC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr (by omega)) ((hcond0_2 t).mpr h7) (fun h => by have := (hcond0_3 t).mp h; omega) (iblk m c 0 t) (iblk m c 1 t) (iblk m c 2 t) (iblk m c 3 t) ((dats m 0 c).before 4 t d4) xs0 xs1 xs2 xs3 xs4).2.2.2.2.2 Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        isplitl [HS4]; · iexact HS4
        iintro ⟨H0, H1, H2, H3, H4, HS0, HS1, HS2, HS3, HS4⟩
        isplitl [HS0 HS1 HS2 HS3 HS4 Hg]
        · iexists _, _, _, _, _
          isplitr; swap
          · isplitl [HS0 HS1 HS2 HS3 HS4]
            · isplitl [HS0]
              · unfold owns; iexists _; isplitr; swap; · iexact HS0
                ipureintro; rfl
              isplitl [HS1]
              · unfold owns; iexists _; isplitr; swap; · iexact HS1
                ipureintro; rfl
              isplitl [HS2]
              · unfold owns; iexists _; isplitr; swap; · iexact HS2
                ipureintro; rfl
              isplitl [HS3]
              · unfold owns; iexists _; isplitr; swap; · iexact HS3
                ipureintro; rfl
              unfold owns; iexists _; isplitr; swap; · iexact HS4
              ipureintro; rfl
            iexact Hg
          · ipureintro
            have hW : iblk m c 0 t = Wb m c := by unfold Wb; rw [← h7, tAt_val]
            have hγ : iblk m c 1 t = γb m c := by unfold γb; rw [← h7, tAt_val]
            have hβ : iblk m c 2 t = βb m c := by unfold βb; rw [← h7, tAt_val]
            rw [runC_g, runC_s, runC_wf, runC_sh, ← Xn_val m c t, hW, hγ, hβ]
            exact inv_C h7 (by omega) hinv (runC_hit c _ _ _ _ _ _ _ _ _ _ _ _ _ _ _ _ _ _ _ _ _ _ _ _ _ _ _ _ _ _ _ _ _ _ _ t.val (by omega) (off1_eq t (by omega)))
              (fun b' hb' hne => runC_miss c _ _ _ _ _ _ _ _ _ _ _ _ _ _ _ _ _ _ _ _ _ _ _ _ _ _ _ _ _ _ _ _ _ _ _ t.val b' hb' (off1_eq t (by omega)) hne)
        isplitl [Ho]; · iexact Ho
        isplitl [H0]; · iexact H0
        isplitl [H1]; · iexact H1
        isplitl [H2]; · iexact H2
        isplitl [H3]; · iexact H3
        iexists d4; iexact H4
      · -- the second phase
        rw [show (dats m 0 c).leavesExact 4 t = owns (c : Thread nD τ) (ms0_4 t) fullShare ((dats m 0 c).after 4 t) from by
          unfold Dat.leavesExact; rw [(idleAt0_4 t).trans (decide_eq_false (by omega))], after0_4]
        iintro ⟨⟨%xs0, %xs1, %xs2, %xs3, %xs4, %hinv, ⟨HS0, HS1, HS2, HS3, HS4⟩, Hg⟩, Ho, ⟨%d0, H0⟩, ⟨%d1, H1⟩, ⟨%d2, H2⟩, ⟨%d3, H3⟩, ⟨%d4, H4⟩⟩
        iapply ((kRunD c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => by have := (hcond0_1 t).mp h; omega) (fun h => by have := (hcond0_2 t).mp h; omega) ((hcond0_3 t).mpr (by omega)) (iblk m c 0 t) (iblk m c 1 t) (iblk m c 2 t) (iblk m c 3 t) ((dats m 0 c).before 4 t d4) xs0 xs1 xs2 xs3 xs4).2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        iintro ⟨H0, H1, H2, H3, ⟨%f4, H4⟩, HS0, HS1, HS2, HS3, HS4⟩
        isplitl [HS0 HS1 HS2 HS3 HS4 Hg]
        · iexists _, _, _, _, _
          isplitr; swap
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          · ipureintro
            exact inv_D (by omega) hinv
        isplitl [Ho]; · iexact Ho
        isplitl [H0]; · iexact H0
        isplitl [H1]; · iexact H1
        isplitl [H2]; · iexact H2
        isplitl [H3]; · iexact H3
        unfold owns; iexists _; isplitr; swap; · iexact H4
        ipureintro
        obtain ⟨_, hsl, hw⟩ := hinv
        obtain ⟨e3, e4⟩ := hw (by omega)
        rw [runD_out c _ _ _ _ _ _ _ _ _ _ _ _ _ _ _ _ _ _ _ _ _ _ _ _ _ _ _ _ _ _ _ _ _ _ _ f4 (t.val - 8) (by omega) (off2_eq t (by omega)), hsl (t.val - 8) (by omega) (by omega), e3, e4]
        rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, and the invariant after the last point gives it back. -/
theorem hin (c : Dev nD) : Pipeline.ΦA spec0 c ⊢ (dats m 0 c).Φ 0 := by
  rw [show (dats m 0 c).Φ 0 = PhiK m c 0 from rfl, PhiA0_eq]; unfold PhiK
  iintro ⟨⟨⟨%d0, HS0⟩, ⟨%d1, HS1⟩, ⟨%d2, HS2⟩, ⟨%d3, HS3⟩, ⟨%d4, HS4⟩⟩, Hg⟩
  iexists d0, d1, d2, d3, d4
  isplitr; · ipureintro; exact ⟨fun k hk _ => by omega, fun b hb hb0 => by omega, fun h => by omega⟩
  isplitl [HS0 HS1 HS2 HS3 HS4]
  · isplitl [HS0]; · iexact HS0
    isplitl [HS1]; · iexact HS1
    isplitl [HS2]; · iexact HS2
    isplitl [HS3]; · iexact HS3
    iexact HS4
  iexact Hg

theorem hout (c : Dev nD) : (dats m 0 c).Φ (Fin.last cfg0.N) ⊢ Pipeline.ΦA spec0 c := by
  rw [show (dats m 0 c).Φ (Fin.last cfg0.N) = PhiK m c (Fin.last cfg0.N).val from rfl, PhiA0_eq]; unfold PhiK
  iintro ⟨%xs0, %xs1, %xs2, %xs3, %xs4, -, ⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

end Cert.Kernel.Gen

end
-- ==== Proof.KFrameBits.lean ====
/-
  The frame run of the whole program around its one region: every weakly fair execution terminates without a
  fault, the arrays the pipeline stages end at what the proof data's blocks, written back, leave in them, every
  other buffer at what the host lines after the region compute from those; and from it the frame claim.
-/
import proofs.«152739_g2000502477920874_pallasbulk_293_22_alg».proof.Proof.KBodyBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Gen

end
-- ==== Proof.KConds.lean ====
/-
  The fused body branches four times on the grid point (p, b) of the 2 × 8 grid, walked p-major:
  it zeroes the Gram accumulator and the column sums at (0, 0); accumulates them, and keeps the
  pair's rows, at every (0, b); folds the batch statistics into the weight at (0, 7); applies the
  folded weight at every (1, b). Here each condition is decided over the sixteen points in closed
  form, and the output window is idle exactly on the first eight.
-/
import proofs.«152739_g2000502477920874_pallasbulk_293_22_alg».proof.Proof.Gen.KernelIdeal.Frame
import proofs.«152739_g2000502477920874_pallasbulk_293_22_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- (p, b) = (0, 0): the accumulators are zeroed. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- p = 0: the pair's rows are kept and accumulated. -/
abbrev cond0_1 (i : grid0.Coords) : Prop := k0_cond2 i = 1#1
theorem hcond0_1 : ∀ t : Fin cfg0.N, cond0_1 (grid0.coords t) ↔ t.val < 8 :=
  (by decide +kernel : ∀ t : Fin grid0.N, cond0_1 (grid0.coords t) ↔ t.val < 8)

/-- (p, b) = (0, 7): the statistics are folded into the weight. -/
abbrev cond0_2 (i : grid0.Coords) : Prop := (Scalar.cmpi .ne (Scalar.extui (Scalar.andi (Scalar.cmpi .eq (BitVec.ofNat 32 (i 0).val) 0#32) (Scalar.cmpi .eq (BitVec.ofNat 32 (i 1).val) 7#32))) 0#32) = 1#1
theorem hcond0_2 : ∀ t : Fin cfg0.N, cond0_2 (grid0.coords t) ↔ t.val = 7 :=
  (by decide +kernel : ∀ t : Fin grid0.N, cond0_2 (grid0.coords t) ↔ t.val = 7)

/-- p = 1: the folded weight is applied to the kept rows. -/
abbrev cond0_3 (i : grid0.Coords) : Prop := k0_cond4 i = 1#1
theorem hcond0_3 : ∀ t : Fin cfg0.N, cond0_3 (grid0.coords t) ↔ 8 ≤ t.val :=
  (by decide +kernel : ∀ t : Fin grid0.N, cond0_3 (grid0.coords t) ↔ 8 ≤ t.val)

/-- The inputs are never idle; the output is idle on the first eight points and written back on none of them. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, cfg0.idle 4 (grid0.coords t) = decide (t.val < 8) :=
  (by decide +kernel : ∀ t : Fin grid0.N, cfg0.idle 4 (grid0.coords t) = decide (t.val < 8))
theorem flush0_4 : ∀ t : Fin cfg0.N, (cfg0.win 4).flush t = decide (8 ≤ t.val) :=
  (by decide +kernel : ∀ t : Fin grid0.N, win0_4.flush t = decide (8 ≤ t.val))

/-- Each window's current staging memref at a point, and the five scratch buffers. -/
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x3136x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x3136x256 .f32 := win0_4.stage (cfg0.slots t 4)
abbrev hs0_4 (t : Fin cfg0.N) : (ms0_4 t).IsWhole := hstage0_4 ((cfg0.slots t 4).cast nbuf0_4)
abbrev scM0_0 : Memref sig .tc .vmem S8x6272x256 .bf16 := Memref.whole cc0_scratch0
abbrev scM0_1 : Memref sig .tc .vmem S256x256 .f32 := Memref.whole cc0_scratch1
abbrev scM0_2 : Memref sig .tc .vmem S1x256 .f32 := Memref.whole cc0_scratch2
abbrev scM0_3 : Memref sig .tc .vmem S256x256 .bf16 := Memref.whole cc0_scratch3
abbrev scM0_4 : Memref sig .tc .vmem S1x256 .f32 := Memref.whole cc0_scratch4

/-- What the launch hands the region beside the windows: the five scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.KRunA.lean ====
/-
  The fused body run whole at the first point (0, 0): the accumulators zeroed, then the pair's rows kept and accumulated.
  From the four input windows' buffers at their blocks, the output's buffer and the five scratch buffers at
  given contents, the body runs to the continuation with the inputs as they were and every buffer it stored into
  at its earlier contents overwritten by the stores made, newest first; the stores are found by running the body.
-/
import proofs.«152739_g2000502477920874_pallasbulk_293_22_alg».proof.Proof.KConds

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kRunA (c : Dev nD) (i : grid0.Coords) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x2x3136x256 .f32) (harg5 : arg5.IsWhole) (arg6 : Memref sig .tc .vmem S1x2x3136x256 .f32) (harg6 : arg6.IsWhole) (arg7 : Memref sig .tc .vmem S8x6272x256 .bf16) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (hc0 : cond0_0 i) (hc1 : cond0_1 i) (hc2 : ¬cond0_2 i) (hc3 : ¬cond0_3 i)
    (x0 : Vec F S256x256 .f32) (x1 : Vec F S1x256 .f32) (x2 : Vec F S1x256 .f32) (x3 : Vec F S1x2x3136x256 .f32) (x4 : Vec F S1x2x3136x256 .f32)
    (xs0 : Vec F S8x6272x256 .bf16) (xs1 : Vec F S256x256 .f32) (xs2 : Vec F S1x256 .f32) (xs3 : Vec F S256x256 .bf16) (xs4 : Vec F S1x256 .f32) :
    Σ' (L7 : List (View.Piece (Elt F) S8x6272x256 .bf16)), Σ' (L8 : List (View.Piece (Elt F) S256x256 .f32)), { L9 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xs0) L7) ∗ (arg8.view.loc (c : Thread nD τ) ↦[arg8.view.set]{fullShare} arg8.view.writes (Elt F) (harg8.unread xs1) L8) ∗ (arg9.view.loc (c : Thread nD τ) ↦[arg9.view.set]{fullShare} arg9.view.writes (Elt F) (harg9.unread xs2) L9) ∗ owns (c : Thread nD τ) arg10 fullShare xs3 ∗ owns (c : Thread nD τ) arg11 fullShare xs4) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3; obtain rfl := harg11.eq_unread hfs4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    isplitl [HS0]; · iexact HS0
    isplitl [HS1]; · iexact HS1
    isplitl [HS2]; · iexact HS2
    isplitl [HS3]
    · iexists _; isplitr; · ipureintro; exact harg10.read_unread _
      iexact HS3
    iexists _; isplitr; · ipureintro; exact harg11.read_unread _
    iexact HS4

end Cert.KernelIdeal.Gen

end
-- ==== Proof.KRunB.lean ====
/-
  The fused body run whole at a point (0, b), 0 < b < 7: the pair's rows kept and accumulated.
  From the four input windows' buffers at their blocks, the output's buffer and the five scratch buffers at
  given contents, the body runs to the continuation with the inputs as they were and every buffer it stored into
  at its earlier contents overwritten by the stores made, newest first; the stores are found by running the body.
-/
import proofs.«152739_g2000502477920874_pallasbulk_293_22_alg».proof.Proof.KConds

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kRunB (c : Dev nD) (i : grid0.Coords) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x2x3136x256 .f32) (harg5 : arg5.IsWhole) (arg6 : Memref sig .tc .vmem S1x2x3136x256 .f32) (harg6 : arg6.IsWhole) (arg7 : Memref sig .tc .vmem S8x6272x256 .bf16) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (hc0 : ¬cond0_0 i) (hc1 : cond0_1 i) (hc2 : ¬cond0_2 i) (hc3 : ¬cond0_3 i)
    (x0 : Vec F S256x256 .f32) (x1 : Vec F S1x256 .f32) (x2 : Vec F S1x256 .f32) (x3 : Vec F S1x2x3136x256 .f32) (x4 : Vec F S1x2x3136x256 .f32)
    (xs0 : Vec F S8x6272x256 .bf16) (xs1 : Vec F S256x256 .f32) (xs2 : Vec F S1x256 .f32) (xs3 : Vec F S256x256 .bf16) (xs4 : Vec F S1x256 .f32) :
    Σ' (L7 : List (View.Piece (Elt F) S8x6272x256 .bf16)), Σ' (L8 : List (View.Piece (Elt F) S256x256 .f32)), { L9 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xs0) L7) ∗ (arg8.view.loc (c : Thread nD τ) ↦[arg8.view.set]{fullShare} arg8.view.writes (Elt F) (harg8.unread xs1) L8) ∗ (arg9.view.loc (c : Thread nD τ) ↦[arg9.view.set]{fullShare} arg9.view.writes (Elt F) (harg9.unread xs2) L9) ∗ owns (c : Thread nD τ) arg10 fullShare xs3 ∗ owns (c : Thread nD τ) arg11 fullShare xs4) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3; obtain rfl := harg11.eq_unread hfs4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    isplitl [HS0]; · iexact HS0
    isplitl [HS1]; · iexact HS1
    isplitl [HS2]; · iexact HS2
    isplitl [HS3]
    · iexists _; isplitr; · ipureintro; exact harg10.read_unread _
      iexact HS3
    iexists _; isplitr; · ipureintro; exact harg11.read_unread _
    iexact HS4

end Cert.KernelIdeal.Gen

end
-- ==== Proof.KRunC.lean ====
/-
  The fused body run whole at the point (0, 7): the last pair kept and accumulated, then the statistics folded into the weight and the shift.
  From the four input windows' buffers at their blocks, the output's buffer and the five scratch buffers at
  given contents, the body runs to the continuation with the inputs as they were and every buffer it stored into
  at its earlier contents overwritten by the stores made, newest first; the stores are found by running the body.
-/
import proofs.«152739_g2000502477920874_pallasbulk_293_22_alg».proof.Proof.KConds

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kRunC (c : Dev nD) (i : grid0.Coords) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x2x3136x256 .f32) (harg5 : arg5.IsWhole) (arg6 : Memref sig .tc .vmem S1x2x3136x256 .f32) (harg6 : arg6.IsWhole) (arg7 : Memref sig .tc .vmem S8x6272x256 .bf16) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (hc0 : ¬cond0_0 i) (hc1 : cond0_1 i) (hc2 : cond0_2 i) (hc3 : ¬cond0_3 i)
    (x0 : Vec F S256x256 .f32) (x1 : Vec F S1x256 .f32) (x2 : Vec F S1x256 .f32) (x3 : Vec F S1x2x3136x256 .f32) (x4 : Vec F S1x2x3136x256 .f32)
    (xs0 : Vec F S8x6272x256 .bf16) (xs1 : Vec F S256x256 .f32) (xs2 : Vec F S1x256 .f32) (xs3 : Vec F S256x256 .bf16) (xs4 : Vec F S1x256 .f32) :
    Σ' (L7 : List (View.Piece (Elt F) S8x6272x256 .bf16)), Σ' (L8 : List (View.Piece (Elt F) S256x256 .f32)), Σ' (L9 : List (View.Piece (Elt F) S1x256 .f32)), Σ' (L10 : List (View.Piece (Elt F) S256x256 .bf16)), { L11 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xs0) L7) ∗ (arg8.view.loc (c : Thread nD τ) ↦[arg8.view.set]{fullShare} arg8.view.writes (Elt F) (harg8.unread xs1) L8) ∗ (arg9.view.loc (c : Thread nD τ) ↦[arg9.view.set]{fullShare} arg9.view.writes (Elt F) (harg9.unread xs2) L9) ∗ (arg10.view.loc (c : Thread nD τ) ↦[arg10.view.set]{fullShare} arg10.view.writes (Elt F) (harg10.unread xs3) L10) ∗ (arg11.view.loc (c : Thread nD τ) ↦[arg11.view.set]{fullShare} arg11.view.writes (Elt F) (harg11.unread xs4) L11)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__fused_body_eq_skeleton]; unfold cc0__fused_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3; obtain rfl := harg11.eq_unread hfs4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    isplitl [HS0]; · iexact HS0
    isplitl [HS1]; · iexact HS1
    isplitl [HS2]; · iexact HS2
    isplitl [HS3]; · iexact HS3
    iexact HS4

end Cert.KernelIdeal.Gen

end
-- ==== Proof.KRunD.lean ====
/-
  The fused body run whole at a point (1, b): the folded weight applied to the pair's kept rows, the shift added, the negative part dropped.
  From the four input windows' buffers at their blocks, the output's buffer and the five scratch buffers at
  given contents, the body runs to the continuation with the inputs as they were and every buffer it stored into
  at its earlier contents overwritten by the stores made, newest first; the stores are found by running the body.
-/
import proofs.«152739_g2000502477920874_pallasbulk_293_22_alg».proof.Proof.KConds

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kRunD (c : Dev nD) (i : grid0.Coords) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x2x3136x256 .f32) (harg5 : arg5.IsWhole) (arg6 : Memref sig .tc .vmem S1x2x3136x256 .f32) (harg6 : arg6.IsWhole) (arg7 : Memref sig .tc .vmem S8x6272x256 .bf16) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole) (hc0 : ¬cond0_0 i) (hc1 : ¬cond0_1 i) (hc2 : ¬cond0_2 i) (hc3 : cond0_3 i)
    (x0 : Vec F S256x256 .f32) (x1 : Vec F S1x256 .f32) (x2 : Vec F S1x256 .f32) (x3 : Vec F S1x2x3136x256 .f32) (x4 : Vec F S1x2x3136x256 .f32)
    (xs0 : Vec F S8x6272x256 .bf16) (xs1 : Vec F S256x256 .f32) (xs2 : Vec F S1x256 .f32) (xs3 : Vec F S256x256 .bf16) (xs4 : Vec F S1x256 .f32) :
    { LO : List (View.Piece (Elt F) S1x2x3136x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3; obtain rfl := harg11.eq_unread hfs4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]
    · iexists _; isplitr; · ipureintro; exact harg10.read_unread _
      iexact HS3
    iexists _; isplitr; · ipureintro; exact harg11.read_unread _
    iexact HS4

end Cert.KernelIdeal.Gen

end
-- ==== Proof.KPieces.lean ====
/-
  What each run of the fused body leaves in the buffers it stores into, read back as plain functions of
  what it was handed: the Gram accumulator grows by the pair's XᵀX, the column sums by the pair's column
  sums, both from zero at the first point; the pair's rows land in their slab of the kept-rows scratch and
  every other slab keeps what it held; at (0, 7) the folded weight and the shift are the printed functions
  of the weight, the finished accumulators, gamma and beta; at (1, b) the output block is the printed
  function of slab b, the folded weight and the shift.
-/
import proofs.«152739_g2000502477920874_pallasbulk_293_22_alg».proof.Proof.KRunA
import proofs.«152739_g2000502477920874_pallasbulk_293_22_alg».proof.Proof.KRunB
import proofs.«152739_g2000502477920874_pallasbulk_293_22_alg».proof.Proof.KRunC
import proofs.«152739_g2000502477920874_pallasbulk_293_22_alg».proof.Proof.KRunD
import Idealize.ShloMosaic.Lib.Pipeline.Value
import Idealize.ShloMosaic.Lib.WritesUnit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz4 : (![0, 0, 0, 0] : Fin 4 → ℕ) = fun _ => 0 := by funext a; fin_cases a <;> rfl

section Whole
variable {sp : Space} {S : Shape} {e : EltTy} (M : Memref sig .tc sp S e) (h : M.IsWhole)

/-- A load of a whole buffer through the zero-offset whole rectangle reads its contents. -/
theorem readAt_whole {off : Fin S.rank → ℕ} (hz : off = fun _ => 0) (inb : ∀ a, off a + S.size a ≤ S.size a) (x : S.Idx → Elt F e) :
    View.readAt (Elt F) M.view (Rect.unit off S.size inb).toLoadRect (h.unread x) = x := by
  rw [View.readAt_eq_ld, h.read_unread, View.ld_unit_zero hz]

/-- After stores the newest of which goes through the zero-offset whole rectangle, the buffer reads that store's value. -/
theorem read_whole_store {off : Fin S.rank → ℕ} (hz : off = fun _ => 0) (inb : ∀ a, off a + S.size a ≤ S.size a)
    (f : M.view.ty.Contents (Elt F)) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero hz inb y⟩), View.canon_cons_unit_zero hz]

end Whole

/-- Slab `b` of the kept-rows scratch: pair `b`'s 6272 rows. -/
abbrev slabInb (b : ℕ) (hb : b < 8) : ∀ a, (![b, 0, 0] : Fin 3 → ℕ) a + S1x6272x256.size a ≤ S8x6272x256.size a := by
  intro a; fin_cases a
  · show b + 1 ≤ 8; omega
  · show 0 + 6272 ≤ 6272; omega
  · show 0 + 256 ≤ 256; omega
abbrev slab (b : ℕ) (hb : b < 8) : Rect S8x6272x256 := Rect.unit (s := S8x6272x256) ![b, 0, 0] S1x6272x256.size (slabInb b hb)

/-- A load through a slab-sized rectangle at offsets equal to slab `b`'s reads slab `b`. -/
theorem ld_slab_congr {off : Fin 3 → ℕ} {b : ℕ} (h : off = ![b, 0, 0]) (inb : ∀ a, off a + S1x6272x256.size a ≤ S8x6272x256.size a) (b' : ℕ) (hb : b < 8)
    (X : Vec F S8x6272x256 .bf16) (hb' : b' = b := by rfl) :
    View.ld X (Rect.unit (s := S8x6272x256) off S1x6272x256.size inb) = View.ld X (slab b hb) := by
  subst h; rfl

section Slab
variable (M : Memref sig .tc .vmem S8x6272x256 .bf16) (f : M.view.ty.Contents (Elt F))

/-- The slab just stored reads the stored rows; -/
theorem slab_hit {off : Fin 3 → ℕ} (inb : ∀ a, off a + S1x6272x256.size a ≤ S8x6272x256.size a) (w : Vec F S1x6272x256 .bf16)
    (b : ℕ) (hb : b < 8) (hoff : off = ![b, 0, 0]) :
    View.ld (M.view.read (Elt F) (M.view.writes (Elt F) f [(⟨Rect.unit off S1x6272x256.size inb, w⟩ : View.Piece (Elt F) S8x6272x256 .bf16)])) (slab b hb) = w := by
  funext x
  show M.view.read (Elt F) _ ((slab b hb).emb x) = w x
  refine View.read_writes_cons_unit_of_mem M.view f inb w [] ((slab b hb).emb x) x hoff fun a => ?_
  rw [Rect.emb_apply]; show (![b, 0, 0] : Fin 3 → ℕ) a + 1 * (x a).val = _; omega

/-- every other slab reads what it held. -/
theorem slab_miss {off : Fin 3 → ℕ} (inb : ∀ a, off a + S1x6272x256.size a ≤ S8x6272x256.size a) (w : Vec F S1x6272x256 .bf16)
    (b b' : ℕ) (hb' : b' < 8) (hoff : off = ![b, 0, 0]) (hne : b' ≠ b) :
    View.ld (M.view.read (Elt F) (M.view.writes (Elt F) f [(⟨Rect.unit off S1x6272x256.size inb, w⟩ : View.Piece (Elt F) S8x6272x256 .bf16)])) (slab b' hb')
      = View.ld (M.view.read (Elt F) f) (slab b' hb') := by
  funext x
  show M.view.read (Elt F) _ ((slab b' hb').emb x) = M.view.read (Elt F) f ((slab b' hb').emb x)
  have h0 : ((slab b' hb').emb x 0).val = b' + (x 0).val := by
    rw [Rect.emb_apply]; show b' + 1 * (x 0).val = _; omega
  have hx0 : (x 0).val < 1 := (x 0).isLt
  rw [View.read_writes_cons_unit_of_not_mem M.view f inb w [] ((slab b' hb').emb x) hoff 0
    (by show _ < b ∨ b + 1 ≤ _; omega)]
  rfl

end Slab

variable (c : Dev nD) (i : grid0.Coords) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x2x3136x256 .f32) (harg5 : arg5.IsWhole) (arg6 : Memref sig .tc .vmem S1x2x3136x256 .f32) (harg6 : arg6.IsWhole) (arg7 : Memref sig .tc .vmem S8x6272x256 .bf16) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S1x256 .f32) (harg11 : arg11.IsWhole)
variable (x0 : Vec F S256x256 .f32) (x1 : Vec F S1x256 .f32) (x2 : Vec F S1x256 .f32) (x3 : Vec F S1x2x3136x256 .f32) (x4 : Vec F S1x2x3136x256 .f32)
    (xs0 : Vec F S8x6272x256 .bf16) (xs1 : Vec F S256x256 .f32) (xs2 : Vec F S1x256 .f32) (xs3 : Vec F S256x256 .bf16) (xs4 : Vec F S1x256 .f32)

/-! ### The first point -/
section A
variable (hc0 : cond0_0 i) (hc1 : cond0_1 i) (hc2 : ¬cond0_2 i) (hc3 : ¬cond0_3 i)

theorem runA_g : arg8.view.read (Elt F) (arg8.view.writes (Elt F) (harg8.unread xs1) (kRunA c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).2.1) = k0_pay6 x3 k0_pay1 := by
  unfold kRunA; dsimp only; sl_unfold_words
  rw [read_whole_store arg8 hz2, readAt_whole arg5 harg5 hz4, View.readCov_unit_zero _ hz2]

theorem runA_s : arg9.view.read (Elt F) (arg9.view.writes (Elt F) (harg9.unread xs2) (kRunA c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).2.2.1) = k0_pay7 x3 k0_pay2 := by
  unfold kRunA; dsimp only; sl_unfold_words
  rw [read_whole_store arg9 hz2, readAt_whole arg5 harg5 hz4, View.readCov_unit_zero _ hz2]

theorem runA_hit (b : ℕ) (hb : b < 8) (hoff : k0_off1 i = ![b, 0, 0]) :
    View.ld (arg7.view.read (Elt F) (arg7.view.writes (Elt F) (harg7.unread xs0) (kRunA c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).1)) (slab b hb) = k0_pay5 x3 := by
  unfold kRunA; dsimp only; sl_unfold_words
  refine (slab_hit arg7 _ _ _ b hb hoff).trans ?_
  rw [readAt_whole arg5 harg5 hz4]

theorem runA_miss (b b' : ℕ) (hb' : b' < 8) (hoff : k0_off1 i = ![b, 0, 0]) (hne : b' ≠ b) :
    View.ld (arg7.view.read (Elt F) (arg7.view.writes (Elt F) (harg7.unread xs0) (kRunA c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).1)) (slab b' hb') = View.ld xs0 (slab b' hb') := by
  unfold kRunA; dsimp only; sl_unfold_words
  refine (slab_miss arg7 _ _ _ b b' hb' hoff hne).trans ?_
  rw [harg7.read_unread]
end A

/-! ### A middle point of the first phase -/
section B
variable (hc0 : ¬cond0_0 i) (hc1 : cond0_1 i) (hc2 : ¬cond0_2 i) (hc3 : ¬cond0_3 i)

theorem runB_g : arg8.view.read (Elt F) (arg8.view.writes (Elt F) (harg8.unread xs1) (kRunB c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).2.1) = k0_pay6 x3 xs1 := by
  unfold kRunB; dsimp only; sl_unfold_words
  rw [read_whole_store arg8 hz2, readAt_whole arg5 harg5 hz4, readAt_whole arg8 harg8 hz2]

theorem runB_s : arg9.view.read (Elt F) (arg9.view.writes (Elt F) (harg9.unread xs2) (kRunB c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).2.2.1) = k0_pay7 x3 xs2 := by
  unfold kRunB; dsimp only; sl_unfold_words
  rw [read_whole_store arg9 hz2, readAt_whole arg5 harg5 hz4, readAt_whole arg9 harg9 hz2]

theorem runB_hit (b : ℕ) (hb : b < 8) (hoff : k0_off1 i = ![b, 0, 0]) :
    View.ld (arg7.view.read (Elt F) (arg7.view.writes (Elt F) (harg7.unread xs0) (kRunB c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).1)) (slab b hb) = k0_pay5 x3 := by
  unfold kRunB; dsimp only; sl_unfold_words
  refine (slab_hit arg7 _ _ _ b hb hoff).trans ?_
  rw [readAt_whole arg5 harg5 hz4]

theorem runB_miss (b b' : ℕ) (hb' : b' < 8) (hoff : k0_off1 i = ![b, 0, 0]) (hne : b' ≠ b) :
    View.ld (arg7.view.read (Elt F) (arg7.view.writes (Elt F) (harg7.unread xs0) (kRunB c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).1)) (slab b' hb') = View.ld xs0 (slab b' hb') := by
  unfold kRunB; dsimp only; sl_unfold_words
  refine (slab_miss arg7 _ _ _ b b' hb' hoff hne).trans ?_
  rw [harg7.read_unread]
end B

/-! ### The last point of the first phase -/
section C
variable (hc0 : ¬cond0_0 i) (hc1 : cond0_1 i) (hc2 : cond0_2 i) (hc3 : ¬cond0_3 i)

theorem runC_g : arg8.view.read (Elt F) (arg8.view.writes (Elt F) (harg8.unread xs1) (kRunC c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).2.1) = k0_pay6 x3 xs1 := by
  unfold kRunC; dsimp only; sl_unfold_words
  rw [read_whole_store arg8 hz2, readAt_whole arg5 harg5 hz4, readAt_whole arg8 harg8 hz2]

theorem runC_s : arg9.view.read (Elt F) (arg9.view.writes (Elt F) (harg9.unread xs2) (kRunC c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).2.2.1) = k0_pay7 x3 xs2 := by
  unfold kRunC; dsimp only; sl_unfold_words
  rw [read_whole_store arg9 hz2, readAt_whole arg5 harg5 hz4, readAt_whole arg9 harg9 hz2]

theorem runC_wf : arg10.view.read (Elt F) (arg10.view.writes (Elt F) (harg10.unread xs3) (kRunC c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).2.2.2.1)
    = k0_pay8 (k0_pay14 x0 (k0_pay6 x3 xs1) (k0_pay7 x3 xs2) x1) := by
  unfold kRunC; dsimp only; sl_unfold_words
  rw [read_whole_store arg10 hz2, readAt_whole arg2 harg2 hz2, readAt_whole arg3 harg3 hz2, View.readCov_unit_zero _ hz2, View.readCov_unit_zero _ hz2,
    readAt_whole arg5 harg5 hz4, readAt_whole arg8 harg8 hz2, readAt_whole arg9 harg9 hz2]

theorem runC_sh : arg11.view.read (Elt F) (arg11.view.writes (Elt F) (harg11.unread xs4) (kRunC c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).2.2.2.2.1)
    = k0_pay13 x0 (k0_pay6 x3 xs1) (k0_pay7 x3 xs2) x1 x2 := by
  unfold kRunC; dsimp only; sl_unfold_words
  rw [read_whole_store arg11 hz2, readAt_whole arg2 harg2 hz2, readAt_whole arg3 harg3 hz2, readAt_whole arg4 harg4 hz2, View.readCov_unit_zero _ hz2, View.readCov_unit_zero _ hz2,
    readAt_whole arg5 harg5 hz4, readAt_whole arg8 harg8 hz2, readAt_whole arg9 harg9 hz2]

theorem runC_hit (b : ℕ) (hb : b < 8) (hoff : k0_off1 i = ![b, 0, 0]) :
    View.ld (arg7.view.read (Elt F) (arg7.view.writes (Elt F) (harg7.unread xs0) (kRunC c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).1)) (slab b hb) = k0_pay5 x3 := by
  unfold kRunC; dsimp only; sl_unfold_words
  refine (slab_hit arg7 _ _ _ b hb hoff).trans ?_
  rw [readAt_whole arg5 harg5 hz4]

theorem runC_miss (b b' : ℕ) (hb' : b' < 8) (hoff : k0_off1 i = ![b, 0, 0]) (hne : b' ≠ b) :
    View.ld (arg7.view.read (Elt F) (arg7.view.writes (Elt F) (harg7.unread xs0) (kRunC c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).1)) (slab b' hb') = View.ld xs0 (slab b' hb') := by
  unfold kRunC; dsimp only; sl_unfold_words
  refine (slab_miss arg7 _ _ _ b b' hb' hoff hne).trans ?_
  rw [harg7.read_unread]
end C

/-! ### A point of the second phase -/
section D
variable (hc0 : ¬cond0_0 i) (hc1 : ¬cond0_1 i) (hc2 : ¬cond0_2 i) (hc3 : cond0_3 i)

theorem runD_out (f : arg6.view.ty.Contents (Elt F)) (b : ℕ) (hb : b < 8) (hoff : k0_off2 i = ![b, 0, 0]) :
    arg6.view.read (Elt F) (arg6.view.writes (Elt F) f (kRunD c i arg2 harg2 arg3 harg3 arg4 harg4 arg5 harg5 arg6 harg6 arg7 harg7 arg8 harg8 arg9 harg9 arg10 harg10 arg11 harg11 hc0 hc1 hc2 hc3 x0 x1 x2 x3 x4 xs0 xs1 xs2 xs3 xs4).1) = k0_pay9 (View.ld xs0 (slab b hb)) xs3 xs4 := by
  unfold kRunD; dsimp only; sl_unfold_words
  rw [read_whole_store arg6 hz4, readAt_whole arg10 harg10 hz2, readAt_whole arg11 harg11 hz2, View.readAt_eq_ld, harg7.read_unread]
  exact congrArg (fun v => k0_pay9 v xs3 xs4) (ld_slab_congr hoff _ b hb xs0)
end D

end Cert.KernelIdeal.Gen

end
-- ==== Proof.KInv.lean ====
/-
  The proof data of the one pipeline. Before point n the five scratch buffers hold: the Gram accumulator
  and the column sums of the pairs so far (from zero), each kept pair in its slab, and, once the first
  phase is over, the folded weight and the shift; at (1, b) the output block is the printed function of
  slab b, the folded weight and the shift. The invariant is carried point by point through the four runs.
-/
import proofs.«152739_g2000502477920874_pallasbulk_293_22_alg».proof.Proof.KPieces

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point number `n` of the sixteen. -/
def tAt (n : ℕ) : Fin cfg0.N := ⟨n % 16, lt_of_lt_of_eq (Nat.mod_lt n (by decide)) N_0.symm⟩
theorem tAt_val (t : Fin cfg0.N) : tAt t.val = t := Fin.ext (Nat.mod_eq_of_lt (lt_of_lt_of_eq t.isLt N_0))

/-- In the first phase the pair's slab is slab `t`; in the second the slab read is slab `t - 8`. -/
theorem off1_eq : ∀ t : Fin cfg0.N, t.val < 8 → k0_off1 (grid0.coords t) = ![t.val, 0, 0] :=
  (by decide +kernel : ∀ t : Fin grid0.N, t.val < 8 → k0_off1 (grid0.coords t) = ![t.val, 0, 0])
theorem off2_eq : ∀ t : Fin cfg0.N, 8 ≤ t.val → k0_off2 (grid0.coords t) = ![t.val - 8, 0, 0] :=
  (by decide +kernel : ∀ t : Fin grid0.N, 8 ≤ t.val → k0_off2 (grid0.coords t) = ![t.val - 8, 0, 0])

/-- Pair `n`'s rows, the weight, gamma and beta as the region finds them. -/
def Xn (c : Dev nD) (n : ℕ) : Vec F S1x2x3136x256 .f32 := iblk m c 3 (tAt n)
def Wb (c : Dev nD) : Vec F S256x256 .f32 := iblk m c 0 (tAt 7)
def γb (c : Dev nD) : Vec F S1x256 .f32 := iblk m c 1 (tAt 7)
def βb (c : Dev nD) : Vec F S1x256 .f32 := iblk m c 2 (tAt 7)
theorem Xn_val (c : Dev nD) (t : Fin cfg0.N) : Xn m c t.val = iblk m c 3 t := by unfold Xn; rw [tAt_val]

/-- The Gram accumulator and the column sums after pairs 0 … n. -/
def Gk (c : Dev nD) : ℕ → Vec F S256x256 .f32
  | 0 => k0_pay6 (Xn m c 0) k0_pay1
  | n + 1 => k0_pay6 (Xn m c (n + 1)) (Gk c n)
def Sk (c : Dev nD) : ℕ → Vec F S1x256 .f32
  | 0 => k0_pay7 (Xn m c 0) k0_pay2
  | n + 1 => k0_pay7 (Xn m c (n + 1)) (Sk c n)
/-- The folded weight and the shift. -/
def WFk (c : Dev nD) : Vec F S256x256 .bf16 := k0_pay8 (k0_pay14 (Wb m c) (Gk m c 7) (Sk m c 7) (γb m c))
def SHk (c : Dev nD) : Vec F S1x256 .f32 := k0_pay13 (Wb m c) (Gk m c 7) (Sk m c 7) (γb m c) (βb m c)
/-- The output block of point `t` of the second phase. -/
def outK (c : Dev nD) (t : Fin cfg0.N) : Vec F S1x2x3136x256 .f32 := k0_pay9 (k0_pay5 (Xn m c (t.val - 8))) (WFk m c) (SHk m c)

/-- What the scratch buffers hold before point `n`. -/
def Inv (c : Dev nD) (n : ℕ) (xs0 : Vec F S8x6272x256 .bf16) (xs1 : Vec F S256x256 .f32) (xs2 : Vec F S1x256 .f32) (xs3 : Vec F S256x256 .bf16) (xs4 : Vec F S1x256 .f32) : Prop :=
  (∀ k, n = k + 1 → k < 8 → xs1 = Gk m c k ∧ xs2 = Sk m c k)
  ∧ (∀ b (hb : b < 8), b < n → View.ld xs0 (slab b hb) = k0_pay5 (Xn m c b))
  ∧ (8 ≤ n → xs3 = WFk m c ∧ xs4 = SHk m c)

variable {m}
theorem inv_A {c : Dev nD} {n : ℕ} (hn : n = 0) (hn8 : n < 8) {xs3 : Vec F S256x256 .bf16} {xs4 : Vec F S1x256 .f32} {ys0 : Vec F S8x6272x256 .bf16}
    (hhit : View.ld ys0 (slab n hn8) = k0_pay5 (Xn m c n)) :
    Inv m c (n + 1) ys0 (k0_pay6 (Xn m c n) k0_pay1) (k0_pay7 (Xn m c n) k0_pay2) xs3 xs4 := by
  subst hn
  refine ⟨fun k hk _ => ?_, fun b hb hb1 => ?_, fun h => by omega⟩
  · obtain rfl : k = 0 := by omega
    exact ⟨rfl, rfl⟩
  · obtain rfl : b = 0 := by omega
    exact hhit

theorem inv_B {c : Dev nD} {n : ℕ} (h0 : 0 < n) (h7 : n < 7) {xs0 : Vec F S8x6272x256 .bf16} {xs1 : Vec F S256x256 .f32} {xs2 : Vec F S1x256 .f32} {xs3 : Vec F S256x256 .bf16} {xs4 : Vec F S1x256 .f32}
    (hinv : Inv m c n xs0 xs1 xs2 xs3 xs4) {ys0 : Vec F S8x6272x256 .bf16}
    (hn8 : n < 8) (hhit : View.ld ys0 (slab n hn8) = k0_pay5 (Xn m c n))
    (hmiss : ∀ b' (hb' : b' < 8), b' ≠ n → View.ld ys0 (slab b' hb') = View.ld xs0 (slab b' hb')) :
    Inv m c (n + 1) ys0 (k0_pay6 (Xn m c n) xs1) (k0_pay7 (Xn m c n) xs2) xs3 xs4 := by
  obtain ⟨hgs, hsl, _⟩ := hinv
  refine ⟨fun k hk _ => ?_, fun b hb hb1 => ?_, fun h => by omega⟩
  · obtain rfl : k = n := by omega
    obtain ⟨k', rfl⟩ : ∃ k', k = k' + 1 := ⟨k - 1, by omega⟩
    obtain ⟨e1, e2⟩ := hgs k' rfl (by omega)
    rw [e1, e2]; exact ⟨rfl, rfl⟩
  · by_cases hbn : b = n
    · subst hbn; exact hhit
    · rw [hmiss b hb hbn]; exact hsl b hb (by omega)

theorem inv_C {c : Dev nD} {n : ℕ} (hn : n = 7) (hn8 : n < 8) {xs0 : Vec F S8x6272x256 .bf16} {xs1 : Vec F S256x256 .f32} {xs2 : Vec F S1x256 .f32} {xs3 : Vec F S256x256 .bf16} {xs4 : Vec F S1x256 .f32}
    (hinv : Inv m c n xs0 xs1 xs2 xs3 xs4) {ys0 : Vec F S8x6272x256 .bf16}
    (hhit : View.ld ys0 (slab n hn8) = k0_pay5 (Xn m c n))
    (hmiss : ∀ b' (hb' : b' < 8), b' ≠ n → View.ld ys0 (slab b' hb') = View.ld xs0 (slab b' hb')) :
    Inv m c (n + 1) ys0 (k0_pay6 (Xn m c n) xs1) (k0_pay7 (Xn m c n) xs2)
      (k0_pay8 (k0_pay14 (Wb m c) (k0_pay6 (Xn m c n) xs1) (k0_pay7 (Xn m c n) xs2) (γb m c)))
      (k0_pay13 (Wb m c) (k0_pay6 (Xn m c n) xs1) (k0_pay7 (Xn m c n) xs2) (γb m c) (βb m c)) := by
  subst hn
  obtain ⟨hgs, hsl, _⟩ := hinv
  obtain ⟨e1, e2⟩ := hgs 6 rfl (by decide)
  have g7 : k0_pay6 (Xn m c 7) xs1 = Gk m c 7 := by rw [e1]; rfl
  have s7 : k0_pay7 (Xn m c 7) xs2 = Sk m c 7 := by rw [e2]; rfl
  refine ⟨fun k hk _ => ?_, fun b hb hb1 => ?_, fun _ => ?_⟩
  · obtain rfl : k = 7 := by omega
    exact ⟨g7, s7⟩
  · by_cases hbn : b = 7
    · subst hbn; exact hhit
    · rw [hmiss b hb hbn]; exact hsl b hb (by omega)
  · rw [g7, s7]; exact ⟨rfl, rfl⟩

theorem inv_D {c : Dev nD} {n : ℕ} (h8 : 8 ≤ n) {xs0 : Vec F S8x6272x256 .bf16} {xs1 : Vec F S256x256 .f32} {xs2 : Vec F S1x256 .f32} {xs3 : Vec F S256x256 .bf16} {xs4 : Vec F S1x256 .f32}
    (hinv : Inv m c n xs0 xs1 xs2 xs3 xs4) : Inv m c (n + 1) xs0 xs1 xs2 xs3 xs4 := by
  obtain ⟨_, hsl, hw⟩ := hinv
  exact ⟨fun k hk hk8 => by omega, fun b hb _ => hsl b hb (by omega), fun _ => hw h8⟩
variable (m)

/-- The region's invariant before point `n`: the five scratch buffers at contents of which `Inv` holds, and the generator register. -/
def PhiK (c : Dev nD) (n : ℕ) : sProp 𝕄 :=
  iprop(∃ xs0, ∃ xs1, ∃ xs2, ∃ xs3, ∃ xs4, ⌜Inv m c n xs0 xs1 xs2 xs3 xs4⌝
    ∗ (owns (c : Thread nD τ) scM0_0 fullShare xs0 ∗ owns (c : Thread nD τ) scM0_1 fullShare xs1 ∗ owns (c : Thread nD τ) scM0_2 fullShare xs2 ∗ owns (c : Thread nD τ) scM0_3 fullShare xs3 ∗ owns (c : Thread nD τ) scM0_4 fullShare xs4)
    ∗ (∃ r, prngReg c r))

/-- The proof data: the arrays as the region finds them; the inputs' buffers at their blocks; the output's at `outK`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outK m c t
  Φ t := PhiK m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outK m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.Gen

end
-- ==== Proof.KBody.lean ====
/-
  The body obligation: at each of the sixteen points the fused body, from the invariant before the point,
  runs to the invariant after it, leaving the inputs' buffers as they were and, in the second phase, the
  output's buffer at the block the proof data name; in the first phase the output's buffer is handed back
  as it was found.
-/
import proofs.«152739_g2000502477920874_pallasbulk_293_22_alg».proof.Proof.KInv

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiK m c (t.val + 1) from rfl, show (dats m 0 c).Φ t.castSucc = PhiK m c t.val from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  have hN : t.val < 16 := lt_of_lt_of_eq t.isLt (show cfg0.N = 16 from N_0)
  unfold PhiK
  by_cases h0 : t.val = 0
  · -- the first point
      rw [Dat.leavesExact_idle _ 4 t ((idleAt0_4 t).trans (decide_eq_true (by omega))) ((flush0_4 t).trans (decide_eq_false (by omega)))]
      iintro ⟨⟨%xs0, %xs1, %xs2, %xs3, %xs4, %hinv, ⟨HS0, HS1, HS2, HS3, HS4⟩, Hg⟩, Ho, ⟨%d0, H0⟩, ⟨%d1, H1⟩, ⟨%d2, H2⟩, ⟨%d3, H3⟩, ⟨%d4, H4⟩⟩
      iapply ((kRunA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr (by omega)) (fun h => by have := (hcond0_2 t).mp h; omega) (fun h => by have := (hcond0_3 t).mp h; omega) (iblk m c 0 t) (iblk m c 1 t) (iblk m c 2 t) (iblk m c 3 t) ((dats m 0 c).before 4 t d4) xs0 xs1 xs2 xs3 xs4).2.2.2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      iintro ⟨H0, H1, H2, H3, H4, HS0, HS1, HS2, HS3, HS4⟩
      isplitl [HS0 HS1 HS2 HS3 HS4 Hg]
      · iexists _, _, _, _, _
        isplitr; swap
        · isplitl [HS0 HS1 HS2 HS3 HS4]
          · isplitl [HS0]
            · unfold owns; iexists _; isplitr; swap; · iexact HS0
              ipureintro; rfl
            isplitl [HS1]
            · unfold owns; iexists _; isplitr; swap; · iexact HS1
              ipureintro; rfl
            isplitl [HS2]
            · unfold owns; iexists _; isplitr; swap; · iexact HS2
              ipureintro; rfl
            isplitl [HS3]
            · iexact HS3
            iexact HS4
          iexact Hg
        · ipureintro
          rw [runA_g, runA_s, ← Xn_val m c t]
          exact inv_A h0 (by omega) (runA_hit c _ _ _ _ _ _ _ _ _ _ _ _ _ _ _ _ _ _ _ _ _ _ _ _ _ _ _ _ _ _ _ _ _ _ _ t.val (by omega) (off1_eq t (by omega)))
      isplitl [Ho]; · iexact Ho
      isplitl [H0]; · iexact H0
      isplitl [H1]; · iexact H1
      isplitl [H2]; · iexact H2
      isplitl [H3]; · iexact H3
      iexists d4; iexact H4
  · by_cases h7' : t.val < 7
    · -- a middle point of the first phase
        rw [Dat.leavesExact_idle _ 4 t ((idleAt0_4 t).trans (decide_eq_true (by omega))) ((flush0_4 t).trans (decide_eq_false (by omega)))]
        iintro ⟨⟨%xs0, %xs1, %xs2, %xs3, %xs4, %hinv, ⟨HS0, HS1, HS2, HS3, HS4⟩, Hg⟩, Ho, ⟨%d0, H0⟩, ⟨%d1, H1⟩, ⟨%d2, H2⟩, ⟨%d3, H3⟩, ⟨%d4, H4⟩⟩
        iapply ((kRunB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr (by omega)) (fun h => by have := (hcond0_2 t).mp h; omega) (fun h => by have := (hcond0_3 t).mp h; omega) (iblk m c 0 t) (iblk m c 1 t) (iblk m c 2 t) (iblk m c 3 t) ((dats m 0 c).before 4 t d4) xs0 xs1 xs2 xs3 xs4).2.2.2 Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        isplitl [HS4]; · iexact HS4
        iintro ⟨H0, H1, H2, H3, H4, HS0, HS1, HS2, HS3, HS4⟩
        isplitl [HS0 HS1 HS2 HS3 HS4 Hg]
        · iexists _, _, _, _, _
          isplitr; swap
          · isplitl [HS0 HS1 HS2 HS3 HS4]
            · isplitl [HS0]
              · unfold owns; iexists _; isplitr; swap; · iexact HS0
                ipureintro; rfl
              isplitl [HS1]
              · unfold owns; iexists _; isplitr; swap; · iexact HS1
                ipureintro; rfl
              isplitl [HS2]
              · unfold owns; iexists _; isplitr; swap; · iexact HS2
                ipureintro; rfl
              isplitl [HS3]
              · iexact HS3
              iexact HS4
            iexact Hg
          · ipureintro
            rw [runB_g, runB_s, ← Xn_val m c t]
            exact inv_B (by omega) h7' hinv (by omega) (runB_hit c _ _ _ _ _ _ _ _ _ _ _ _ _ _ _ _ _ _ _ _ _ _ _ _ _ _ _ _ _ _ _ _ _ _ _ t.val (by omega) (off1_eq t (by omega)))
              (fun b' hb' hne => runB_miss c _ _ _ _ _ _ _ _ _ _ _ _ _ _ _ _ _ _ _ _ _ _ _ _ _ _ _ _ _ _ _ _ _ _ _ t.val b' hb' (off1_eq t (by omega)) hne)
        isplitl [Ho]; · iexact Ho
        isplitl [H0]; · iexact H0
        isplitl [H1]; · iexact H1
        isplitl [H2]; · iexact H2
        isplitl [H3]; · iexact H3
        iexists d4; iexact H4
    · by_cases h7 : t.val = 7
      · -- the last point of the first phase
        rw [Dat.leavesExact_idle _ 4 t ((idleAt0_4 t).trans (decide_eq_true (by omega))) ((flush0_4 t).trans (decide_eq_false (by omega)))]
        iintro ⟨⟨%xs0, %xs1, %xs2, %xs3, %xs4, %hinv, ⟨HS0, HS1, HS2, HS3, HS4⟩, Hg⟩, Ho, ⟨%d0, H0⟩, ⟨%d1, H1⟩, ⟨%d2, H2⟩, ⟨%d3, H3⟩, ⟨%d4, H4⟩⟩
        iapply ((kRunC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr (by omega)) ((hcond0_2 t).mpr h7) (fun h => by have := (hcond0_3 t).mp h; omega) (iblk m c 0 t) (iblk m c 1 t) (iblk m c 2 t) (iblk m c 3 t) ((dats m 0 c).before 4 t d4) xs0 xs1 xs2 xs3 xs4).2.2.2.2.2 Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        isplitl [HS4]; · iexact HS4
        iintro ⟨H0, H1, H2, H3, H4, HS0, HS1, HS2, HS3, HS4⟩
        isplitl [HS0 HS1 HS2 HS3 HS4 Hg]
        · iexists _, _, _, _, _
          isplitr; swap
          · isplitl [HS0 HS1 HS2 HS3 HS4]
            · isplitl [HS0]
              · unfold owns; iexists _; isplitr; swap; · iexact HS0
                ipureintro; rfl
              isplitl [HS1]
              · unfold owns; iexists _; isplitr; swap; · iexact HS1
                ipureintro; rfl
              isplitl [HS2]
              · unfold owns; iexists _; isplitr; swap; · iexact HS2
                ipureintro; rfl
              isplitl [HS3]
              · unfold owns; iexists _; isplitr; swap; · iexact HS3
                ipureintro; rfl
              unfold owns; iexists _; isplitr; swap; · iexact HS4
              ipureintro; rfl
            iexact Hg
          · ipureintro
            have hW : iblk m c 0 t = Wb m c := by unfold Wb; rw [← h7, tAt_val]
            have hγ : iblk m c 1 t = γb m c := by unfold γb; rw [← h7, tAt_val]
            have hβ : iblk m c 2 t = βb m c := by unfold βb; rw [← h7, tAt_val]
            rw [runC_g, runC_s, runC_wf, runC_sh, ← Xn_val m c t, hW, hγ, hβ]
            exact inv_C h7 (by omega) hinv (runC_hit c _ _ _ _ _ _ _ _ _ _ _ _ _ _ _ _ _ _ _ _ _ _ _ _ _ _ _ _ _ _ _ _ _ _ _ t.val (by omega) (off1_eq t (by omega)))
              (fun b' hb' hne => runC_miss c _ _ _ _ _ _ _ _ _ _ _ _ _ _ _ _ _ _ _ _ _ _ _ _ _ _ _ _ _ _ _ _ _ _ _ t.val b' hb' (off1_eq t (by omega)) hne)
        isplitl [Ho]; · iexact Ho
        isplitl [H0]; · iexact H0
        isplitl [H1]; · iexact H1
        isplitl [H2]; · iexact H2
        isplitl [H3]; · iexact H3
        iexists d4; iexact H4
      · -- the second phase
        rw [show (dats m 0 c).leavesExact 4 t = owns (c : Thread nD τ) (ms0_4 t) fullShare ((dats m 0 c).after 4 t) from by
          unfold Dat.leavesExact; rw [(idleAt0_4 t).trans (decide_eq_false (by omega))], after0_4]
        iintro ⟨⟨%xs0, %xs1, %xs2, %xs3, %xs4, %hinv, ⟨HS0, HS1, HS2, HS3, HS4⟩, Hg⟩, Ho, ⟨%d0, H0⟩, ⟨%d1, H1⟩, ⟨%d2, H2⟩, ⟨%d3, H3⟩, ⟨%d4, H4⟩⟩
        iapply ((kRunD c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => by have := (hcond0_1 t).mp h; omega) (fun h => by have := (hcond0_2 t).mp h; omega) ((hcond0_3 t).mpr (by omega)) (iblk m c 0 t) (iblk m c 1 t) (iblk m c 2 t) (iblk m c 3 t) ((dats m 0 c).before 4 t d4) xs0 xs1 xs2 xs3 xs4).2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        iintro ⟨H0, H1, H2, H3, ⟨%f4, H4⟩, HS0, HS1, HS2, HS3, HS4⟩
        isplitl [HS0 HS1 HS2 HS3 HS4 Hg]
        · iexists _, _, _, _, _
          isplitr; swap
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          · ipureintro
            exact inv_D (by omega) hinv
        isplitl [Ho]; · iexact Ho
        isplitl [H0]; · iexact H0
        isplitl [H1]; · iexact H1
        isplitl [H2]; · iexact H2
        isplitl [H3]; · iexact H3
        unfold owns; iexists _; isplitr; swap; · iexact H4
        ipureintro
        obtain ⟨_, hsl, hw⟩ := hinv
        obtain ⟨e3, e4⟩ := hw (by omega)
        rw [runD_out c _ _ _ _ _ _ _ _ _ _ _ _ _ _ _ _ _ _ _ _ _ _ _ _ _ _ _ _ _ _ _ _ _ _ _ f4 (t.val - 8) (by omega) (off2_eq t (by omega)), hsl (t.val - 8) (by omega) (by omega), e3, e4]
        rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, and the invariant after the last point gives it back. -/
theorem hin (c : Dev nD) : Pipeline.ΦA spec0 c ⊢ (dats m 0 c).Φ 0 := by
  rw [show (dats m 0 c).Φ 0 = PhiK m c 0 from rfl, PhiA0_eq]; unfold PhiK
  iintro ⟨⟨⟨%d0, HS0⟩, ⟨%d1, HS1⟩, ⟨%d2, HS2⟩, ⟨%d3, HS3⟩, ⟨%d4, HS4⟩⟩, Hg⟩
  iexists d0, d1, d2, d3, d4
  isplitr; · ipureintro; exact ⟨fun k hk _ => by omega, fun b hb hb0 => by omega, fun h => by omega⟩
  isplitl [HS0 HS1 HS2 HS3 HS4]
  · isplitl [HS0]; · iexact HS0
    isplitl [HS1]; · iexact HS1
    isplitl [HS2]; · iexact HS2
    isplitl [HS3]; · iexact HS3
    iexact HS4
  iexact Hg

theorem hout (c : Dev nD) : (dats m 0 c).Φ (Fin.last cfg0.N) ⊢ Pipeline.ΦA spec0 c := by
  rw [show (dats m 0 c).Φ (Fin.last cfg0.N) = PhiK m c (Fin.last cfg0.N).val from rfl, PhiA0_eq]; unfold PhiK
  iintro ⟨%xs0, %xs1, %xs2, %xs3, %xs4, -, ⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

end Cert.KernelIdeal.Gen

end
-- ==== Proof.KFrame.lean ====
/-
  The frame run of the whole program around its one region: every weakly fair execution terminates without a
  fault, the arrays the pipeline stages end at what the proof data's blocks, written back, leave in them, every
  other buffer at what the host lines after the region compute from those; and from it the frame claim.
-/
import proofs.«152739_g2000502477920874_pallasbulk_293_22_alg».proof.Proof.KBody

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Gen

end
-- ==== Proof.KFinal.lean ====
/-
  The output array after the region, as one function of the point data: block b of the [8, 2, 3136, 256]
  array is what point (1, b) stored; the eight blocks tile the array.
-/
import proofs.«152739_g2000502477920874_pallasbulk_293_22_alg».proof.Proof.KFrame
import Idealize.ShloMosaic.Lib.Pipeline.Value

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An index of the array as an index of the block that holds it. -/
def blkIx (i : S8x2x3136x256.Idx) : S1x2x3136x256.Idx
  | ⟨0, _⟩ => ⟨0, Nat.one_pos⟩
  | ⟨1, _⟩ => ⟨(i 1).val, (i 1).isLt⟩
  | ⟨2, _⟩ => ⟨(i 2).val, (i 2).isLt⟩
  | ⟨3, _⟩ => ⟨(i 3).val, (i 3).isLt⟩

/-- The array the region leaves: at (b, j, r, o) what point 8 + b stored at (0, j, r, o). -/
def G5 (c : Dev nD) : S8x2x3136x256.Idx → Elt F .f32 := fun i => outK m c (tAt (8 + (i 0).val)) (blkIx i)

/-- In the second phase the output's block index is the pair's number. -/
theorem idx4 : ∀ t : Fin cfg0.N, 8 ≤ t.val → win0_4.index t (0 : Fin 4) = t.val - 8 ∧ win0_4.index t (1 : Fin 4) = 0
    ∧ win0_4.index t (2 : Fin 4) = 0 ∧ win0_4.index t (3 : Fin 4) = 0 :=
  (by decide +kernel : ∀ t : Fin grid0.N, 8 ≤ t.val → win0_4.index t (0 : Fin 4) = t.val - 8 ∧ win0_4.index t (1 : Fin 4) = 0
    ∧ win0_4.index t (2 : Fin 4) = 0 ∧ win0_4.index t (3 : Fin 4) = 0)

theorem flush_ge (t : Fin cfg0.N) (hf : (cfg0.win 4).flush t = true) : 8 ≤ t.val := by
  have := flush0_4 t; rw [hf] at this; exact of_decide_eq_true this.symm

/-- What point `t` writes back is block `t` of `G5`. -/
theorem flushed4_eq (c : Dev nD) (t : Fin cfg0.N) (hf : (cfg0.win 4).flush t = true) :
    (dats m 0 c).flushed 4 t = ((cfg0.win 4).blk t).view.read (Elt F) (G5 m c) := by
  have h8 := flush_ge t hf
  have hN : t.val < 16 := lt_of_lt_of_eq t.isLt (show cfg0.N = 16 from N_0)
  show (cfg0.win 4).cut (grid0.coords t) ((dats m 0 c).after 4 t) = _
  rw [after0_4]
  funext x
  show outK m c t x = G5 m c (((cfg0.win 4).blk t).view.emb x)
  obtain ⟨e0, e1, e2, e3⟩ := idx4 t h8
  have hx0 : (x 0).val < 1 := (x 0).isLt
  have c0 : (((cfg0.win 4).blk t).view.emb x 0).val = t.val - 8 := by
    show win0_4.index t (0 : Fin 4) * 1 + 1 * (x 0).val = _; omega
  have c1 : (((cfg0.win 4).blk t).view.emb x 1).val = (x 1).val := by
    show win0_4.index t (1 : Fin 4) * 2 + 1 * (x 1).val = _; omega
  have c2 : (((cfg0.win 4).blk t).view.emb x 2).val = (x 2).val := by
    show win0_4.index t (2 : Fin 4) * 3136 + 1 * (x 2).val = _; omega
  have c3 : (((cfg0.win 4).blk t).view.emb x 3).val = (x 3).val := by
    show win0_4.index t (3 : Fin 4) * 256 + 1 * (x 3).val = _; omega
  unfold G5
  have ht : tAt (8 + (((cfg0.win 4).blk t).view.emb x 0).val) = t := by
    rw [c0]; apply Fin.ext; show (8 + (t.val - 8)) % 16 = t.val; omega
  have hb : blkIx (((cfg0.win 4).blk t).view.emb x) = x := by
    funext a; apply Fin.ext
    match a with
    | ⟨0, _⟩ => show 0 = (x 0).val; omega
    | ⟨1, _⟩ => exact c1
    | ⟨2, _⟩ => exact c2
    | ⟨3, _⟩ => exact c3
  rw [ht, hb]

theorem mem_blk4 (t : Fin cfg0.N) (i : S8x2x3136x256.Idx) :
    i ∈ ((cfg0.win 4).blk t).view.set ↔ ∀ a : Fin 4, win0_4.index t a * S1x2x3136x256.size a ≤ (i a).val ∧ (i a).val < win0_4.index t a * S1x2x3136x256.size a + S1x2x3136x256.size a := by
  show i ∈ ((View.whole main_v5).slice (win0_4.rect t)).set ↔ _
  rw [View.set_slice_whole, Rect.mem_set_unit]
  exact Iff.rfl

/-- The eight blocks tile the array. -/
theorem cover4 (i : S8x2x3136x256.Idx) : ∃ t : Fin cfg0.N, (cfg0.win 4).flush t = true ∧ i ∈ ((cfg0.win 4).blk t).view.set := by
  have hi0 : (i 0).val < 8 := (i 0).isLt
  have hi1 : (i 1).val < 2 := (i 1).isLt
  have hi2 : (i 2).val < 3136 := (i 2).isLt
  have hi3 : (i 3).val < 256 := (i 3).isLt
  have hv : (tAt (8 + (i 0).val)).val = 8 + (i 0).val := by show (8 + (i 0).val) % 16 = _; omega
  obtain ⟨e0, e1, e2, e3⟩ := idx4 (tAt (8 + (i 0).val)) (by omega)
  refine ⟨tAt (8 + (i 0).val), (flush0_4 _).trans (decide_eq_true (by omega)), ?_⟩
  rw [mem_blk4]
  intro a
  match a with
  | ⟨0, _⟩ => show win0_4.index _ (0 : Fin 4) * 1 ≤ (i 0).val ∧ (i 0).val < win0_4.index _ (0 : Fin 4) * 1 + 1; omega
  | ⟨1, _⟩ => show win0_4.index _ (1 : Fin 4) * 2 ≤ (i 1).val ∧ (i 1).val < win0_4.index _ (1 : Fin 4) * 2 + 2; omega
  | ⟨2, _⟩ => show win0_4.index _ (2 : Fin 4) * 3136 ≤ (i 2).val ∧ (i 2).val < win0_4.index _ (2 : Fin 4) * 3136 + 3136; omega
  | ⟨3, _⟩ => show win0_4.index _ (3 : Fin 4) * 256 ≤ (i 3).val ∧ (i 3).val < win0_4.index _ (3 : Fin 4) * 256 + 256; omega

/-- The array after the run. -/
theorem final5 (c : Dev nD) : (dats m 0 c).arrAt 4 cfg0.N = G5 m c :=
  (dats m 0 c).arrAt_eq_of_cover 4 (G5 m c) (fun t hf => flushed4_eq m c t hf) cover4

end Cert.KernelIdeal.KValue

end
-- ==== Proof.KTail.lean ====
/-
  The kernel's run with its result named: the result array is the region's output array re-laid by the three
  host lines after the region (pairs unfolded into images, channels moved before pixels, pixels unfolded into
  rows and columns); and the arrays the region finds, as the host lines before it leave them.
-/
import proofs.«152739_g2000502477920874_pallasbulk_293_22_alg».proof.Proof.KFinal
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three host lines after the region, as one function of the region's output array. -/
def tailFn (g : S8x2x3136x256.Idx → Elt F .f32) : S16x256x56x56.Idx → Elt F .f32 :=
  shapeCast S16x256x56x56 (transpose S16x256x3136 [0, 2, 1] (shapeCast S16x3136x256 g Facts₀.shapeCasts_S8x2x3136x256_S16x3136x256)
    Facts₀.transposes_S16x3136x256_S16x256x3136_0_2_1) Facts₀.shapeCasts_S16x256x3136_S16x256x56x56

/-- The host lines before the region, as one function of the input: the array of pairs the region stages. -/
def headFn (x : S16x256x56x56.Idx → Elt F .f32) : S8x2x3136x256.Idx → Elt F .f32 :=
  shapeCast S8x2x3136x256 (transpose S16x3136x256 [0, 2, 1] (shapeCast S16x256x3136 x Facts₀.shapeCasts_S16x256x56x56_S16x256x3136)
    Facts₀.transposes_S16x256x3136_S16x3136x256_0_2_1) Facts₀.shapeCasts_S16x3136x256_S8x2x3136x256

variable (m : (ℓ : Loc nD τ sig) → Buf (Elt F) ℓ) (ρ : Dev nD → PrngReg)

theorem V4_eq (c : Dev nD) : (V m c main_v4 : S8x2x3136x256.Idx → Elt F .f32) = headFn (m ((c : Thread nD τ).loc main_arg0)) := by
  show StableHlo.after hostOps0 (fun b => m (c, b)) (Proc.devRef .tc main_v4) = _
  after_results; rfl

theorem V2_eq (c : Dev nD) : (V m c main_v2 : S1x256.Idx → Elt F .f32) = shapeCast S1x256 (m ((c : Thread nD τ).loc main_arg2)) Facts₀.shapeCasts_S256_S1x256 := by
  show StableHlo.after hostOps0 (fun b => m (c, b)) (Proc.devRef .tc main_v2) = _
  after_results; rfl

theorem V3_eq (c : Dev nD) : (V m c main_v3 : S1x256.Idx → Elt F .f32) = shapeCast S1x256 (m ((c : Thread nD τ).loc main_arg3)) Facts₀.shapeCasts_S256_S1x256 := by
  show StableHlo.after hostOps0 (fun b => m (c, b)) (Proc.devRef .tc main_v3) = _
  after_results; rfl

theorem tail_eq (c : Dev nD) : Pipeline.afterTail₀ cfgs (dats m) 0 (V0 m) [hostOps1] c main_v8 = tailFn (G5 m c) := by
  have e : Pipeline.withArrays (cfgs 0).spec c (V0 m c) (fun w => (dats m 0 c).arrAt w (cfgs 0).N) (Proc.devRef .tc main_v5) = G5 m c :=
    (Pipeline.withArrays_arr spec0 launch0.win.arr_inj c _ _ 4).trans (final5 m c)
  unfold Pipeline.afterTail₀
  show StableHlo.after hostOps1 _ (Proc.devRef .tc main_v8) = _
  after_results
  exact congrArg tailFn e

/-- The run with the result named. -/
theorem run : θ_run defs (onTc (τ := τ) (main (F := F))) ⟨m, fun _ => 0, ρ⟩ (fun r => ∀ c : Dev nD,
      r.2.mem ((c.tc : Thread nD τ).loc main_v8) = tailFn (G5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v8 (Pipeline.mem_restRefs_of main_v8 (by decide) (by decide))).trans (tail_eq m c),
      (((h c).2 main_arg0 (Pipeline.mem_restRefs_of main_arg0 (by decide) (by decide))).trans (W_main_arg0 m (dats m) c)),
      ((h c).1 0).trans ((((dats m) 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩) (run_main m ρ)

end Cert.KernelIdeal.KValue

end
-- ==== Proof.KIndex.lean ====
/-
  The host lines around the region and the windows' blocks, read at an index: image n = 2b + j of the input is
  row-block j of pair b, pixel r = 56·h + v its row r, channels last; the weight, gamma and beta reach the body
  whole; and the result's entry (n, o, h, v) is the output array's entry (n / 2, n % 2, 56·h + v, o).
-/
import proofs.«152739_g2000502477920874_pallasbulk_293_22_alg».proof.Proof.KTail
import Idealize.ShloMosaic.Lib.ValueLayout
import Idealize.ShloMosaic.Lib.ValueIdx

set_option maxRecDepth 16384

noncomputable section

namespace Cert.KernelIdeal.KValue

open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem headFn_apply (x : S16x256x56x56.Idx → Elt F .f32) (b : Fin 8) (j : Fin 2) (r : Fin 3136) (k : Fin 256) :
    headFn x (ix4 b j r k) = x (ix4 (⟨2 * b.val + j.val, by omega⟩ : Fin 16) k (⟨r.val / 56, by omega⟩ : Fin 56) (⟨r.val % 56, Nat.mod_lt _ (by decide)⟩ : Fin 56)) := by
  unfold headFn
  refine (shapeCast_apply _ _ (ix4 b j r k) (ix3 (⟨2 * b.val + j.val, by omega⟩ : Fin 16) r k) ?_).trans ?_
  · rw [Shape.rowMajor_val_three, Shape.rowMajor_val_four]
    show ((2 * b.val + j.val) * 3136 + r.val) * 256 + k.val = ((b.val * 2 + j.val) * 3136 + r.val) * 256 + k.val
    omega
  refine (transpose_ix3_021_apply _ _ _ _ _).trans ?_
  refine shapeCast_apply _ _ _ (ix4 (⟨2 * b.val + j.val, by omega⟩ : Fin 16) k (⟨r.val / 56, by omega⟩ : Fin 56) (⟨r.val % 56, Nat.mod_lt _ (by decide)⟩ : Fin 56)) ?_
  rw [Shape.rowMajor_val_four, Shape.rowMajor_val_three]
  show (((2 * b.val + j.val) * 256 + k.val) * 56 + r.val / 56) * 56 + r.val % 56 = ((2 * b.val + j.val) * 256 + k.val) * 3136 + r.val
  omega

theorem tailFn_apply (g : S8x2x3136x256.Idx → Elt F .f32) (n : Fin 16) (o : Fin 256) (h v : Fin 56) :
    tailFn g (ix4 n o h v) = g (ix4 (⟨n.val / 2, by omega⟩ : Fin 8) (⟨n.val % 2, Nat.mod_lt _ (by decide)⟩ : Fin 2) (⟨h.val * 56 + v.val, by omega⟩ : Fin 3136) o) := by
  unfold tailFn
  refine (shapeCast_apply _ _ (ix4 n o h v) (ix3 n o (⟨h.val * 56 + v.val, by omega⟩ : Fin 3136)) ?_).trans ?_
  · rw [Shape.rowMajor_val_three, Shape.rowMajor_val_four]
    show (n.val * 256 + o.val) * 3136 + (h.val * 56 + v.val) = ((n.val * 256 + o.val) * 56 + h.val) * 56 + v.val
    omega
  refine (transpose_ix3_021_apply _ _ _ _ _).trans ?_
  refine shapeCast_apply _ _ _ (ix4 (⟨n.val / 2, by omega⟩ : Fin 8) (⟨n.val % 2, Nat.mod_lt _ (by decide)⟩ : Fin 2) (⟨h.val * 56 + v.val, by omega⟩ : Fin 3136) o) ?_
  rw [Shape.rowMajor_val_four, Shape.rowMajor_val_three]
  show (((n.val / 2) * 2 + n.val % 2) * 3136 + (h.val * 56 + v.val)) * 256 + o.val = (n.val * 3136 + (h.val * 56 + v.val)) * 256 + o.val
  omega

variable (m : (ℓ : Loc nD τ sig) → Buf (Elt F) ℓ)

/-- In the first phase window 3 stages pair `t`; the other inputs are staged whole. -/
theorem idx3 : ∀ t : Fin cfg0.N, t.val < 8 → win0_3.index t (0 : Fin 4) = t.val ∧ win0_3.index t (1 : Fin 4) = 0
    ∧ win0_3.index t (2 : Fin 4) = 0 ∧ win0_3.index t (3 : Fin 4) = 0 :=
  (by decide +kernel : ∀ t : Fin grid0.N, t.val < 8 → win0_3.index t (0 : Fin 4) = t.val ∧ win0_3.index t (1 : Fin 4) = 0
    ∧ win0_3.index t (2 : Fin 4) = 0 ∧ win0_3.index t (3 : Fin 4) = 0)
theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Pair `b`'s rows as the body loads them. -/
theorem Xn_apply (c : Dev nD) (b : Fin 8) (u : Fin 1) (j : Fin 2) (r : Fin 3136) (k : Fin 256) :
    Xn m c b.val (ix4 u j r k) = headFn (m ((c : Thread nD τ).loc main_arg0)) (ix4 b j r k) := by
  have hv : (tAt b.val).val = b.val := by show b.val % 16 = b.val; omega
  obtain ⟨e0, e1, e2, e3⟩ := idx3 (tAt b.val) (by omega)
  unfold Xn iblk
  show (V m c main_v4 : S8x2x3136x256.Idx → Elt F .f32) (((cfg0.win 3).blk (tAt b.val)).view.emb (ix4 u j r k)) = _
  rw [V4_eq]
  refine congrArg (headFn _) (funext fun a => Fin.ext ?_)
  match a with
  | ⟨0, _⟩ => show win0_3.index (tAt b.val) (0 : Fin 4) * 1 + 1 * u.val = b.val; omega
  | ⟨1, _⟩ => show win0_3.index (tAt b.val) (1 : Fin 4) * 2 + 1 * j.val = j.val; omega
  | ⟨2, _⟩ => show win0_3.index (tAt b.val) (2 : Fin 4) * 3136 + 1 * r.val = r.val; omega
  | ⟨3, _⟩ => show win0_3.index (tAt b.val) (3 : Fin 4) * 256 + 1 * k.val = k.val; omega

/-- The weight as the body loads it. -/
theorem Wb_apply (c : Dev nD) (o k : Fin 256) : Wb m c (ix2 o k) = m ((c : Thread nD τ).loc main_arg1) (ix2 o k) := by
  obtain ⟨e0, e1⟩ := idx0 (tAt 7)
  unfold Wb iblk
  show (V m c main_arg1 : S256x256.Idx → Elt F .f32) (((cfg0.win 0).blk (tAt 7)).view.emb (ix2 o k)) = _
  rw [V_main_arg1]
  refine congrArg (m ((c : Thread nD τ).loc main_arg1)) (funext fun a => Fin.ext ?_)
  match a with
  | ⟨0, _⟩ => show win0_0.index (tAt 7) (0 : Fin 2) * 256 + 1 * o.val = o.val; omega
  | ⟨1, _⟩ => show win0_0.index (tAt 7) (1 : Fin 2) * 256 + 1 * k.val = k.val; omega

/-- Gamma and beta as the body loads them: rows [1, 256]. -/
theorem γb_apply (c : Dev nD) (u : Fin 1) (o : Fin 256) : γb m c (ix2 u o) = m ((c : Thread nD τ).loc main_arg2) (ix1 o) := by
  obtain ⟨e0, e1⟩ := idx1 (tAt 7)
  unfold γb iblk
  show (V m c main_v2 : S1x256.Idx → Elt F .f32) (((cfg0.win 1).blk (tAt 7)).view.emb (ix2 u o)) = _
  rw [V2_eq]
  refine (congrArg (shapeCast S1x256 (m ((c : Thread nD τ).loc main_arg2)) Facts₀.shapeCasts_S256_S1x256) (?_ : _ = ix2 u o)).trans (shapeCast_a_1a_apply _ _ u o)
  funext a; apply Fin.ext
  match a with
  | ⟨0, _⟩ => show win0_1.index (tAt 7) (0 : Fin 2) * 1 + 1 * u.val = u.val; omega
  | ⟨1, _⟩ => show win0_1.index (tAt 7) (1 : Fin 2) * 256 + 1 * o.val = o.val; omega

theorem βb_apply (c : Dev nD) (u : Fin 1) (o : Fin 256) : βb m c (ix2 u o) = m ((c : Thread nD τ).loc main_arg3) (ix1 o) := by
  obtain ⟨e0, e1⟩ := idx2 (tAt 7)
  unfold βb iblk
  show (V m c main_v3 : S1x256.Idx → Elt F .f32) (((cfg0.win 2).blk (tAt 7)).view.emb (ix2 u o)) = _
  rw [V3_eq]
  refine (congrArg (shapeCast S1x256 (m ((c : Thread nD τ).loc main_arg3)) Facts₀.shapeCasts_S256_S1x256) (?_ : _ = ix2 u o)).trans (shapeCast_a_1a_apply _ _ u o)
  funext a; apply Fin.ext
  match a with
  | ⟨0, _⟩ => show win0_2.index (tAt 7) (0 : Fin 2) * 1 + 1 * u.val = u.val; omega
  | ⟨1, _⟩ => show win0_2.index (tAt 7) (1 : Fin 2) * 256 + 1 * o.val = o.val; omega

end Cert.KernelIdeal.KValue

end
-- ==== Proof.KPay.lean ====
/-
  The body's arithmetic read at an index, over the extended reals: the pair's rows re-laid as a
  [6272, 256] matrix, the Gram and column-sum steps as sums over its rows, the output block as a
  matrix product plus the shift with the negative part dropped, and the fold (mean, scale, shift,
  folded weight) column by column.
-/
import proofs.«152739_g2000502477920874_pallasbulk_293_22_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KPay

open Cert.KernelIdeal Cert.KernelIdeal.Gen
open Idealize.ShloMosaic Idealize.ShloMosaic.ValueIdx

variable [Cert.KernelIdeal.Facts]

/-- The three literals. -/
abbrev Z : EReal := Ideal.ofBits .f32 0x00000000#32
abbrev CNT : EReal := Ideal.ofBits .f32 0x47440000#32
abbrev EPS : EReal := Ideal.ofBits .f32 0x3727C5AC#32

/-- Row `row` of the pair's [6272, 256] matrix is row `row % 3136` of image `row / 3136` of the pair. -/
def rowOf (X : Vec Ideal S1x2x3136x256 .f32) (row : Fin 6272) (k : Fin 256) : EReal :=
  X (ix4 (0 : Fin 1) (⟨row.val / 3136, by have := row.isLt; omega⟩ : Fin 2) (⟨row.val % 3136, Nat.mod_lt _ (by decide)⟩ : Fin 3136) k)

theorem pay3_apply (X : Vec Ideal S1x2x3136x256 .f32) (row : Fin 6272) (k : Fin 256) :
    k0_pay3 (F := Ideal) X (ix2 row k) = rowOf X row k := by
  unfold k0_pay3
  refine (shapeCast_apply _ shapeCasts_S2x3136x256_S6272x256 (ix2 row k)
    (ix3 (⟨row.val / 3136, by have := row.isLt; omega⟩ : Fin 2) (⟨row.val % 3136, Nat.mod_lt _ (by decide)⟩ : Fin 3136) k) ?_).trans ?_
  · rw [Shape.rowMajor_val_three, Shape.rowMajor_val_two]
    show (row.val / 3136 * 3136 + row.val % 3136) * 256 + k.val = row.val * 256 + k.val
    omega
  · exact shapeCast_1abc_abc_apply X shapeCasts_S1x2x3136x256_S2x3136x256 _ _ _

theorem pay5_apply (X : Vec Ideal S1x2x3136x256 .f32) (u : Fin 1) (row : Fin 6272) (k : Fin 256) :
    k0_pay5 (F := Ideal) X (ix3 u row k) = rowOf X row k := by
  unfold k0_pay5 k0_pay4
  refine (shapeCast_ab_1ab_apply _ shapeCasts_S6272x256_S1x6272x256 u row k).trans ?_
  exact pay3_apply X row k

theorem pay1_apply (i k : Fin 256) : k0_pay1 (F := Ideal) (ix2 i k) = Z := by
  unfold k0_pay1
  rw [shapeCast_self]
  rfl

theorem pay2_apply (u : Fin 1) (k : Fin 256) : k0_pay2 (F := Ideal) (ix2 u k) = Z := by
  unfold k0_pay2
  rw [shapeCast_self]
  rfl

/-- A [256, 256] by [256, 256] product into zero, read at (i, k): the sum over the shared coordinate. -/
theorem mm256_apply {φ₁ φ₂ : FTy} (A : FVec Ideal S256x256 φ₁) (B : FVec Ideal S256x256 φ₂) (i : Fin 256) (k : Fin 256) :
    matmul (F := Ideal) dot_S256x256_S256x256_S256x256_1_0_0_1_n_n none A B (constant S256x256 .f32 0x00000000#32) (ix2 i k)
      = ∑ c : Fin 256, A (ix2 i c) * B (ix2 c k) := by
  show FloatOps.matmul dot_S256x256_S256x256_S256x256_1_0_0_1_n_n none A B (constant S256x256 .f32 0x00000000#32) (ix2 i k) = _
  rw [Ideal.matmul_constant_zero_apply,
    ← Equiv.sum_comp (contrEquiv1 dot_S256x256_S256x256_S256x256_1_0_0_1_n_n 256 rfl rfl).symm]
  refine Finset.sum_congr rfl fun c _ => ?_
  have c2 := contrEquiv1_symm_val dot_S256x256_S256x256_S256x256_1_0_0_1_n_n 256 rfl rfl c
  have l2 : dot_S256x256_S256x256_S256x256_1_0_0_1_n_n.lhsIdx (ix2 i k) ((contrEquiv1 _ 256 rfl rfl).symm c) = ix2 i c := by
    funext ax; apply Fin.ext
    match ax with
    | ⟨0, _⟩ => simp [DotDims.lhsIdx, dot_S256x256_S256x256_S256x256_1_0_0_1_n_n]; rfl
    | ⟨1, _⟩ => simp [DotDims.lhsIdx, dot_S256x256_S256x256_S256x256_1_0_0_1_n_n]; exact c2
  have r2 : dot_S256x256_S256x256_S256x256_1_0_0_1_n_n.rhsIdx (ix2 i k) ((contrEquiv1 _ 256 rfl rfl).symm c) = ix2 c k := by
    funext ax; apply Fin.ext
    match ax with
    | ⟨0, _⟩ => simp [DotDims.rhsIdx, dot_S256x256_S256x256_S256x256_1_0_0_1_n_n]; exact c2
    | ⟨1, _⟩ => simp [DotDims.rhsIdx, dot_S256x256_S256x256_S256x256_1_0_0_1_n_n]; rfl
  rw [l2, r2]

/-- A [6272, 256] by [256, 256] product into zero, read at (i, k): the sum over the shared coordinate. -/
theorem mmRows_apply {φ₁ φ₂ : FTy} (A : FVec Ideal S6272x256 φ₁) (B : FVec Ideal S256x256 φ₂) (i : Fin 6272) (k : Fin 256) :
    matmul (F := Ideal) dot_S6272x256_S256x256_S6272x256_1_0_0_1_n_n none A B (constant S6272x256 .f32 0x00000000#32) (ix2 i k)
      = ∑ c : Fin 256, A (ix2 i c) * B (ix2 c k) := by
  show FloatOps.matmul dot_S6272x256_S256x256_S6272x256_1_0_0_1_n_n none A B (constant S6272x256 .f32 0x00000000#32) (ix2 i k) = _
  rw [Ideal.matmul_constant_zero_apply,
    ← Equiv.sum_comp (contrEquiv1 dot_S6272x256_S256x256_S6272x256_1_0_0_1_n_n 256 rfl rfl).symm]
  refine Finset.sum_congr rfl fun c _ => ?_
  have c2 := contrEquiv1_symm_val dot_S6272x256_S256x256_S6272x256_1_0_0_1_n_n 256 rfl rfl c
  have l2 : dot_S6272x256_S256x256_S6272x256_1_0_0_1_n_n.lhsIdx (ix2 i k) ((contrEquiv1 _ 256 rfl rfl).symm c) = ix2 i c := by
    funext ax; apply Fin.ext
    match ax with
    | ⟨0, _⟩ => simp [DotDims.lhsIdx, dot_S6272x256_S256x256_S6272x256_1_0_0_1_n_n]; rfl
    | ⟨1, _⟩ => simp [DotDims.lhsIdx, dot_S6272x256_S256x256_S6272x256_1_0_0_1_n_n]; exact c2
  have r2 : dot_S6272x256_S256x256_S6272x256_1_0_0_1_n_n.rhsIdx (ix2 i k) ((contrEquiv1 _ 256 rfl rfl).symm c) = ix2 c k := by
    funext ax; apply Fin.ext
    match ax with
    | ⟨0, _⟩ => simp [DotDims.rhsIdx, dot_S6272x256_S256x256_S6272x256_1_0_0_1_n_n]; exact c2
    | ⟨1, _⟩ => simp [DotDims.rhsIdx, dot_S6272x256_S256x256_S6272x256_1_0_0_1_n_n]; rfl
  rw [l2, r2]

/-- The product contracting the ROWS of two [6272, 256] matrices into zero, read at (i, k): the sum over the rows. -/
theorem mmGram_apply {φ₁ φ₂ : FTy} (A : FVec Ideal S6272x256 φ₁) (B : FVec Ideal S6272x256 φ₂) (i : Fin 256) (k : Fin 256) :
    matmul (F := Ideal) dot_S6272x256_S6272x256_S256x256_0_0_1_1_n_n none A B (constant S256x256 .f32 0x00000000#32) (ix2 i k)
      = ∑ c : Fin 6272, A (ix2 c i) * B (ix2 c k) := by
  show FloatOps.matmul dot_S6272x256_S6272x256_S256x256_0_0_1_1_n_n none A B (constant S256x256 .f32 0x00000000#32) (ix2 i k) = _
  rw [Ideal.matmul_constant_zero_apply,
    ← Equiv.sum_comp (contrEquiv1 dot_S6272x256_S6272x256_S256x256_0_0_1_1_n_n 6272 rfl rfl).symm]
  refine Finset.sum_congr rfl fun c _ => ?_
  have c2 := contrEquiv1_symm_val dot_S6272x256_S6272x256_S256x256_0_0_1_1_n_n 6272 rfl rfl c
  have l2 : dot_S6272x256_S6272x256_S256x256_0_0_1_1_n_n.lhsIdx (ix2 i k) ((contrEquiv1 _ 6272 rfl rfl).symm c) = ix2 c i := by
    funext ax; apply Fin.ext
    match ax with
    | ⟨0, _⟩ => simp [DotDims.lhsIdx, dot_S6272x256_S6272x256_S256x256_0_0_1_1_n_n]; exact c2
    | ⟨1, _⟩ => simp [DotDims.lhsIdx, dot_S6272x256_S6272x256_S256x256_0_0_1_1_n_n]; rfl
  have r2 : dot_S6272x256_S6272x256_S256x256_0_0_1_1_n_n.rhsIdx (ix2 i k) ((contrEquiv1 _ 6272 rfl rfl).symm c) = ix2 c k := by
    funext ax; apply Fin.ext
    match ax with
    | ⟨0, _⟩ => simp [DotDims.rhsIdx, dot_S6272x256_S6272x256_S256x256_0_0_1_1_n_n]; exact c2
    | ⟨1, _⟩ => simp [DotDims.rhsIdx, dot_S6272x256_S6272x256_S256x256_0_0_1_1_n_n]; rfl
  rw [l2, r2]

/-- The sum over the rows of a [6272, 256] matrix, read at column `k`. -/
theorem colSum6272_apply (src : FVec Ideal S6272x256 .f32) (k : Fin 256) :
    multiReduction (F := Ideal) .add [0] S256 src 0x00000000#32 reduces_S6272x256_S256 (.inl rfl) rfl (ix1 k)
      = ∑ r : Fin 6272, src (ix2 r k) := by
  refine (Ideal.multiReduction_add_single src _ reduces_S6272x256_S256 (.inl rfl) rfl (ix1 k)).trans ?_
  show ∑ r : Fin 6272, src (reduces_S6272x256_S256.lift (ix1 k) r) = _
  refine Finset.sum_congr rfl fun r _ => ?_
  congr 1
  funext ax; apply Fin.ext
  match ax with
  | ⟨0, _⟩ => rfl
  | ⟨1, _⟩ => rfl

/-- The sum over the rows of a [256, 256] matrix, read at column `k`. -/
theorem colSum256_apply (src : FVec Ideal S256x256 .f32) (k : Fin 256) :
    multiReduction (F := Ideal) .add [0] S256 src 0x00000000#32 reduces_S256x256_S256 (.inl rfl) rfl (ix1 k)
      = ∑ r : Fin 256, src (ix2 r k) := by
  refine (Ideal.multiReduction_add_single src _ reduces_S256x256_S256 (.inl rfl) rfl (ix1 k)).trans ?_
  show ∑ r : Fin 256, src (reduces_S256x256_S256.lift (ix1 k) r) = _
  refine Finset.sum_congr rfl fun r _ => ?_
  congr 1
  funext ax; apply Fin.ext
  match ax with
  | ⟨0, _⟩ => rfl
  | ⟨1, _⟩ => rfl

/-- One Gram step: the accumulator grows by XᵀX of the pair. -/
theorem pay6_apply (X : Vec Ideal S1x2x3136x256 .f32) (G : Vec Ideal S256x256 .f32) (i k : Fin 256) :
    k0_pay6 (F := Ideal) X G (ix2 i k) = G (ix2 i k) + ∑ row : Fin 6272, rowOf X row i * rowOf X row k := by
  unfold k0_pay6
  rw [shapeCast_self]
  show G (ix2 i k) + matmul (F := Ideal) dot_S6272x256_S6272x256_S256x256_0_0_1_1_n_n none (k0_pay4 (F := Ideal) X) (k0_pay4 (F := Ideal) X)
      (constant S256x256 .f32 0x00000000#32) (ix2 i k) = _
  rw [mmGram_apply]
  refine congrArg (G (ix2 i k) + ·) (Finset.sum_congr rfl fun row _ => ?_)
  show k0_pay3 (F := Ideal) X (ix2 row i) * k0_pay3 (F := Ideal) X (ix2 row k) = _
  rw [pay3_apply, pay3_apply]

/-- One column-sum step. -/
theorem pay7_apply (X : Vec Ideal S1x2x3136x256 .f32) (S : Vec Ideal S1x256 .f32) (u : Fin 1) (k : Fin 256) :
    k0_pay7 (F := Ideal) X S (ix2 u k) = S (ix2 u k) + ∑ row : Fin 6272, rowOf X row k := by
  unfold k0_pay7
  rw [shapeCast_self]
  show S (ix2 u k) + shapeCast S1x256 (multiReduction (F := Ideal) .add [0] S256 (k0_pay3 (F := Ideal) X) 0x00000000#32
      reduces_S6272x256_S256 (.inl rfl) rfl) shapeCasts_S256_S1x256 (ix2 u k) = _
  rw [shapeCast_a_1a_apply _ shapeCasts_S256_S1x256 u k, colSum6272_apply]
  exact congrArg (S (ix2 u k) + ·) (Finset.sum_congr rfl fun row _ => pay3_apply X row k)

theorem pay8_apply (v : FVec Ideal S256x256 .bf16) (k o : Fin 256) : k0_pay8 (F := Ideal) v (ix2 k o) = v (ix2 k o) := by
  unfold k0_pay8
  rw [shapeCast_self]

/-- The output block: kept rows times folded weight, plus the shift, negative part dropped. -/
theorem pay9_apply (v17 : Vec Ideal S1x6272x256 .bf16) (v19 : Vec Ideal S256x256 .bf16) (v21 : Vec Ideal S1x256 .f32)
    (u : Fin 1) (j : Fin 2) (r : Fin 3136) (o : Fin 256) :
    k0_pay9 (F := Ideal) v17 v19 v21 (ix4 u j r o)
      = max ((∑ k : Fin 256, v17 (ix3 (0 : Fin 1) (⟨j.val * 3136 + r.val, by have := j.isLt; have := r.isLt; omega⟩ : Fin 6272) k) * v19 (ix2 k o)) + v21 (ix2 (0 : Fin 1) o)) Z := by
  unfold k0_pay9
  refine (shapeCast_abc_1abc_apply _ shapeCasts_S2x3136x256_S1x2x3136x256 u j r o).trans ?_
  refine (shapeCast_apply _ shapeCasts_S6272x256_S2x3136x256 (ix3 j r o)
    (ix2 (⟨j.val * 3136 + r.val, by have := j.isLt; have := r.isLt; omega⟩ : Fin 6272) o) ?_).trans ?_
  · rw [Shape.rowMajor_val_three, Shape.rowMajor_val_two]
    show (j.val * 3136 + r.val) * 256 + o.val = (j.val * 3136 + r.val) * 256 + o.val
    rfl
  · show max (matmul (F := Ideal) dot_S6272x256_S256x256_S6272x256_1_0_0_1_n_n none
          (shapeCast S6272x256 v17 shapeCasts_S1x6272x256_S6272x256) v19 (constant S6272x256 .f32 0x00000000#32)
          (ix2 (⟨j.val * 3136 + r.val, by have := j.isLt; have := r.isLt; omega⟩ : Fin 6272) o)
        + broadcastTo S6272x256 v21 broadcasts_S1x256_S6272x256
          (ix2 (⟨j.val * 3136 + r.val, by have := j.isLt; have := r.isLt; omega⟩ : Fin 6272) o)) Z = _
    rw [mmRows_apply, broadcastTo_1b_ab_apply v21 broadcasts_S1x256_S6272x256 _ o]
    refine congrArg (fun t => max (t + v21 (ix2 (0 : Fin 1) o)) Z) (Finset.sum_congr rfl fun k _ => ?_)
    rw [shapeCast_1ab_ab_apply v17 shapeCasts_S1x6272x256_S6272x256 _ k]

/-- The mean of the mixed output, column `o`. -/
theorem pay11_apply (W : Vec Ideal S256x256 .f32) (S : Vec Ideal S1x256 .f32) (u : Fin 1) (o : Fin 256) :
    k0_pay11 (F := Ideal) W S (ix2 u o) = Ideal.div (∑ k : Fin 256, S (ix2 (0 : Fin 1) k) * W (ix2 o k)) CNT := by
  unfold k0_pay11 k0_pay10
  rw [shapeCast_self]
  show Ideal.div (extractStridedSlice S1x256 ![0, 0]
      (matmul (F := Ideal) dot_S256x256_S256x256_S256x256_1_0_0_1_n_n none (broadcastTo S256x256 S broadcasts_S1x256_S256x256)
        (transpose S256x256 [1, 0] W transposes_S256x256_p1_0_S256x256) (constant S256x256 .f32 0x00000000#32))
      slices_S256x256_o0_0_S1x256 (ix2 u o)) CNT = _
  rw [extractStridedSlice_apply ![0, 0] _ slices_S256x256_o0_0_S1x256 (ix2 u o) (ix2 (0 : Fin 256) o)
    (fun a => match a with
      | ⟨0, _⟩ => by show 0 = 0 + u.val; omega
      | ⟨1, _⟩ => by show o.val = 0 + o.val; omega),
    mm256_apply]
  refine congrArg (Ideal.div · CNT) (Finset.sum_congr rfl fun k _ => ?_)
  rw [broadcastTo_1b_ab_apply S broadcasts_S1x256_S256x256 (0 : Fin 256) k,
    transpose_ix2_apply W transposes_S256x256_p1_0_S256x256 k o]

/-- The scale of column `o`. -/
theorem pay12_apply (W G : Vec Ideal S256x256 .f32) (S γ : Vec Ideal S1x256 .f32) (u : Fin 1) (o : Fin 256) :
    k0_pay12 (F := Ideal) W G S γ (ix2 u o)
      = γ (ix2 u o) * Ideal.rsqrt (max (Ideal.div (∑ i : Fin 256, W (ix2 o i) * (∑ k : Fin 256, G (ix2 i k) * W (ix2 o k))) CNT
          - k0_pay11 (F := Ideal) W S (ix2 u o) * k0_pay11 (F := Ideal) W S (ix2 u o)) Z + EPS) := by
  unfold k0_pay12 k0_pay10
  rw [shapeCast_self]
  show γ (ix2 u o) * Ideal.rsqrt (max (Ideal.div (shapeCast S1x256 (multiReduction (F := Ideal) .add [0] S256
        (mulf (transpose S256x256 [1, 0] W transposes_S256x256_p1_0_S256x256)
          (matmul (F := Ideal) dot_S256x256_S256x256_S256x256_1_0_0_1_n_n none G
            (transpose S256x256 [1, 0] W transposes_S256x256_p1_0_S256x256) (constant S256x256 .f32 0x00000000#32)))
        0x00000000#32 reduces_S256x256_S256 (.inl rfl) rfl) shapeCasts_S256_S1x256 (ix2 u o)) CNT
      - k0_pay11 (F := Ideal) W S (ix2 u o) * k0_pay11 (F := Ideal) W S (ix2 u o)) Z + EPS) = _
  rw [shapeCast_a_1a_apply _ shapeCasts_S256_S1x256 u o, colSum256_apply]
  refine congrArg (fun t => γ (ix2 u o) * Ideal.rsqrt (max (Ideal.div t CNT
      - k0_pay11 (F := Ideal) W S (ix2 u o) * k0_pay11 (F := Ideal) W S (ix2 u o)) Z + EPS))
    (Finset.sum_congr rfl fun i _ => ?_)
  show transpose S256x256 [1, 0] W transposes_S256x256_p1_0_S256x256 (ix2 i o)
      * matmul (F := Ideal) dot_S256x256_S256x256_S256x256_1_0_0_1_n_n none G
          (transpose S256x256 [1, 0] W transposes_S256x256_p1_0_S256x256) (constant S256x256 .f32 0x00000000#32) (ix2 i o) = _
  rw [transpose_ix2_apply W transposes_S256x256_p1_0_S256x256 i o, mm256_apply]
  refine congrArg (W (ix2 o i) * ·) (Finset.sum_congr rfl fun k _ => ?_)
  rw [transpose_ix2_apply W transposes_S256x256_p1_0_S256x256 k o]

/-- The shift of column `o`. -/
theorem pay13_apply (W G : Vec Ideal S256x256 .f32) (S γ β : Vec Ideal S1x256 .f32) (u : Fin 1) (o : Fin 256) :
    k0_pay13 (F := Ideal) W G S γ β (ix2 u o)
      = β (ix2 u o) - k0_pay11 (F := Ideal) W S (ix2 u o) * k0_pay12 (F := Ideal) W G S γ (ix2 u o) := by
  unfold k0_pay13
  rw [shapeCast_self, shapeCast_self]
  rfl

/-- The folded weight, transposed: entry (k, o) is w[o, k] times the scale of column `o`. -/
theorem pay14_apply (W G : Vec Ideal S256x256 .f32) (S γ : Vec Ideal S1x256 .f32) (k o : Fin 256) :
    k0_pay14 (F := Ideal) W G S γ (ix2 k o) = W (ix2 o k) * k0_pay12 (F := Ideal) W G S γ (ix2 (0 : Fin 1) o) := by
  unfold k0_pay14 k0_pay10
  show transpose S256x256 [1, 0] W transposes_S256x256_p1_0_S256x256 (ix2 k o)
      * broadcastTo S256x256 (k0_pay12 (F := Ideal) W G S γ) broadcasts_S1x256_S256x256 (ix2 k o) = _
  rw [transpose_ix2_apply W transposes_S256x256_p1_0_S256x256 k o,
    broadcastTo_1b_ab_apply (k0_pay12 (F := Ideal) W G S γ) broadcasts_S1x256_S256x256 k o]

end Cert.KernelIdeal.KPay

end
-- ==== Proof.Spec.lean ====
/-
  The function both programs compute, over the extended reals: a 1×1 convolution (a channel mix by the
  weight w, [out, in]) followed by training-mode batch normalisation and the rectifier, the batch
  statistics taken from the Gram matrix of the input instead of from the mixed output.

    gram i k = Σ_n Σ_p x[n,i,p] · x[n,k,p]          (p runs over the 56·56 pixels of an image)
    colsum i = Σ_n Σ_p x[n,i,p]
    mean o   = (Σ_k w[o,k] · colsum k) / M           (M = 16·3136 = 50176, the literal 0x47440000)
    ey2 o    = (Σ_i (Σ_k w[o,k] · gram k i) · w[o,i]) / M
    scale o  = γ[o] · rsqrt (max (ey2 o − mean o · mean o) 0 + ε)      (ε the literal 0x3727C5AC)
    shift o  = β[o] − mean o · scale o
    out[n,o,h,v] = max (Σ_k (scale o · w[o,k]) · x[n,k,h,v] + shift o) 0
-/
import Idealize.ShloMosaic.PureOps.Ideal
import Idealize.ShloMosaic.Lib.ValueIdx

noncomputable section

namespace Cert.Spec

open Idealize.ShloMosaic Idealize.ShloMosaic.ValueIdx

abbrev SX : Shape := ⟨4, ![16, 256, 56, 56]⟩
abbrev SW : Shape := ⟨2, ![256, 256]⟩
abbrev SV : Shape := ⟨1, ![256]⟩

/-- The three literals of both programs, never evaluated: the element count, epsilon, and zero. -/
def cnt : EReal := Ideal.ofBits .f32 0x47440000#32
def eps : EReal := Ideal.ofBits .f32 0x3727C5AC#32
def zero : EReal := Ideal.ofBits .f32 0x00000000#32

/-- Pixel `p = 56·h + v` of image `n`, channel `k`. -/
def px (x : SX.Idx → EReal) (n : Fin 16) (k : Fin 256) (p : Fin 3136) : EReal :=
  x (ix4 n k ⟨p.val / 56, by have := p.isLt; omega⟩ ⟨p.val % 56, Nat.mod_lt _ (by decide)⟩)

variable (x : SX.Idx → EReal) (w : SW.Idx → EReal) (γ β : SV.Idx → EReal)

def gram (i k : Fin 256) : EReal := ∑ n : Fin 16, ∑ p : Fin 3136, px x n i p * px x n k p
def colsum (i : Fin 256) : EReal := ∑ n : Fin 16, ∑ p : Fin 3136, px x n i p
def mean (o : Fin 256) : EReal := Ideal.div (∑ k : Fin 256, w (ix2 o k) * colsum x k) cnt
def ey2 (o : Fin 256) : EReal := Ideal.div (∑ i : Fin 256, (∑ k : Fin 256, w (ix2 o k) * gram x k i) * w (ix2 o i)) cnt
def scale (o : Fin 256) : EReal := γ (ix1 o) * Ideal.rsqrt (max (ey2 x w o - mean x w o * mean x w o) zero + eps)
def shift (o : Fin 256) : EReal := β (ix1 o) - mean x w o * scale x w γ o
def outAt (n : Fin 16) (o : Fin 256) (h v : Fin 56) : EReal :=
  max ((∑ k : Fin 256, (scale x w γ o * w (ix2 o k)) * x (ix4 n k h v)) + shift x w γ β o) zero

/-- The whole result array. -/
def out : SX.Idx → EReal := fun j => outAt x w γ β (j 0) (j 1) (j 2) (j 3)

end Cert.Spec

end
-- ==== Proof.LibTileSum.lean ====
/-
  A sum over the rows of an array taken tile by tile: for N = T * R, the sum over all N rows is the sum over the T
  tiles of the sum over the R rows of each tile, row R * t + r being row r of tile t. Only commutativity and
  associativity of the addition are used, so the law holds in any commutative additive monoid (the extended reals
  included, infinities and all).
-/
import Mathlib.Algebra.BigOperators.Fin
import Mathlib.Logic.Equiv.Fin.Basic

namespace Cert.Lib.TileSum

open Finset

theorem row_lt {T R N : ℕ} (hN : T * R = N) (t : Fin T) (r : Fin R) : R * t.val + r.val < N := by
  have h1 : R * t.val + r.val < R * (t.val + 1) := by
    rw [Nat.mul_succ]; exact Nat.add_lt_add_left r.isLt _
  have h2 : R * (t.val + 1) ≤ R * T := Nat.mul_le_mul_left _ t.isLt
  rw [← hN, Nat.mul_comm T R]; exact lt_of_lt_of_le h1 h2

/-- The sum over N = T * R indices is the sum over T tiles of the sum over the R indices of each tile. -/
theorem sum_tiles {M : Type*} [AddCommMonoid M] (T R N : ℕ) (hN : T * R = N) (f : Fin N → M) :
    ∑ k : Fin N, f k = ∑ t : Fin T, ∑ r : Fin R, f ⟨R * t.val + r.val, row_lt hN t r⟩ := by
  subst hN
  rw [← (finProdFinEquiv (m := T) (n := R)).sum_comp, Fintype.sum_prod_type]
  refine Finset.sum_congr rfl fun t _ => Finset.sum_congr rfl fun r _ => ?_
  refine congrArg f (Fin.ext ?_)
  show r.val + R * t.val = R * t.val + r.val
  exact Nat.add_comm _ _

end Cert.Lib.TileSum
-- ==== Proof.KAlg.lean ====
/-
  The kernel's result is the specification. The Gram accumulator after the eight pairs is the Gram matrix of
  all sixteen images (pair b holds images 2b and 2b + 1, each image's 3136 pixels in order: the sum over the
  6272 rows of a pair is taken image by image, and the sum over pairs and images is the sum over images), the
  column sums likewise; the fold and the output then differ from the specification only in the order of
  factors, and in reading the Gram matrix transposed — it is symmetric.
-/
import proofs.«152739_g2000502477920874_pallasbulk_293_22_alg».proof.Proof.KIndex
import proofs.«152739_g2000502477920874_pallasbulk_293_22_alg».proof.Proof.KPay
import proofs.«152739_g2000502477920874_pallasbulk_293_22_alg».proof.Proof.Spec
import proofs.«152739_g2000502477920874_pallasbulk_293_22_alg».proof.Proof.LibTileSum

set_option maxRecDepth 16384

noncomputable section

namespace Cert.KernelIdeal.KValue

open Cert.KernelIdeal Cert.KernelIdeal.Gen Cert.KernelIdeal.KPay
open Idealize.ShloMosaic Idealize.ShloMosaic.TcCoe Idealize.ShloMosaic.ValueIdx Idealize.SL.Sem
open Cert.Lib.TileSum

variable [Cert.KernelIdeal.Facts]
variable (m : (ℓ : Loc nD τ sig) → Buf (Elt Ideal) ℓ) (c : Dev nD)

abbrev xA : Cert.Spec.SX.Idx → EReal := m ((c : Thread nD τ).loc main_arg0)
abbrev wA : Cert.Spec.SW.Idx → EReal := m ((c : Thread nD τ).loc main_arg1)
abbrev gA : Cert.Spec.SV.Idx → EReal := m ((c : Thread nD τ).loc main_arg2)
abbrev bA : Cert.Spec.SV.Idx → EReal := m ((c : Thread nD τ).loc main_arg3)

/-- Row `row` of pair `b`: pixel `row % 3136` of image `2b + row / 3136`. -/
theorem rowOf_Xn (b : Fin 8) (row : Fin 6272) (k : Fin 256) :
    rowOf (Xn (F := Ideal) m c b.val) row k
      = Cert.Spec.px (xA m c) (⟨2 * b.val + row.val / 3136, by have := row.isLt; omega⟩ : Fin 16) k (⟨row.val % 3136, Nat.mod_lt _ (by decide)⟩ : Fin 3136) := by
  unfold rowOf
  rw [Xn_apply, headFn_apply]
  rfl

/-- A sum over the rows of pair `b`, image by image. -/
theorem sum_rows (b : Fin 8) (f : Fin 16 → Fin 3136 → EReal) :
    (∑ row : Fin 6272, f (⟨2 * b.val + row.val / 3136, by have := row.isLt; omega⟩ : Fin 16) (⟨row.val % 3136, Nat.mod_lt _ (by decide)⟩ : Fin 3136))
      = ∑ j : Fin 2, ∑ p : Fin 3136, f (⟨2 * b.val + j.val, by omega⟩ : Fin 16) p := by
  rw [sum_tiles 2 3136 6272 (by decide)]
  refine Finset.sum_congr rfl fun j _ => Finset.sum_congr rfl fun p _ => ?_
  have hj : j.val < 2 := j.isLt
  have hp : p.val < 3136 := p.isLt
  have h1 : (3136 * j.val + p.val) / 3136 = j.val := by omega
  have h2 : (3136 * j.val + p.val) % 3136 = p.val := by omega
  congr 1
  · exact Fin.ext (by show 2 * b.val + (3136 * j.val + p.val) / 3136 = _; rw [h1])
  · exact Fin.ext (by show (3136 * j.val + p.val) % 3136 = _; rw [h2])

/-- A sum over pairs and the two images of a pair is the sum over images. -/
theorem sum_pairs (h : Fin 16 → EReal) : (∑ b : Fin 8, ∑ j : Fin 2, h (⟨2 * b.val + j.val, by omega⟩ : Fin 16)) = ∑ n : Fin 16, h n :=
  (sum_tiles 8 2 16 (by decide) h).symm

/-- The Gram accumulator after pairs 0 … n. -/
theorem Gk_apply (n : ℕ) (i k : Fin 256) :
    Gk (F := Ideal) m c n (ix2 i k) = Z + ∑ b ∈ Finset.range (n + 1), ∑ row : Fin 6272, rowOf (Xn (F := Ideal) m c b) row i * rowOf (Xn (F := Ideal) m c b) row k := by
  induction n with
  | zero =>
    show k0_pay6 (F := Ideal) (Xn m c 0) (k0_pay1 (F := Ideal)) (ix2 i k) = _
    rw [pay6_apply, pay1_apply, Finset.sum_range_one]
  | succ n ih =>
    show k0_pay6 (F := Ideal) (Xn m c (n + 1)) (Gk m c n) (ix2 i k) = _
    rw [pay6_apply, ih, Finset.sum_range_succ _ (n + 1), add_assoc]

theorem Sk_apply (n : ℕ) (u : Fin 1) (k : Fin 256) :
    Sk (F := Ideal) m c n (ix2 u k) = Z + ∑ b ∈ Finset.range (n + 1), ∑ row : Fin 6272, rowOf (Xn (F := Ideal) m c b) row k := by
  induction n with
  | zero =>
    show k0_pay7 (F := Ideal) (Xn m c 0) (k0_pay2 (F := Ideal)) (ix2 u k) = _
    rw [pay7_apply, pay2_apply, Finset.sum_range_one]
  | succ n ih =>
    show k0_pay7 (F := Ideal) (Xn m c (n + 1)) (Sk m c n) (ix2 u k) = _
    rw [pay7_apply, ih, Finset.sum_range_succ _ (n + 1), add_assoc]

theorem Z_eq : (Z : EReal) = 0 := Ideal.ofBits_zero_f32

/-- After the eight pairs the accumulators are the Gram matrix and the column sums of the whole input. -/
theorem G7_eq (i k : Fin 256) : Gk (F := Ideal) m c 7 (ix2 i k) = Cert.Spec.gram (xA m c) i k := by
  rw [Gk_apply, Z_eq, zero_add, Finset.sum_range (fun b => ∑ row : Fin 6272, rowOf (Xn (F := Ideal) m c b) row i * rowOf (Xn (F := Ideal) m c b) row k)]
  unfold Cert.Spec.gram
  rw [← sum_pairs (fun n => ∑ p : Fin 3136, Cert.Spec.px (xA m c) n i p * Cert.Spec.px (xA m c) n k p)]
  refine Finset.sum_congr rfl fun b _ => ?_
  rw [← sum_rows b (fun n p => Cert.Spec.px (xA m c) n i p * Cert.Spec.px (xA m c) n k p)]
  refine Finset.sum_congr rfl fun row _ => ?_
  rw [rowOf_Xn, rowOf_Xn]

theorem S7_eq (u : Fin 1) (k : Fin 256) : Sk (F := Ideal) m c 7 (ix2 u k) = Cert.Spec.colsum (xA m c) k := by
  rw [Sk_apply, Z_eq, zero_add, Finset.sum_range (fun b => ∑ row : Fin 6272, rowOf (Xn (F := Ideal) m c b) row k)]
  unfold Cert.Spec.colsum
  rw [← sum_pairs (fun n => ∑ p : Fin 3136, Cert.Spec.px (xA m c) n k p)]
  refine Finset.sum_congr rfl fun b _ => ?_
  rw [← sum_rows b (fun n p => Cert.Spec.px (xA m c) n k p)]
  refine Finset.sum_congr rfl fun row _ => ?_
  rw [rowOf_Xn]

/-- The Gram matrix is symmetric. -/
theorem gram_symm (x : Cert.Spec.SX.Idx → EReal) (i k : Fin 256) : Cert.Spec.gram x i k = Cert.Spec.gram x k i := by
  unfold Cert.Spec.gram
  exact Finset.sum_congr rfl fun n _ => Finset.sum_congr rfl fun p _ => mul_comm _ _

/-- The fold, column by column. -/
theorem mean_eq (u : Fin 1) (o : Fin 256) :
    k0_pay11 (F := Ideal) (Wb m c) (Sk m c 7) (ix2 u o) = Cert.Spec.mean (xA m c) (wA m c) o := by
  rw [pay11_apply]
  unfold Cert.Spec.mean
  refine congrArg (fun s => Ideal.div s Cert.Spec.cnt) (Finset.sum_congr rfl fun k _ => ?_)
  rw [S7_eq, Wb_apply, mul_comm]

theorem scale_eq (u : Fin 1) (o : Fin 256) :
    k0_pay12 (F := Ideal) (Wb m c) (Gk m c 7) (Sk m c 7) (γb m c) (ix2 u o) = Cert.Spec.scale (xA m c) (wA m c) (gA m c) o := by
  rw [pay12_apply, mean_eq, γb_apply]
  unfold Cert.Spec.scale Cert.Spec.ey2
  have he : (∑ i : Fin 256, Wb (F := Ideal) m c (ix2 o i) * ∑ k : Fin 256, Gk (F := Ideal) m c 7 (ix2 i k) * Wb (F := Ideal) m c (ix2 o k))
      = ∑ i : Fin 256, (∑ k : Fin 256, (wA m c) (ix2 o k) * Cert.Spec.gram (xA m c) k i) * (wA m c) (ix2 o i) := by
    refine Finset.sum_congr rfl fun i _ => ?_
    rw [Wb_apply, mul_comm]
    refine congrArg (· * (wA m c) (ix2 o i)) (Finset.sum_congr rfl fun k _ => ?_)
    rw [G7_eq, Wb_apply, gram_symm, mul_comm]
  rw [he]
  rfl

theorem shift_eq (u : Fin 1) (o : Fin 256) : SHk (F := Ideal) m c (ix2 u o) = Cert.Spec.shift (xA m c) (wA m c) (gA m c) (bA m c) o := by
  unfold SHk
  rw [pay13_apply, mean_eq, scale_eq, βb_apply]
  rfl

theorem wf_eq (k o : Fin 256) : WFk (F := Ideal) m c (ix2 k o) = (wA m c) (ix2 o k) * Cert.Spec.scale (xA m c) (wA m c) (gA m c) o := by
  unfold WFk
  rw [pay8_apply, pay14_apply, scale_eq, Wb_apply]

/-- The result array is the specification. -/
theorem result_eq : tailFn (F := Ideal) (G5 m c) = Cert.Spec.out (xA m c) (wA m c) (gA m c) (bA m c) := by
  funext jj
  obtain ⟨n, o, h, v, rfl⟩ : ∃ (n : Fin 16) (o : Fin 256) (h v : Fin 56), jj = ix4 n o h v := ⟨jj 0, jj 1, jj 2, jj 3, eq_ix4 jj⟩
  have hn : n.val < 16 := n.isLt
  have hh : h.val < 56 := h.isLt
  have hv : v.val < 56 := v.isLt
  rw [tailFn_apply]
  show outK (F := Ideal) m c (tAt (8 + n.val / 2)) (blkIx (ix4 (⟨n.val / 2, by omega⟩ : Fin 8) (⟨n.val % 2, Nat.mod_lt _ (by decide)⟩ : Fin 2) (⟨h.val * 56 + v.val, by omega⟩ : Fin 3136) o)) = Cert.Spec.outAt (xA m c) (wA m c) (gA m c) (bA m c) n o h v
  have hb : blkIx (ix4 (⟨n.val / 2, by omega⟩ : Fin 8) (⟨n.val % 2, Nat.mod_lt _ (by decide)⟩ : Fin 2) (⟨h.val * 56 + v.val, by omega⟩ : Fin 3136) o)
      = ix4 (0 : Fin 1) (⟨n.val % 2, Nat.mod_lt _ (by decide)⟩ : Fin 2) (⟨h.val * 56 + v.val, by omega⟩ : Fin 3136) o := by
    funext a; apply Fin.ext
    match a with
    | ⟨0, _⟩ => rfl
    | ⟨1, _⟩ => rfl
    | ⟨2, _⟩ => rfl
    | ⟨3, _⟩ => rfl
  have ht : (tAt (8 + n.val / 2)).val - 8 = (⟨n.val / 2, by omega⟩ : Fin 8).val := by
    show (8 + n.val / 2) % 16 - 8 = n.val / 2; omega
  unfold outK
  rw [hb, ht, pay9_apply, shift_eq]
  unfold Cert.Spec.outAt
  refine congrArg (fun s => max (s + Cert.Spec.shift (xA m c) (wA m c) (gA m c) (bA m c) o) Cert.Spec.zero) (Finset.sum_congr rfl fun k _ => ?_)
  rw [pay5_apply, rowOf_Xn, wf_eq, mul_comm ((wA m c) (ix2 o k)), mul_comm]
  congr 1
  unfold Cert.Spec.px
  refine congrArg (xA m c) (funext fun a => Fin.ext ?_)
  match a with
  | ⟨0, _⟩ => show 2 * (n.val / 2) + (n.val % 2 * 3136 + (h.val * 56 + v.val)) / 3136 = n.val; omega
  | ⟨1, _⟩ => rfl
  | ⟨2, _⟩ => show (n.val % 2 * 3136 + (h.val * 56 + v.val)) % 3136 / 56 = h.val; omega
  | ⟨3, _⟩ => show (n.val % 2 * 3136 + (h.val * 56 + v.val)) % 3136 % 56 = v.val; omega

end Cert.KernelIdeal.KValue

end
-- ==== Proof.RFrame.lean ====
import proofs.«152739_g2000502477920874_pallasbulk_293_22_alg».proof.Proof.Gen.ReferenceIdeal.Frame
import proofs.«152739_g2000502477920874_pallasbulk_293_22_alg».proof.Proof.Spec

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer named: every weakly fair execution terminates, the result buffer
    holds what the fold of the segment boundaries leaves there, and the four arguments are as launched. -/
theorem run_W6 : θ_run defs (onTc (τ := τ) (main (F := F))) ⟨m, fun _ => 0, ρ⟩ (fun r => ∀ c : Dev nD,
      r.2.mem ((c.tc : Thread nD τ).loc main_v30) = W6 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v30 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.ReferenceIdeal.RefValue

end
-- ==== Proof.LibHostRead.lean ====
/-
  Small layout operations read at an index: a scalar broadcast everywhere; a vector made a column, a column spread
  over the columns of a matrix, a vector made a row, a row spread over the rows of a matrix; a one-column matrix
  flattened; a column spread over a matrix by the accelerator's broadcast; and a matrix assembled from three blocks
  of columns.  Each reads the operand at the evident index.
-/
import Idealize.ShloMosaic.PureOps.Ideal
import Idealize.ShloMosaic.Lib.ValueIdx
import Idealize.ShloMosaic.Lib.ValueLayout
import Idealize.ShloMosaic.Lib.Pipeline.Value

noncomputable section

namespace Cert.LibHostRead

open Idealize.ShloMosaic Idealize.ShloMosaic.ValueIdx

variable {α : Type}

/-- A scalar broadcast to any shape reads the scalar everywhere. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector `[a]` made a column `[a, 1]` reads, at `(i, u)`, the vector at `i`. -/
theorem bcast_col_apply {a : Nat} (dims : Fin 1 → Fin 2) (hd : dims 0 = 0)
    (h : (⟨1, ![a]⟩ : Shape).BroadcastsInDim ⟨2, ![a, 1]⟩ dims)
    (x : (⟨1, ![a]⟩ : Shape).Idx → α) (i : Fin a) (u : Fin 1) :
    broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` spread over `[a, b]` reads, at `(i, c)`, the column at `i`. -/
theorem bcast_col_wide_apply {a b : Nat} (dims : Fin 2 → Fin 2) (hd0 : dims 0 = 0) (hd1 : dims 1 = 1)
    (h : (⟨2, ![a, 1]⟩ : Shape).BroadcastsInDim ⟨2, ![a, b]⟩ dims)
    (x : (⟨2, ![a, 1]⟩ : Shape).Idx → α) (i : Fin a) (c : Fin b) :
    broadcastInDim ⟨2, ![a, b]⟩ dims h x (ix2 i c) = x (ix2 i (0 : Fin 1)) := by
  refine broadcastInDim_apply dims h x (ix2 i c) (ix2 i (0 : Fin 1)) fun ax => ?_
  match ax with
  | ⟨0, _⟩ =>
    show i.val = if a = 1 then 0 else ((ix2 i c : (⟨2, ![a, b]⟩ : Shape).Idx) (dims 0)).val
    rw [hd0]
    split
    · have := i.isLt; omega
    · rfl
  | ⟨1, _⟩ =>
    show (0 : ℕ) = if (1 : ℕ) = 1 then 0 else _
    rw [if_pos rfl]

/-- A vector `[b]` made a row `[1, b]` reads, at `(u, c)`, the vector at `c`. -/
theorem bcast_row_apply {b : Nat} (dims : Fin 1 → Fin 2) (hd : dims 0 = 1)
    (h : (⟨1, ![b]⟩ : Shape).BroadcastsInDim ⟨2, ![1, b]⟩ dims)
    (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c : (⟨2, ![1, b]⟩ : Shape).Idx) (dims 0)).val
    rw [hd]
    split
    · have := c.isLt; omega
    · rfl

/-- A row `[1, b]` spread over `[a, b]` reads, at `(i, c)`, the row at `c`. -/
theorem bcast_row_wide_apply {a b : Nat} (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (i : Fin a) (c : Fin b) :
    broadcastInDim ⟨2, ![a, b]⟩ dims h x (ix2 i c) = x (ix2 (0 : Fin 1) c) := by
  refine broadcastInDim_apply dims h x (ix2 i c) (ix2 (0 : Fin 1) c) fun ax => ?_
  match ax with
  | ⟨0, _⟩ =>
    show (0 : ℕ) = if (1 : ℕ) = 1 then 0 else _
    rw [if_pos rfl]
  | ⟨1, _⟩ =>
    show c.val = if b = 1 then 0 else ((ix2 i c : (⟨2, ![a, b]⟩ : Shape).Idx) (dims 1)).val
    rw [hd1]
    split
    · have := c.isLt; omega
    · rfl

/-- A one-column matrix `[a, 1]` flattened to `[a]` reads, at `i`, the matrix at `(i, 0)`. -/
theorem shapeCast_a1_a_apply {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The accelerator's broadcast of a column `[a, 1]` to `[a, b]` reads, at `(i, c)`, the column at `i`. -/
theorem broadcastTo_a1_ab_apply {a b : Nat} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

end Cert.LibHostRead

end
-- ==== Proof.LibColumnLayouts.lean ====
/-
  Small layout operations read at an index: a column `[a, 1]` recast as a vector `[a]` and back, a column broadcast along a
  second axis, and arrays with a single element. Each reads the operand at the position with the same row-major rank.
-/
import Idealize.ShloMosaic.Lib.Pipeline.Value
import Idealize.ShloMosaic.Lib.ValueIdx

noncomputable section

namespace Cert.GridLoss

open Idealize.ShloMosaic Idealize.ShloMosaic.ValueIdx

variable {α : Type}

/-- A column `[a, 1]` recast as `[a]` reads, at `i`, the column at `(i, 0)`. -/
theorem shapeCast_col_vec_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[a]` recast as a column `[a, 1]` reads, at `(i, u)`, the vector at `i`. -/
theorem shapeCast_vec_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column at `(p, 0)`. -/
theorem broadcastTo_col_apply {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-- Column `c` of an `[a, 2]` array cut out as a column `[a, 1]` reads, at `(i, u)`, the array at `(i, c)`. -/
theorem slice_col_apply {a : ℕ} (x : (⟨2, ![a, 2]⟩ : Shape).Idx → α) (c : Fin 2) (off : Fin 2 → Nat)
    (h0 : off 0 = 0) (h1 : off 1 = c.val) (h : (⟨2, ![a, 2]⟩ : Shape).Slices off ⟨2, ![a, 1]⟩) (i : Fin a) (u : Fin 1) :
    extractStridedSlice ⟨2, ![a, 1]⟩ off x h (ix2 i u) = x (ix2 i c) :=
  extractStridedSlice_apply off x h (ix2 i u) (ix2 i c) (fun ax => match ax with
    | ⟨0, _⟩ => by show i.val = off 0 + i.val; rw [h0]; omega
    | ⟨1, _⟩ => by show c.val = off 1 + u.val; rw [h1]; omega)

end Cert.GridLoss

end
-- ==== Proof.RHostFns.lean ====
import proofs.«152739_g2000502477920874_pallasbulk_293_22_alg».proof.Proof.Gen.ReferenceIdeal
import Idealize.ShloMosaic.Lib.Pipeline.Value
import Idealize.ShloMosaic.Lib.ValueIdx
import Idealize.ShloMosaic.Lib.IdealHost
import Idealize.ShloMosaic.PureOps.Ideal.Laws
import proofs.«152739_g2000502477920874_pallasbulk_293_22_alg».proof.Proof.LibHostRead
import proofs.«152739_g2000502477920874_pallasbulk_293_22_alg».proof.Proof.LibColumnLayouts

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

abbrev DV := dot_S256x256_S256x1_S256x1_1_0_0_1_n_n
abbrev DM := dot_S256x256_S256x256_S256x256_1_0_0_1_n_n

section HostFns
variable (w : FVec Ideal S256x256 .f32) (G : FVec Ideal S2x256x256 .f32) (S : FVec Ideal S2x256x1 .f32) (γ β : FVec Ideal S256 .f32)

/-- The host lines between the two kernels, as functions of the weight, the two per-split result arrays, gamma and beta. -/
def hzero : FVec Ideal S_ .f32 := constant (F := Ideal) S_ .f32 0x00000000#32
def hcnt : FVec Ideal S256x1 .f32 := broadcastInDim S256x1 ![] bcast_S_S256x1 (constant (F := Ideal) S_ .f32 0x47440000#32)
def hv3 : FVec Ideal S256x256 .f32 := Host.reduceAdd (F := Ideal) G hzero reducesTo_S2x256x256_S256x256_d0 h_S_
def hv4 : FVec Ideal S256x1 .f32 := Host.reduceAdd (F := Ideal) S hzero reducesTo_S2x256x1_S256x1_d0 h_S_
def hv7 : FVec Ideal S256x1 .f32 := Host.divf (F := Ideal) (Host.dotGeneral (F := Ideal) DV none w (hv4 S)) hcnt
def hv10 : FVec Ideal S256 .f32 :=
  Host.reduceAdd (F := Ideal) (mulf (Host.dotGeneral (F := Ideal) DM none w (hv3 G)) w) hzero reducesTo_S256x256_S256_d1 h_S_
def hv13 : FVec Ideal S256x1 .f32 := Host.divf (F := Ideal) (broadcastInDim S256x1 ![0] bcast_S256_S256x1_0 (hv10 w G)) hcnt
def hv20 : FVec Ideal S256x1 .f32 :=
  Host.rsqrt (F := Ideal) (addf (maximumf (subf (hv13 w G) (mulf (hv7 w S) (hv7 w S))) (broadcastInDim S256x1 ![] bcast_S_S256x1 hzero))
    (broadcastInDim S256x1 ![] bcast_S_S256x1 (constant (F := Ideal) S_ .f32 0x3727C5AC#32)))
def hv22 : FVec Ideal S256x1 .f32 := mulf (shapeCast S256x1 γ shapeCasts_S256_S256x1) (hv20 w G S)
def hv25 : FVec Ideal S256x1 .f32 := subf (shapeCast S256x1 β shapeCasts_S256_S256x1) (mulf (hv7 w S) (hv22 w G S γ))
def hv27 : FVec Ideal S256x256 .f32 := mulf (broadcastInDim S256x256 ![0, 1] bcast_S256x1_S256x256_0_1 (hv22 w G S γ)) w

end HostFns

end Cert.ReferenceIdeal.RefValue

end
-- ==== Proof.RHostRun.lean ====
import proofs.«152739_g2000502477920874_pallasbulk_293_22_alg».proof.Proof.Gen.ReferenceIdeal.Frame
import proofs.«152739_g2000502477920874_pallasbulk_293_22_alg».proof.Proof.RHostFns
import Idealize.ShloMosaic.Lib.Tactic

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable (m : (ℓ : Loc nD τ sig) → Buf (Elt Ideal) ℓ) (ρ : Dev nD → PrngReg)

set_option maxHeartbeats 4000000 in
/-- The folded weight the second kernel is entered with. -/
theorem W4_v27 (c : Dev nD) : W4 m ρ c (Proc.devRef .tc main_v27)
    = hv27 (W3 m ρ c (Proc.devRef .tc main_arg1)) (W3 m ρ c (Proc.devRef .tc main_v2_0)) (W3 m ρ c (Proc.devRef .tc main_v2_1)) (W3 m ρ c (Proc.devRef .tc main_arg2)) := by
  show StableHlo.after hostOps1 _ (Proc.devRef .tc main_v27) = _
  after_results_simp
  rfl

set_option maxHeartbeats 4000000 in
/-- The shift the second kernel is entered with. -/
theorem W4_v25 (c : Dev nD) : W4 m ρ c (Proc.devRef .tc main_v25)
    = hv25 (W3 m ρ c (Proc.devRef .tc main_arg1)) (W3 m ρ c (Proc.devRef .tc main_v2_0)) (W3 m ρ c (Proc.devRef .tc main_v2_1)) (W3 m ρ c (Proc.devRef .tc main_arg2)) (W3 m ρ c (Proc.devRef .tc main_arg3)) := by
  show StableHlo.after hostOps1 _ (Proc.devRef .tc main_v25) = _
  after_results_simp
  rfl

/-- The padded input is what it was before the host lines. -/
theorem W4_v1 (c : Dev nD) : W4 m ρ c (Proc.devRef .tc main_v1) = W3 m ρ c (Proc.devRef .tc main_v1) := by
  show StableHlo.after hostOps1 _ (Proc.devRef .tc main_v1) = _
  after_results

end Cert.ReferenceIdeal.RefValue

end
-- ==== Proof.RPieces.lean ====
import proofs.«152739_g2000502477920874_pallasbulk_293_22_alg».proof.Proof.Gen.ReferenceIdeal.Frame
import Idealize.ShloMosaic.Lib.Pipeline.Value
import Idealize.ShloMosaic.Lib.WritesUnit

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

section Whole
variable {sp : Space} {S : Shape} {e : EltTy} (M : Memref sig .tc sp S e) (h : M.IsWhole)

/-- A load of a whole buffer through the zero-offset whole rectangle reads its contents. -/
theorem readAt_whole {off : Fin S.rank → ℕ} (hz : off = fun _ => 0) (inb : ∀ a, off a + S.size a ≤ S.size a) (x : S.Idx → Elt F e) :
    View.readAt (Elt F) M.view (Rect.unit off S.size inb).toLoadRect (h.unread x) = x := by
  rw [View.readAt_eq_ld, h.read_unread, View.ld_unit_zero hz]

end Whole

variable (c : Dev nD) (i : grid0.Coords) (arg3 : Memref sig .tc .vmem S1x256x640 .f32) (harg3 : arg3.IsWhole) (arg4 : Memref sig .tc .vmem S1x256x256 .f32) (harg4 : arg4.IsWhole) (arg5 : Memref sig .tc .vmem S1x256x1 .f32) (harg5 : arg5.IsWhole)
variable (x0 : Vec F S1x256x640 .f32) (xo1 : Vec F S1x256x256 .f32) (xo2 : Vec F S1x256x1 .f32)

/-- At a split's first point the Gram accumulator is reset and then grows by the tile's product. -/
theorem outA_1 (hc0 : cond0_0 i) : out0_A_1 c i arg3 harg3 arg4 harg4 arg5 harg5 hc0 x0 = k0_pay4 x0 k0_pay1 := by
  unfold out0_A_1
  rw [View.read_writes_eq_canon _ _ _ (cover0_A_1 c i arg3 harg3 arg4 harg4 arg5 harg5 hc0 x0)]
  unfold kernelRun0_A
  dsimp only
  sl_unfold_words
  rw [View.canon_cons_unit_zero hz3, readAt_whole arg3 harg3 hz3, View.readCov_unit_zero _ hz3]

/-- At a split's first point the column sums are reset and then grow by the tile's row sums. -/
theorem outA_2 (hc0 : cond0_0 i) : out0_A_2 c i arg3 harg3 arg4 harg4 arg5 harg5 hc0 x0 = k0_pay5 x0 k0_pay2 := by
  unfold out0_A_2
  rw [View.read_writes_eq_canon _ _ _ (cover0_A_2 c i arg3 harg3 arg4 harg4 arg5 harg5 hc0 x0)]
  unfold kernelRun0_A
  dsimp only
  sl_unfold_words
  rw [View.canon_cons_unit_zero hz3, readAt_whole arg3 harg3 hz3, View.readCov_unit_zero _ hz3]

/-- At every other point the Gram accumulator grows by the tile's product over what the point before left. -/
theorem outB_1 (hc0 : ¬cond0_0 i) : out0_B_1 c i arg3 harg3 arg4 harg4 arg5 harg5 hc0 x0 xo1 xo2 = k0_pay4 x0 xo1 := by
  unfold out0_B_1
  rw [View.read_writes_eq_canon _ _ _ (cover0_B_1 c i arg3 harg3 arg4 harg4 arg5 harg5 hc0 x0 xo1 xo2)]
  unfold kernelRun0_B
  dsimp only
  sl_unfold_words
  rw [View.canon_unit_zero hz3, readAt_whole arg3 harg3 hz3, readAt_whole arg4 harg4 hz3]

/-- At every other point the column sums grow by the tile's row sums over what the point before left. -/
theorem outB_2 (hc0 : ¬cond0_0 i) : out0_B_2 c i arg3 harg3 arg4 harg4 arg5 harg5 hc0 x0 xo1 xo2 = k0_pay5 x0 xo2 := by
  unfold out0_B_2
  rw [View.read_writes_eq_canon _ _ _ (cover0_B_2 c i arg3 harg3 arg4 harg4 arg5 harg5 hc0 x0 xo1 xo2)]
  unfold kernelRun0_B
  dsimp only
  sl_unfold_words
  rw [View.canon_unit_zero hz3, readAt_whole arg3 harg3 hz3, readAt_whole arg5 harg5 hz3]

end Cert.ReferenceIdeal.RefValue

end
-- ==== Proof.RPay.lean ====
import proofs.«152739_g2000502477920874_pallasbulk_293_22_alg».proof.Proof.Gen.ReferenceIdeal.Skeleton
import Idealize.ShloMosaic.Lib.Pipeline.Value
import Idealize.ShloMosaic.Lib.ValueIdx
import Idealize.ShloMosaic.PureOps.Ideal.Laws
import proofs.«152739_g2000502477920874_pallasbulk_293_22_alg».proof.Proof.LibHostRead

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

abbrev DG := dot_S256x640_S256x640_S256x256_1_1_0_0_n_n
abbrev DA := dot_S256x256_S256x640_S256x640_1_0_0_1_n_n

/-- A tile [1,256,640] seen as a matrix [256,640]. -/
theorem pay3_apply (x : FVec Ideal S1x256x640 .f32) (i : Fin 256) (col : Fin 640) :
    k0_pay3 x (ix2 i col) = x (ix3 (0 : Fin 1) i col) := by
  unfold k0_pay3
  exact shapeCast_apply x _ _ _ (by
    rw [Shape.rowMajor_val_three, Shape.rowMajor_val_two]
    show (0 * 256 + i.val) * 640 + col.val = i.val * 640 + col.val
    omega)

/-- The contraction of a [256,640] matrix with itself along its columns, index by index. -/
theorem gram_contr (X : FVec Ideal S256x640 .f32) (i k : Fin 256) :
    ∑ q : DG.contr.Idx, X (DG.lhsIdx (ix2 i k) q) * X (DG.rhsIdx (ix2 i k) q) = ∑ col : Fin 640, X (ix2 i col) * X (ix2 k col) := by
  rw [← Equiv.sum_comp (contrEquiv1 DG 640 rfl rfl).symm]
  refine Finset.sum_congr rfl fun col _ => ?_
  have hk := contrEquiv1_symm_val DG 640 rfl rfl col
  have el : DG.lhsIdx (ix2 i k) ((contrEquiv1 DG 640 rfl rfl).symm col) = ix2 i col :=
    funext fun a => Fin.ext (by
      match a with
      | ⟨0, _⟩ => rfl
      | ⟨1, _⟩ => exact (DG.lhsIdx_val_of_single (cl := 1) rfl _ _).trans hk)
  have er : DG.rhsIdx (ix2 i k) ((contrEquiv1 DG 640 rfl rfl).symm col) = ix2 k col :=
    funext fun a => Fin.ext (by
      match a with
      | ⟨0, _⟩ => rfl
      | ⟨1, _⟩ => exact (DG.rhsIdx_val_of_single (cr := 1) rfl _ _).trans hk)
  rw [el, er]

/-- The Gram accumulator after a point: what it held plus the tile's products summed over the tile's columns. -/
theorem pay4_apply (x : FVec Ideal S1x256x640 .f32) (v : FVec Ideal S1x256x256 .f32) (i k : Fin 256) :
    k0_pay4 x v (ix3 (0 : Fin 1) i k)
      = v (ix3 (0 : Fin 1) i k) + ∑ col : Fin 640, x (ix3 (0 : Fin 1) i col) * x (ix3 (0 : Fin 1) k col) := by
  unfold k0_pay4
  refine (shapeCast_apply _ _ (ix3 (0 : Fin 1) i k) (ix2 i k) (by
    rw [Shape.rowMajor_val_three, Shape.rowMajor_val_two]
    show i.val * 256 + k.val = (0 * 256 + i.val) * 256 + k.val
    omega)).trans ?_
  refine congrArg₂ (· + ·) ?_ ?_
  · exact shapeCast_apply v _ (ix2 i k) (ix3 (0 : Fin 1) i k) (by
      rw [Shape.rowMajor_val_three, Shape.rowMajor_val_two]
      show (0 * 256 + i.val) * 256 + k.val = i.val * 256 + k.val
      omega)
  · refine (Ideal.matmul_constant_zero_apply DG none (k0_pay3 x) (k0_pay3 x) (ix2 i k)).trans ?_
    refine (gram_contr (k0_pay3 x) i k).trans ?_
    exact Finset.sum_congr rfl fun col _ => by rw [pay3_apply, pay3_apply]

/-- The zero blocks a split's first point resets its accumulators to. -/
theorem pay1_apply (j : S1x256x256.Idx) : k0_pay1 (F := Ideal) j = 0 := by
  show Ideal.ofBits .f32 0x00000000#32 = 0
  exact Ideal.ofBits_zero_f32
theorem pay2_apply (j : S1x256x1.Idx) : k0_pay2 (F := Ideal) j = 0 := by
  show Ideal.ofBits .f32 0x00000000#32 = 0
  exact Ideal.ofBits_zero_f32

/-- The row sums of a [256,640] matrix, index by index. -/
theorem rowsum_apply (X : FVec Ideal S256x640 .f32) (i : Fin 256) :
    multiReduction (F := Ideal) .add [1] S256 X 0x00000000#32 reduces_S256x640_S256 (.inl rfl) rfl (ix1 i) = ∑ col : Fin 640, X (ix2 i col) := by
  refine (Ideal.multiReduction_add_single X 0x00000000#32 reduces_S256x640_S256 (.inl rfl) rfl (ix1 i)).trans ?_
  refine Finset.sum_congr rfl fun col _ => congrArg X (funext fun a => Fin.ext ?_)
  match a with
  | ⟨0, _⟩ => rfl
  | ⟨1, _⟩ => rfl

/-- The column sums after a point: what they held plus the tile's rows summed over the tile's columns. -/
theorem pay5_apply (x : FVec Ideal S1x256x640 .f32) (v : FVec Ideal S1x256x1 .f32) (i : Fin 256) :
    k0_pay5 x v (ix3 (0 : Fin 1) i (0 : Fin 1))
      = v (ix3 (0 : Fin 1) i (0 : Fin 1)) + ∑ col : Fin 640, x (ix3 (0 : Fin 1) i col) := by
  unfold k0_pay5
  refine (shapeCast_apply _ _ (ix3 (0 : Fin 1) i (0 : Fin 1)) (ix2 i (0 : Fin 1)) (by
    rw [Shape.rowMajor_val_three, Shape.rowMajor_val_two]
    show i.val * 1 + 0 = (0 * 256 + i.val) * 1 + 0
    omega)).trans ?_
  refine congrArg₂ (· + ·) ?_ ?_
  · exact shapeCast_apply v _ (ix2 i (0 : Fin 1)) (ix3 (0 : Fin 1) i (0 : Fin 1)) (by
      rw [Shape.rowMajor_val_three, Shape.rowMajor_val_two]
      show (0 * 256 + i.val) * 1 + 0 = i.val * 1 + 0
      omega)
  · refine (shapeCast_apply _ _ (ix2 i (0 : Fin 1)) (ix1 i) (by
      rw [Shape.rowMajor_val_one, Shape.rowMajor_val_two]
      show i.val = i.val * 1 + 0
      omega)).trans ?_
    refine (rowsum_apply (k0_pay3 x) i).trans ?_
    exact Finset.sum_congr rfl fun col _ => pay3_apply x i col

/-- The plain product of a [256,256] matrix and a [256,640] matrix, index by index. -/
theorem apply_contr (W : FVec Ideal S256x256 .f32) (X : FVec Ideal S256x640 .f32) (o : Fin 256) (col : Fin 640) :
    ∑ q : DA.contr.Idx, W (DA.lhsIdx (ix2 o col) q) * X (DA.rhsIdx (ix2 o col) q) = ∑ k : Fin 256, W (ix2 o k) * X (ix2 k col) := by
  rw [← Equiv.sum_comp (contrEquiv1 DA 256 rfl rfl).symm]
  refine Finset.sum_congr rfl fun k _ => ?_
  have hk := contrEquiv1_symm_val DA 256 rfl rfl k
  have el : DA.lhsIdx (ix2 o col) ((contrEquiv1 DA 256 rfl rfl).symm k) = ix2 o k :=
    funext fun a => Fin.ext (by
      match a with
      | ⟨0, _⟩ => rfl
      | ⟨1, _⟩ => exact (DA.lhsIdx_val_of_single (cl := 1) rfl _ _).trans hk)
  have er : DA.rhsIdx (ix2 o col) ((contrEquiv1 DA 256 rfl rfl).symm k) = ix2 k col :=
    funext fun a => Fin.ext (by
      match a with
      | ⟨0, _⟩ => exact (DA.rhsIdx_val_of_single (cr := 0) rfl _ _).trans hk
      | ⟨1, _⟩ => rfl)
  rw [el, er]

/-- The second kernel's block: the folded weight times the tile, plus the shift, clamped below at zero. -/
theorem k1_pay1_apply (W : FVec Ideal S256x256 .f32) (x : FVec Ideal S1x256x640 .f32) (s : FVec Ideal S256x1 .f32) (o : Fin 256) (col : Fin 640) :
    k1_pay1 W x s (ix3 (0 : Fin 1) o col)
      = max ((∑ k : Fin 256, W (ix2 o k) * x (ix3 (0 : Fin 1) k col)) + s (ix2 o (0 : Fin 1))) (Ideal.ofBits .f32 0x00000000#32) := by
  unfold k1_pay1
  refine (shapeCast_apply _ _ (ix3 (0 : Fin 1) o col) (ix2 o col) (by
    rw [Shape.rowMajor_val_three, Shape.rowMajor_val_two]
    show o.val * 640 + col.val = (0 * 256 + o.val) * 640 + col.val
    omega)).trans ?_
  refine congrArg₂ max (congrArg₂ (· + ·) ?_ ?_) rfl
  · refine (Ideal.matmul_constant_zero_apply DA none _ _ (ix2 o col)).trans ?_
    refine (apply_contr _ _ o col).trans ?_
    refine Finset.sum_congr rfl fun k _ => congrArg₂ (· * ·) ?_ ?_
    · exact congrFun (shapeCast_self W _) (ix2 o k)
    · exact shapeCast_apply x _ (ix2 k col) (ix3 (0 : Fin 1) k col) (by
        rw [Shape.rowMajor_val_three, Shape.rowMajor_val_two]
        show (0 * 256 + k.val) * 640 + col.val = k.val * 640 + col.val
        omega)
  · refine (Cert.LibHostRead.broadcastTo_a1_ab_apply _ _ o col).trans ?_
    exact congrFun (shapeCast_self s _) (ix2 o (0 : Fin 1))

end Cert.ReferenceIdeal.RefValue

end
-- ==== Proof.RAcc.lean ====
import proofs.«152739_g2000502477920874_pallasbulk_293_22_alg».proof.Proof.RPieces
import proofs.«152739_g2000502477920874_pallasbulk_293_22_alg».proof.Proof.RPay

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable (V : (c : Dev nD) → (b : Ref sig .tc) → Buf (Elt Ideal) ((c : Thread nD τ).loc b)) (c : Dev nD)

/-- The input tile a point of the first kernel reads (zero past the grid). -/
def tile (n : ℕ) : FVec Ideal S1x256x640 .f32 := if h : n < cfg0.N then iblk0 V c 0 ⟨n, h⟩ else fun _ => 0

theorem tile_eq (n : ℕ) (h : n < cfg0.N) : tile V c n = iblk0 V c 0 ⟨n, h⟩ := dif_pos h

/-- What point n adds to the Gram accumulator at (i, k), and to the column sum at i. -/
def MG (n : ℕ) (ik : Fin 256 × Fin 256) : EReal :=
  ∑ col : Fin 640, tile V c n (ix3 (0 : Fin 1) ik.1 col) * tile V c n (ix3 (0 : Fin 1) ik.2 col)
def MS (n : ℕ) (i : Fin 256) : EReal := ∑ col : Fin 640, tile V c n (ix3 (0 : Fin 1) i col)

/-- The two accumulators after point n, read at coordinates. -/
def accG (n : ℕ) (h : n < cfg0.N) : Fin 256 × Fin 256 → EReal := fun ik => (outsAt0 V c n h).1 (ix3 (0 : Fin 1) ik.1 ik.2)
def accS (n : ℕ) (h : n < cfg0.N) : Fin 256 → EReal := fun i => (outsAt0 V c n h).2 (ix3 (0 : Fin 1) i (0 : Fin 1))

theorem accG_reset (n : ℕ) (h : n < cfg0.N) (h0 : n % 40 = 0) : accG V c n h = fun ik => 0 + MG V c n ik := by
  funext ik
  unfold accG
  rw [show outsAt0 V c n h = _ from outsAt0_A V c ⟨n, h⟩ h0]
  dsimp only
  rw [outA_1, pay4_apply, pay1_apply]
  unfold MG; rw [tile_eq V c n h]

theorem accG_step (n : ℕ) (h : n + 1 < cfg0.N) (h0 : ¬(n + 1) % 40 = 0) :
    accG V c (n + 1) h = fun ik => accG V c n (Nat.lt_of_succ_lt h) ik + MG V c (n + 1) ik := by
  funext ik
  unfold accG
  rw [show outsAt0 V c (n + 1) h = _ from outsAt0_B V c ⟨n + 1, h⟩ h0]
  dsimp only
  rw [outB_1, pay4_apply]
  unfold MG; rw [tile_eq V c (n + 1) h]
  rfl

theorem accS_reset (n : ℕ) (h : n < cfg0.N) (h0 : n % 40 = 0) : accS V c n h = fun i => 0 + MS V c n i := by
  funext i
  unfold accS
  rw [show outsAt0 V c n h = _ from outsAt0_A V c ⟨n, h⟩ h0]
  dsimp only
  rw [outA_2, pay5_apply, pay2_apply]
  unfold MS; rw [tile_eq V c n h]

theorem accS_step (n : ℕ) (h : n + 1 < cfg0.N) (h0 : ¬(n + 1) % 40 = 0) :
    accS V c (n + 1) h = fun i => accS V c n (Nat.lt_of_succ_lt h) i + MS V c (n + 1) i := by
  funext i
  unfold accS
  rw [show outsAt0 V c (n + 1) h = _ from outsAt0_B V c ⟨n + 1, h⟩ h0]
  dsimp only
  rw [outB_2, pay5_apply]
  unfold MS; rw [tile_eq V c (n + 1) h]
  rfl

/-- After the last point of split s the Gram accumulator holds the sum of the split's forty tile products. -/
theorem accG_closed (s : ℕ) (h : 40 * s + 39 < cfg0.N) (ik : Fin 256 × Fin 256) :
    accG V c (40 * s + 39) h ik = 0 + ∑ j ∈ Finset.range 40, MG V c (40 * s + j) ik := by
  rw [Pipeline.eq_accAt (f := accG V c) 40 (fun n _ ik => 0 + MG V c n ik) (fun n _ acc ik => acc ik + MG V c n ik)
    (fun n h h0 => accG_reset V c n h h0) (fun n h h0 => accG_step V c n h h0) s 39 (by omega) h]
  exact Pipeline.accAt_add_apply _ _ (fun _ => 0) (MG V c) (40 * s) 39 (fun _ _ => rfl) (fun _ _ _ _ _ _ => rfl) 39 le_rfl h ik

/-- After the last point of split s the column sums hold the sum of the split's forty tile row sums. -/
theorem accS_closed (s : ℕ) (h : 40 * s + 39 < cfg0.N) (i : Fin 256) :
    accS V c (40 * s + 39) h i = 0 + ∑ j ∈ Finset.range 40, MS V c (40 * s + j) i := by
  rw [Pipeline.eq_accAt (f := accS V c) 40 (fun n _ i => 0 + MS V c n i) (fun n _ acc i => acc i + MS V c n i)
    (fun n h h0 => accS_reset V c n h h0) (fun n h h0 => accS_step V c n h h0) s 39 (by omega) h]
  exact Pipeline.accAt_add_apply _ _ (fun _ => 0) (MS V c) (40 * s) 39 (fun _ _ => rfl) (fun _ _ _ _ _ _ => rfl) 39 le_rfl h i

end Cert.ReferenceIdeal.RefValue

end
-- ==== Proof.RStats.lean ====
import proofs.«152739_g2000502477920874_pallasbulk_293_22_alg».proof.Proof.RAcc

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable (V : (c : Dev nD) → (b : Ref sig .tc) → Buf (Elt Ideal) ((c : Thread nD τ).loc b)) (c : Dev nD)

/-- The block indices of the first kernel's three windows at point t: the input tile is image t / 5, column
    tile t % 5; both outputs' blocks are split t / 40. -/
theorem idx0 : ∀ t : Fin cfg0.N, win0_0.index t (0 : Fin 3) = t.val / 5 ∧ win0_0.index t (1 : Fin 3) = 0 ∧ win0_0.index t (2 : Fin 3) = t.val % 5
    ∧ win0_1.index t (0 : Fin 3) = t.val / 40 ∧ win0_1.index t (1 : Fin 3) = 0 ∧ win0_1.index t (2 : Fin 3) = 0
    ∧ win0_2.index t (0 : Fin 3) = t.val / 40 ∧ win0_2.index t (1 : Fin 3) = 0 ∧ win0_2.index t (2 : Fin 3) = 0 :=
  (by decide +kernel : ∀ t : Fin grid0.N, _)

/-- A point's tile, entry by entry, is the padded input at the tile's image and columns. -/
theorem tile_apply (n : ℕ) (h : n < cfg0.N) (i : Fin 256) (col : Fin 640) (j : S16x256x3200.Idx)
    (h0 : (j 0).val = n / 5) (h1 : (j 1).val = i.val) (h2 : (j 2).val = 640 * (n % 5) + col.val) :
    tile V c n (ix3 (0 : Fin 1) i col) = (V c main_v1 : S16x256x3200.Idx → EReal) j := by
  rw [tile_eq V c n h]
  unfold iblk0
  rw [View.read_apply]
  show (V c main_v1 : S16x256x3200.Idx → EReal) _ = _
  obtain ⟨e0, e1, e2, -⟩ := idx0 ⟨n, h⟩
  refine congrArg _ (funext fun a => Fin.ext ?_)
  match a with
  | ⟨0, _⟩ => show win0_0.index ⟨n, h⟩ (0 : Fin 3) * 1 + 1 * 0 = (j 0).val; rw [e0, h0]; show n / 5 * 1 + 1 * 0 = n / 5; omega
  | ⟨1, _⟩ => show win0_0.index ⟨n, h⟩ (1 : Fin 3) * 256 + 1 * i.val = (j 1).val; rw [e1, h1]; omega
  | ⟨2, _⟩ => show win0_0.index ⟨n, h⟩ (2 : Fin 3) * 640 + 1 * col.val = (j 2).val; rw [e2, h2]; show n % 5 * 640 + 1 * col.val = _; omega

/-- What the first result array ends holding: at (s, i, k) the sum of split s's forty tile products. -/
def G0 : S2x256x256.Idx → EReal := fun j => 0 + ∑ jj ∈ Finset.range 40, MG V c (40 * (j 0).val + jj) (j 1, j 2)
/-- What the second result array ends holding: at (s, i, 0) the sum of split s's forty tile row sums. -/
def S0 : S2x256x1.Idx → EReal := fun j => 0 + ∑ jj ∈ Finset.range 40, MS V c (40 * (j 0).val + jj) (j 1)

theorem G0_at (j : S2x256x256.Idx) (s : ℕ) (i k : Fin 256) (h0 : (j 0).val = s) (h1 : (j 1).val = i.val) (h2 : (j 2).val = k.val) :
    G0 V c j = 0 + ∑ jj ∈ Finset.range 40, MG V c (40 * s + jj) (i, k) := by
  unfold G0
  refine congrArg (0 + ·) (Finset.sum_congr rfl fun jj _ => ?_)
  exact congrArg₂ (MG V c) (by rw [h0]) (Prod.ext (Fin.ext h1) (Fin.ext h2))

theorem S0_at (j : S2x256x1.Idx) (s : ℕ) (i : Fin 256) (h0 : (j 0).val = s) (h1 : (j 1).val = i.val) :
    S0 V c j = 0 + ∑ jj ∈ Finset.range 40, MS V c (40 * s + jj) i := by
  unfold S0
  refine congrArg (0 + ·) (Finset.sum_congr rfl fun jj _ => ?_)
  exact congrArg₂ (MS V c) (by rw [h0]) (Fin.ext h1)

/-- The write-back at a split's last point writes the split's block of the sums. -/
theorem flushed1_eq (t : Fin cfg0.N) (hf : (cfg0.win 1).flush t = true) :
    (dat0 V c).flushed 1 t = ((cfg0.win 1).blk t).view.read (Elt Ideal) (G0 V c) := by
  have hN : cfg0.N = 80 := N_0
  have h39 : t.val % 40 = 39 := (flush0_1 t).mp hf
  obtain ⟨-, -, -, e3, e4, e5, -⟩ := idx0 t
  obtain ⟨tv, tlt⟩ := t
  obtain ⟨s, rfl⟩ : ∃ s, tv = 40 * s + 39 := ⟨tv / 40, by dsimp only at h39; omega⟩
  show (cfg0.win 1).cut (grid0.coords ⟨40 * s + 39, tlt⟩) ((dat0 V c).after 1 ⟨40 * s + 39, tlt⟩) = _
  rw [after0_1]
  funext y
  rw [View.read_apply]
  have hy0 : (y 0).val = 0 := by have : (y 0).val < 1 := (y 0).isLt; omega
  have hs : (40 * s + 39) / 40 = s := by omega
  refine Eq.trans ?_ ((accG_closed V c s tlt (y 1, y 2)).trans (G0_at V c _ s (y 1) (y 2) ?_ ?_ ?_).symm)
  · show (outsAt0 V c (40 * s + 39) tlt).1 _ = (outsAt0 V c (40 * s + 39) tlt).1 (ix3 (0 : Fin 1) (y 1) (y 2))
    refine congrArg _ (funext fun a => Fin.ext ?_)
    match a with
    | ⟨0, _⟩ => exact hy0
    | ⟨1, _⟩ => rfl
    | ⟨2, _⟩ => rfl
  · show win0_1.index ⟨40 * s + 39, tlt⟩ (0 : Fin 3) * 1 + 1 * (y 0).val = s
    rw [e3, hy0]; show (40 * s + 39) / 40 * 1 + 1 * 0 = s; omega
  · show win0_1.index ⟨40 * s + 39, tlt⟩ (1 : Fin 3) * 256 + 1 * (y 1).val = (y 1).val
    rw [e4]; omega
  · show win0_1.index ⟨40 * s + 39, tlt⟩ (2 : Fin 3) * 256 + 1 * (y 2).val = (y 2).val
    rw [e5]; omega

theorem flushed2_eq (t : Fin cfg0.N) (hf : (cfg0.win 2).flush t = true) :
    (dat0 V c).flushed 2 t = ((cfg0.win 2).blk t).view.read (Elt Ideal) (S0 V c) := by
  have hN : cfg0.N = 80 := N_0
  have h39 : t.val % 40 = 39 := (flush0_2 t).mp hf
  obtain ⟨-, -, -, -, -, -, e3, e4, e5⟩ := idx0 t
  obtain ⟨tv, tlt⟩ := t
  obtain ⟨s, rfl⟩ : ∃ s, tv = 40 * s + 39 := ⟨tv / 40, by dsimp only at h39; omega⟩
  show (cfg0.win 2).cut (grid0.coords ⟨40 * s + 39, tlt⟩) ((dat0 V c).after 2 ⟨40 * s + 39, tlt⟩) = _
  rw [after0_2]
  funext y
  rw [View.read_apply]
  have hy0 : (y 0).val = 0 := by have : (y 0).val < 1 := (y 0).isLt; omega
  have hy2 : (y 2).val = 0 := by have : (y 2).val < 1 := (y 2).isLt; omega
  refine Eq.trans ?_ ((accS_closed V c s tlt (y 1)).trans (S0_at V c _ s (y 1) ?_ ?_).symm)
  · show (outsAt0 V c (40 * s + 39) tlt).2 _ = (outsAt0 V c (40 * s + 39) tlt).2 (ix3 (0 : Fin 1) (y 1) (0 : Fin 1))
    refine congrArg _ (funext fun a => Fin.ext ?_)
    match a with
    | ⟨0, _⟩ => exact hy0
    | ⟨1, _⟩ => rfl
    | ⟨2, _⟩ => exact hy2
  · show win0_2.index ⟨40 * s + 39, tlt⟩ (0 : Fin 3) * 1 + 1 * (y 0).val = s
    rw [e3, hy0]; show (40 * s + 39) / 40 * 1 + 1 * 0 = s; omega
  · show win0_2.index ⟨40 * s + 39, tlt⟩ (1 : Fin 3) * 256 + 1 * (y 1).val = (y 1).val
    rw [e4]; omega

/-- Every entry of the first result array is in the block its split's last point writes back. -/
theorem cover1 (i : S2x256x256.Idx) : ∃ t : Fin cfg0.N, (cfg0.win 1).flush t = true ∧ i ∈ ((cfg0.win 1).blk t).view.set := by
  have hN : cfg0.N = 80 := N_0
  have hi0 : (i 0).val < 2 := (i 0).isLt
  have hi1 : (i 1).val < 256 := (i 1).isLt
  have hi2 : (i 2).val < 256 := (i 2).isLt
  let t : Fin cfg0.N := ⟨40 * (i 0).val + 39, by omega⟩
  obtain ⟨-, -, -, e3, e4, e5, -⟩ := idx0 t
  refine ⟨t, (flush0_1 t).mpr (by show (40 * (i 0).val + 39) % 40 = 39; omega), ?_⟩
  show i ∈ ((View.whole main_v2_0).slice (win0_1.rect t)).set
  rw [View.set_slice_whole, Rect.mem_set_unit]
  intro a
  match a with
  | ⟨0, _⟩ => show win0_1.index t (0 : Fin 3) * 1 ≤ (i 0).val ∧ (i 0).val < win0_1.index t (0 : Fin 3) * 1 + 1
              rw [e3]; show (40 * (i 0).val + 39) / 40 * 1 ≤ (i 0).val ∧ (i 0).val < (40 * (i 0).val + 39) / 40 * 1 + 1; omega
  | ⟨1, _⟩ => show win0_1.index t (1 : Fin 3) * 256 ≤ (i 1).val ∧ (i 1).val < win0_1.index t (1 : Fin 3) * 256 + 256
              rw [e4]; omega
  | ⟨2, _⟩ => show win0_1.index t (2 : Fin 3) * 256 ≤ (i 2).val ∧ (i 2).val < win0_1.index t (2 : Fin 3) * 256 + 256
              rw [e5]; omega

theorem cover2 (i : S2x256x1.Idx) : ∃ t : Fin cfg0.N, (cfg0.win 2).flush t = true ∧ i ∈ ((cfg0.win 2).blk t).view.set := by
  have hN : cfg0.N = 80 := N_0
  have hi0 : (i 0).val < 2 := (i 0).isLt
  have hi1 : (i 1).val < 256 := (i 1).isLt
  have hi2 : (i 2).val < 1 := (i 2).isLt
  let t : Fin cfg0.N := ⟨40 * (i 0).val + 39, by omega⟩
  obtain ⟨-, -, -, -, -, -, e3, e4, e5⟩ := idx0 t
  refine ⟨t, (flush0_2 t).mpr (by show (40 * (i 0).val + 39) % 40 = 39; omega), ?_⟩
  show i ∈ ((View.whole main_v2_1).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1
              rw [e3]; show (40 * (i 0).val + 39) / 40 * 1 ≤ (i 0).val ∧ (i 0).val < (40 * (i 0).val + 39) / 40 * 1 + 1; omega
  | ⟨1, _⟩ => show win0_2.index t (1 : Fin 3) * 256 ≤ (i 1).val ∧ (i 1).val < win0_2.index t (1 : Fin 3) * 256 + 256
              rw [e4]; omega
  | ⟨2, _⟩ => show win0_2.index t (2 : Fin 3) * 1 ≤ (i 2).val ∧ (i 2).val < win0_2.index t (2 : Fin 3) * 1 + 1
              rw [e5]; omega

/-- The two result arrays after the first kernel. -/
theorem final0_1 : (dat0 V c).arrAt 1 cfg0.N = G0 V c :=
  (dat0 V c).arrAt_eq_of_cover 1 (G0 V c) (flushed1_eq V c) (cover1)
theorem final0_2 : (dat0 V c).arrAt 2 cfg0.N = S0 V c :=
  (dat0 V c).arrAt_eq_of_cover 2 (S0 V c) (flushed2_eq V c) (cover2)
/-- Its input array is left as it was. -/
theorem final0_0 : (dat0 V c).arrAt 0 cfg0.N = V c main_v1 :=
  ((dat0 V c).arrAt_in 0 rfl _).trans (A_eq0 V c 0)

end Cert.ReferenceIdeal.RefValue

end
-- ==== Proof.RApply.lean ====
import proofs.«152739_g2000502477920874_pallasbulk_293_22_alg».proof.Proof.RPieces
import proofs.«152739_g2000502477920874_pallasbulk_293_22_alg».proof.Proof.RPay

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable (V : (c : Dev nD) → (b : Ref sig .tc) → Buf (Elt Ideal) ((c : Thread nD τ).loc b)) (c : Dev nD)

/-- The block indices of the second kernel's four windows at point t: the folded weight and the shift are whole;
    the input tile and the output block are image t / 5, column tile t % 5. -/
theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 3) = t.val / 5 ∧ win1_2.index t (1 : Fin 3) = 0 ∧ win1_2.index t (2 : Fin 3) = t.val % 5
    ∧ win1_3.index t (0 : Fin 3) = t.val / 5 ∧ win1_3.index t (1 : Fin 3) = 0 ∧ win1_3.index t (2 : Fin 3) = t.val % 5 :=
  (by decide +kernel : ∀ t : Fin grid1.N, _)

theorem blk1_0_apply (t : Fin cfg1.N) (o k : Fin 256) :
    (iblk1 V c 0 t : FVec Ideal S256x256 .f32) (ix2 o k) = (V c main_v27 : S256x256.Idx → EReal) (ix2 o k) := by
  unfold iblk1
  rw [View.read_apply]
  show (V c main_v27 : S256x256.Idx → EReal) _ = _
  obtain ⟨e0, e1, -⟩ := idx1 t
  refine congrArg _ (funext fun a => Fin.ext ?_)
  match a with
  | ⟨0, _⟩ => show win1_0.index t (0 : Fin 2) * 256 + 1 * o.val = o.val; rw [e0]; omega
  | ⟨1, _⟩ => show win1_0.index t (1 : Fin 2) * 256 + 1 * k.val = k.val; rw [e1]; omega

theorem blk1_1_apply (t : Fin cfg1.N) (o : Fin 256) :
    (iblk1 V c 1 t : FVec Ideal S256x1 .f32) (ix2 o (0 : Fin 1)) = (V c main_v25 : S256x1.Idx → EReal) (ix2 o (0 : Fin 1)) := by
  unfold iblk1
  rw [View.read_apply]
  show (V c main_v25 : S256x1.Idx → EReal) _ = _
  obtain ⟨-, -, e0, e1, -⟩ := idx1 t
  refine congrArg _ (funext fun a => Fin.ext ?_)
  match a with
  | ⟨0, _⟩ => show win1_1.index t (0 : Fin 2) * 256 + 1 * o.val = o.val; rw [e0]; omega
  | ⟨1, _⟩ => show win1_1.index t (1 : Fin 2) * 1 + 1 * 0 = 0; rw [e1]

theorem blk1_2_apply (t : Fin cfg1.N) (k : Fin 256) (col : Fin 640) (j : S16x256x3200.Idx)
    (h0 : (j 0).val = t.val / 5) (h1 : (j 1).val = k.val) (h2 : (j 2).val = 640 * (t.val % 5) + col.val) :
    (iblk1 V c 2 t : FVec Ideal S1x256x640 .f32) (ix3 (0 : Fin 1) k col) = (V c main_v1 : S16x256x3200.Idx → EReal) j := by
  unfold iblk1
  rw [View.read_apply]
  show (V c main_v1 : S16x256x3200.Idx → EReal) _ = _
  obtain ⟨-, -, -, -, e0, e1, e2, -⟩ := idx1 t
  refine congrArg _ (funext fun a => Fin.ext ?_)
  match a with
  | ⟨0, _⟩ => show win1_2.index t (0 : Fin 3) * 1 + 1 * 0 = (j 0).val; rw [e0, h0]; omega
  | ⟨1, _⟩ => show win1_2.index t (1 : Fin 3) * 256 + 1 * k.val = (j 1).val; rw [e1, h1]; omega
  | ⟨2, _⟩ => show win1_2.index t (2 : Fin 3) * 640 + 1 * col.val = (j 2).val; rw [e2, h2]; omega

/-- The folded weight's row o times column q of image n of an array, plus the shift, clamped below at zero. -/
def applyFn (W : S256x256.Idx → EReal) (X : S16x256x3200.Idx → EReal) (sh : S256x1.Idx → EReal) : S16x256x3200.Idx → EReal := fun j =>
  max ((∑ k : Fin 256, W (ix2 (j 1) k) * X (ix3 (j 0) k (j 2))) + sh (ix2 (j 1) (0 : Fin 1))) (Ideal.ofBits .f32 0x00000000#32)

theorem applyFn_at (W : S256x256.Idx → EReal) (X : S16x256x3200.Idx → EReal) (sh : S256x1.Idx → EReal)
    (j : S16x256x3200.Idx) (n : Fin 16) (o : Fin 256) (q : Fin 3200) (h0 : (j 0).val = n.val) (h1 : (j 1).val = o.val) (h2 : (j 2).val = q.val) :
    applyFn W X sh j = max ((∑ k : Fin 256, W (ix2 o k) * X (ix3 n k q)) + sh (ix2 o (0 : Fin 1))) (Ideal.ofBits .f32 0x00000000#32) := by
  obtain rfl : j = ix3 n o q := funext fun a => Fin.ext (by
    match a with
    | ⟨0, _⟩ => exact h0
    | ⟨1, _⟩ => exact h1
    | ⟨2, _⟩ => exact h2)
  rfl

/-- What the second kernel's result array ends holding. -/
def O1 : S16x256x3200.Idx → EReal := applyFn (V c main_v27) (V c main_v1) (V c main_v25)

/-- Every point writes back its block of that array. -/
theorem flushed3_eq (t : Fin cfg1.N) :
    (dat1 V c).flushed 3 t = ((cfg1.win 3).blk t).view.read (Elt Ideal) (O1 V c) := by
  have hN : cfg1.N = 80 := N_1
  have ht : t.val < 80 := lt_of_lt_of_eq t.isLt hN
  obtain ⟨-, -, -, -, -, -, -, e0, e1, e2⟩ := idx1 t
  show (cfg1.win 3).cut (grid1.coords t) ((dat1 V c).after 3 t) = _
  rw [after1_3]
  unfold out1_3
  rw [View.canon_unit_zero hz3]
  simp only [View.ld_unit_zero (S := S256x256) hz2, View.ld_unit_zero (S := S1x256x640) hz3, View.ld_unit_zero (S := S256x1) hz2]
  funext y
  rw [View.read_apply]
  have hy0 : (y 0).val = 0 := by have : (y 0).val < 1 := (y 0).isLt; omega
  have hy1 : (y 1).val < 256 := (y 1).isLt
  have hy2 : (y 2).val < 640 := (y 2).isLt
  refine Eq.trans ?_ (applyFn_at (V c main_v27) (V c main_v1) (V c main_v25) _ ⟨t.val / 5, by omega⟩ (y 1) ⟨640 * (t.val % 5) + (y 2).val, by omega⟩ ?_ ?_ ?_).symm
  · refine Eq.trans (congrArg (k1_pay1 (iblk1 V c 0 t) (iblk1 V c 2 t) (iblk1 V c 1 t)) (?_ : _ = ix3 (0 : Fin 1) (y 1) (y 2))) ?_
    · refine funext fun a => Fin.ext ?_
      match a with
      | ⟨0, _⟩ => exact hy0
      | ⟨1, _⟩ => rfl
      | ⟨2, _⟩ => rfl
    refine (k1_pay1_apply _ _ _ (y 1) (y 2)).trans ?_
    refine congrArg₂ max (congrArg₂ (· + ·) (Finset.sum_congr rfl fun k _ => congrArg₂ (· * ·) ?_ ?_) ?_) rfl
    · exact blk1_0_apply V c t (y 1) k
    · exact blk1_2_apply V c t k (y 2) _ rfl rfl rfl
    · exact blk1_1_apply V c t (y 1)
  · show win1_3.index t (0 : Fin 3) * 1 + 1 * (y 0).val = t.val / 5
    rw [e0, hy0]; omega
  · show win1_3.index t (1 : Fin 3) * 256 + 1 * (y 1).val = (y 1).val
    rw [e1]; omega
  · show win1_3.index t (2 : Fin 3) * 640 + 1 * (y 2).val = 640 * (t.val % 5) + (y 2).val
    rw [e2]; omega

/-- Every entry of the result array is in the block of the point of its image and column tile. -/
theorem cover3 (i : S16x256x3200.Idx) : ∃ t : Fin cfg1.N, (cfg1.win 3).flush t = true ∧ i ∈ ((cfg1.win 3).blk t).view.set := by
  have hN : cfg1.N = 80 := N_1
  have hi0 : (i 0).val < 16 := (i 0).isLt
  have hi1 : (i 1).val < 256 := (i 1).isLt
  have hi2 : (i 2).val < 3200 := (i 2).isLt
  let t : Fin cfg1.N := ⟨5 * (i 0).val + (i 2).val / 640, by omega⟩
  obtain ⟨-, -, -, -, -, -, -, e0, e1, e2⟩ := idx1 t
  refine ⟨t, flush1_3 t, ?_⟩
  show i ∈ ((View.whole main_v28).slice (win1_3.rect t)).set
  rw [View.set_slice_whole, Rect.mem_set_unit]
  intro a
  match a with
  | ⟨0, _⟩ => show win1_3.index t (0 : Fin 3) * 1 ≤ (i 0).val ∧ (i 0).val < win1_3.index t (0 : Fin 3) * 1 + 1
              rw [e0]; show (5 * (i 0).val + (i 2).val / 640) / 5 * 1 ≤ (i 0).val ∧ (i 0).val < (5 * (i 0).val + (i 2).val / 640) / 5 * 1 + 1; omega
  | ⟨1, _⟩ => show win1_3.index t (1 : Fin 3) * 256 ≤ (i 1).val ∧ (i 1).val < win1_3.index t (1 : Fin 3) * 256 + 256
              rw [e1]; omega
  | ⟨2, _⟩ => show win1_3.index t (2 : Fin 3) * 640 ≤ (i 2).val ∧ (i 2).val < win1_3.index t (2 : Fin 3) * 640 + 640
              rw [e2]; show (5 * (i 0).val + (i 2).val / 640) % 5 * 640 ≤ (i 2).val ∧ (i 2).val < (5 * (i 0).val + (i 2).val / 640) % 5 * 640 + 640; omega

/-- The result array after the second kernel. -/
theorem final1_3 : (dat1 V c).arrAt 3 cfg1.N = O1 V c :=
  (dat1 V c).arrAt_eq_of_cover 3 (O1 V c) (fun t _ => flushed3_eq V c t) (cover3)

end Cert.ReferenceIdeal.RefValue

end
-- ==== Proof.RPad.lean ====
import proofs.«152739_g2000502477920874_pallasbulk_293_22_alg».proof.Proof.Gen.ReferenceIdeal
import proofs.«152739_g2000502477920874_pallasbulk_293_22_alg».proof.Proof.Spec
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

/-- The input flattened to [16,256,3136] and padded with zeros to 3200 columns, as the host computes it. -/
def padX (x : FVec Ideal S16x256x56x56 .f32) : FVec Ideal S16x256x3200 .f32 :=
  pad S16x256x3200 ![0, 0, 0] ![0, 0, 64] ![0, 0, 0] (shapeCast S16x256x3136 x shapeCasts_S16x256x56x56_S16x256x3136)
    (sitofp (F := Ideal) .f32 (constantI S_ 32 0#32)) pads_S16x256x3136_S16x256x3200_000_000_0640 h_S_

/-- The padded input read at natural-number coordinates: the pixel inside the true extent, zero outside. -/
def padN (x : Cert.Spec.SX.Idx → EReal) (n q : ℕ) (i : Fin 256) : EReal :=
  if h : n < 16 ∧ q < 3136 then Cert.Spec.px x ⟨n, h.1⟩ i ⟨q, h.2⟩ else 0

theorem flat_apply (x : FVec Ideal S16x256x56x56 .f32) (n : Fin 16) (i : Fin 256) (p : Fin 3136) :
    shapeCast S16x256x3136 x shapeCasts_S16x256x56x56_S16x256x3136 (ix3 n i p) = Cert.Spec.px x n i p := by
  unfold Cert.Spec.px
  refine shapeCast_apply x _ _ _ ?_
  rw [Shape.rowMajor_val_four, Shape.rowMajor_val_three]
  show ((n.val * 256 + i.val) * 56 + p.val / 56) * 56 + p.val % 56 = (n.val * 256 + i.val) * 3136 + p.val
  omega

theorem padX_apply (x : FVec Ideal S16x256x56x56 .f32) (j : S16x256x3200.Idx) (i : Fin 256) (h1 : (j 1).val = i.val) :
    padX x j = padN x (j 0).val (j 2).val i := by
  have hj0 : (j 0).val < 16 := (j 0).isLt
  unfold padX padN
  by_cases hq : (j 2).val < 3136
  · rw [dif_pos ⟨hj0, hq⟩]
    refine (pad_apply_of_inside _ _ _ _ _ _ _ j (ix3 ⟨(j 0).val, hj0⟩ i ⟨(j 2).val, hq⟩) fun a => ?_).trans (flat_apply x _ i _)
    match a with
    | ⟨0, _⟩ => show (j 0).val = 0 + (j 0).val * (0 + 1); omega
    | ⟨1, _⟩ => show (j 1).val = 0 + i.val * (0 + 1); omega
    | ⟨2, _⟩ => show (j 2).val = 0 + (j 2).val * (0 + 1); omega
  · rw [dif_neg fun h => hq h.2]
    refine (pad_apply_of_not_inside _ _ _ _ _ _ _ j (2 : Fin 3) ?_).trans ?_
    · show ¬(0 ≤ (j 2).val ∧ ((j 2).val - 0) % (0 + 1) = 0 ∧ ((j 2).val - 0) / (0 + 1) < 3136)
      omega
    · show (((0#32 : BitVec 32).toInt : ℝ) : EReal) = 0
      rw [show (0#32 : BitVec 32).toInt = 0 from by decide]
      simp

/-- The final slice and reshape: entry (n, o, h, v) of the result is entry (n, o, 56·h + v) of the padded-width array. -/
theorem unflat_apply (Y : FVec Ideal S16x256x3200 .f32) (n : Fin 16) (o : Fin 256) (h v : Fin 56) (q : Fin 3200) (hq : q.val = 56 * h.val + v.val) :
    shapeCast S16x256x56x56 (extractStridedSlice S16x256x3136 ![0, 0, 0] Y slices_S16x256x3200_S16x256x3136_0_0_0) shapeCasts_S16x256x3136_S16x256x56x56 (ix4 n o h v)
      = Y (ix3 n o q) := by
  have hh : h.val < 56 := h.isLt
  have hv : v.val < 56 := v.isLt
  refine (shapeCast_apply _ _ (ix4 n o h v) (ix3 n o (⟨56 * h.val + v.val, by omega⟩ : Fin 3136)) ?_).trans ?_
  · rw [Shape.rowMajor_val_four, Shape.rowMajor_val_three]
    show (n.val * 256 + o.val) * 3136 + (56 * h.val + v.val) = ((n.val * 256 + o.val) * 56 + h.val) * 56 + v.val
    omega
  · refine extractStridedSlice_apply _ Y _ _ (ix3 n o q) fun a => ?_
    match a with
    | ⟨0, _⟩ => show n.val = 0 + n.val; omega
    | ⟨1, _⟩ => show o.val = 0 + o.val; omega
    | ⟨2, _⟩ => show q.val = 0 + (56 * h.val + v.val); omega

end Cert.ReferenceIdeal.RefValue

end
-- ==== Proof.RChain.lean ====
import proofs.«152739_g2000502477920874_pallasbulk_293_22_alg».proof.Proof.Gen.ReferenceIdeal.Frame
import proofs.«152739_g2000502477920874_pallasbulk_293_22_alg».proof.Proof.RHostRun
import proofs.«152739_g2000502477920874_pallasbulk_293_22_alg».proof.Proof.RStats
import proofs.«152739_g2000502477920874_pallasbulk_293_22_alg».proof.Proof.RApply
import proofs.«152739_g2000502477920874_pallasbulk_293_22_alg».proof.Proof.RPad
import Idealize.ShloMosaic.Lib.Tactic

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable (m : (ℓ : Loc nD τ sig) → Buf (Elt Ideal) ℓ) (ρ : Dev nD → PrngReg) (c : Dev nD)

/-- The first kernel is entered with the zero-padded flattened input. -/
theorem W2_v1 : W2 m ρ c (Proc.devRef .tc main_v1) = padX (m ((c.tc : Thread nD τ).loc main_arg0)) := by
  show StableHlo.after hostOps0_1 (StableHlo.after hostOps0 _) (Proc.devRef .tc main_v1) = _
  after_results
  rfl

theorem W2_arg (b : Ref sig .tc) (hb : b = main_arg1 ∨ b = main_arg2 ∨ b = main_arg3) :
    W2 m ρ c (Proc.devRef .tc b) = m ((c.tc : Thread nD τ).loc b) := by
  rcases hb with rfl | rfl | rfl <;>
  · show StableHlo.after hostOps0_1 (StableHlo.after hostOps0 _) (Proc.devRef .tc _) = _
    after_results
    try rfl

/-- After the first kernel: the arguments and the padded input are untouched, the two result arrays hold the per-split sums. -/
theorem W3_arg1 : W3 m ρ c (Proc.devRef .tc main_arg1) = m ((c.tc : Thread nD τ).loc main_arg1) :=
  (W3_of_ne m ρ c main_arg1 (by decide)).trans (W2_arg m ρ c main_arg1 (.inl rfl))
theorem W3_arg2 : W3 m ρ c (Proc.devRef .tc main_arg2) = m ((c.tc : Thread nD τ).loc main_arg2) :=
  (W3_of_ne m ρ c main_arg2 (by decide)).trans (W2_arg m ρ c main_arg2 (.inr (.inl rfl)))
theorem W3_arg3 : W3 m ρ c (Proc.devRef .tc main_arg3) = m ((c.tc : Thread nD τ).loc main_arg3) :=
  (W3_of_ne m ρ c main_arg3 (by decide)).trans (W2_arg m ρ c main_arg3 (.inr (.inr rfl)))
theorem W3_v1 : W3 m ρ c (Proc.devRef .tc main_v1) = padX (m ((c.tc : Thread nD τ).loc main_arg0)) :=
  (W3_arr m ρ c 0).trans ((final0_0 (V2 m ρ) c).trans (W2_v1 m ρ c))
theorem W3_v2_0 : W3 m ρ c (Proc.devRef .tc main_v2_0) = G0 (V2 m ρ) c := (W3_arr m ρ c 1).trans (final0_1 (V2 m ρ) c)
theorem W3_v2_1 : W3 m ρ c (Proc.devRef .tc main_v2_1) = S0 (V2 m ρ) c := (W3_arr m ρ c 2).trans (final0_2 (V2 m ρ) c)

/-- After the second kernel its result array holds the folded product. -/
theorem W5_v28 : W5 m ρ c (Proc.devRef .tc main_v28) = O1 (V4 m ρ) c := (W5_arr m ρ c 3).trans (final1_3 (V4 m ρ) c)

/-- The result buffer is the slice and reshape of that array. -/
theorem W6_v30 : W6 m ρ c (Proc.devRef .tc main_v30)
    = shapeCast S16x256x56x56 (extractStridedSlice S16x256x3136 ![0, 0, 0] (W5 m ρ c (Proc.devRef .tc main_v28)) slices_S16x256x3200_S16x256x3136_0_0_0) shapeCasts_S16x256x3136_S16x256x56x56 := by
  show StableHlo.after hostOps2 _ (Proc.devRef .tc main_v30) = _
  after_results
  rfl

end Cert.ReferenceIdeal.RefValue

end
-- ==== Proof.RHostRead.lean ====
import proofs.«152739_g2000502477920874_pallasbulk_293_22_alg».proof.Proof.RHostFns
import proofs.«152739_g2000502477920874_pallasbulk_293_22_alg».proof.Proof.Spec

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

section HostRead
variable (w : FVec Ideal S256x256 .f32) (G : FVec Ideal S2x256x256 .f32) (S : FVec Ideal S2x256x1 .f32) (γ β : FVec Ideal S256 .f32)

theorem hzero_apply (j : S_.Idx) : hzero j = 0 := Ideal.ofBits_zero_f32
theorem hcnt_apply (j : S256x1.Idx) : hcnt j = Cert.Spec.cnt := by
  unfold hcnt
  exact Cert.LibHostRead.bcast_scalar_apply _ _ _ j

/-- The two per-split arrays summed over the splits. -/
theorem hv3_apply (i k : Fin 256) : hv3 G (ix2 i k) = 0 + ∑ s : Fin 2, G (ix3 s i k) := by
  unfold hv3
  refine (Ideal.hostReduceAdd_single reducesTo_S2x256x256_S256x256_d0 (by decide : S2x256x256.Reduces [0] S256x256) G _ (ix2 i k)).trans ?_
  refine congrArg₂ (· + ·) Ideal.ofBits_zero_f32 (Finset.sum_congr rfl fun s _ => congrArg G (funext fun a => Fin.ext ?_))
  match a with
  | ⟨0, _⟩ => rfl
  | ⟨1, _⟩ => rfl
  | ⟨2, _⟩ => rfl

theorem hv4_apply (i : Fin 256) : hv4 S (ix2 i (0 : Fin 1)) = 0 + ∑ s : Fin 2, S (ix3 s i (0 : Fin 1)) := by
  unfold hv4
  refine (Ideal.hostReduceAdd_single reducesTo_S2x256x1_S256x1_d0 (by decide : S2x256x1.Reduces [0] S256x1) S _ (ix2 i (0 : Fin 1))).trans ?_
  refine congrArg₂ (· + ·) Ideal.ofBits_zero_f32 (Finset.sum_congr rfl fun s _ => congrArg S (funext fun a => Fin.ext ?_))
  match a with
  | ⟨0, _⟩ => rfl
  | ⟨1, _⟩ => rfl
  | ⟨2, _⟩ => rfl

theorem dv_contr (W : FVec Ideal S256x256 .f32) (X : FVec Ideal S256x1 .f32) (o : Fin 256) :
    ∑ q : DV.contr.Idx, W (DV.lhsIdx (ix2 o (0 : Fin 1)) q) * X (DV.rhsIdx (ix2 o (0 : Fin 1)) q) = ∑ k : Fin 256, W (ix2 o k) * X (ix2 k (0 : Fin 1)) := by
  rw [← Equiv.sum_comp (contrEquiv1 DV 256 rfl rfl).symm]
  refine Finset.sum_congr rfl fun k _ => ?_
  have hk := contrEquiv1_symm_val DV 256 rfl rfl k
  have el : DV.lhsIdx (ix2 o (0 : Fin 1)) ((contrEquiv1 DV 256 rfl rfl).symm k) = ix2 o k :=
    funext fun a => Fin.ext (by
      match a with
      | ⟨0, _⟩ => rfl
      | ⟨1, _⟩ => exact (DV.lhsIdx_val_of_single (cl := 1) rfl _ _).trans hk)
  have er : DV.rhsIdx (ix2 o (0 : Fin 1)) ((contrEquiv1 DV 256 rfl rfl).symm k) = ix2 k (0 : Fin 1) :=
    funext fun a => Fin.ext (by
      match a with
      | ⟨0, _⟩ => exact (DV.rhsIdx_val_of_single (cr := 0) rfl _ _).trans hk
      | ⟨1, _⟩ => rfl)
  rw [el, er]

theorem dm_contr (W X : FVec Ideal S256x256 .f32) (o i : Fin 256) :
    ∑ q : DM.contr.Idx, W (DM.lhsIdx (ix2 o i) q) * X (DM.rhsIdx (ix2 o i) q) = ∑ k : Fin 256, W (ix2 o k) * X (ix2 k i) := by
  rw [← Equiv.sum_comp (contrEquiv1 DM 256 rfl rfl).symm]
  refine Finset.sum_congr rfl fun k _ => ?_
  have hk := contrEquiv1_symm_val DM 256 rfl rfl k
  have el : DM.lhsIdx (ix2 o i) ((contrEquiv1 DM 256 rfl rfl).symm k) = ix2 o k :=
    funext fun a => Fin.ext (by
      match a with
      | ⟨0, _⟩ => rfl
      | ⟨1, _⟩ => exact (DM.lhsIdx_val_of_single (cl := 1) rfl _ _).trans hk)
  have er : DM.rhsIdx (ix2 o i) ((contrEquiv1 DM 256 rfl rfl).symm k) = ix2 k i :=
    funext fun a => Fin.ext (by
      match a with
      | ⟨0, _⟩ => exact (DM.rhsIdx_val_of_single (cr := 0) rfl _ _).trans hk
      | ⟨1, _⟩ => rfl)
  rw [el, er]

/-- The mean line: the weight's row against the column sums, over the element count. -/
theorem hv7_apply (o : Fin 256) :
    hv7 w S (ix2 o (0 : Fin 1)) = Ideal.div (∑ k : Fin 256, w (ix2 o k) * hv4 S (ix2 k (0 : Fin 1))) Cert.Spec.cnt := by
  unfold hv7
  refine (hostDivf_apply _ _ _).trans ?_
  refine congrArg₂ Ideal.div ?_ (hcnt_apply _)
  exact (Ideal.dotGeneral_apply DV none .single w (hv4 S) (ix2 o (0 : Fin 1))).trans (dv_contr w (hv4 S) o)

/-- The second-moment line before the division. -/
theorem hv10_apply (o : Fin 256) :
    hv10 w G (ix1 o) = 0 + ∑ i : Fin 256, (∑ k : Fin 256, w (ix2 o k) * hv3 G (ix2 k i)) * w (ix2 o i) := by
  unfold hv10
  refine (Ideal.hostReduceAdd_single reducesTo_S256x256_S256_d1 (by decide : S256x256.Reduces [1] S256) _ _ (ix1 o)).trans ?_
  refine congrArg₂ (· + ·) Ideal.ofBits_zero_f32 (Finset.sum_congr rfl fun i _ => ?_)
  have e : (by decide : S256x256.Reduces [1] S256).lift (ix1 o) i = ix2 o i := funext fun a => Fin.ext (by
    match a with
    | ⟨0, _⟩ => rfl
    | ⟨1, _⟩ => rfl)
  rw [e]
  refine congrArg₂ (· * ·) ?_ rfl
  exact (Ideal.dotGeneral_apply DM none .single w (hv3 G) (ix2 o i)).trans (dm_contr w (hv3 G) o i)

theorem hv13_apply (o : Fin 256) : hv13 w G (ix2 o (0 : Fin 1)) = Ideal.div (hv10 w G (ix1 o)) Cert.Spec.cnt := by
  unfold hv13
  refine (hostDivf_apply _ _ _).trans ?_
  exact congrArg₂ Ideal.div (Cert.LibHostRead.bcast_col_apply _ rfl _ _ o (0 : Fin 1)) (hcnt_apply _)

theorem hv20_apply (o : Fin 256) :
    hv20 w G S (ix2 o (0 : Fin 1))
      = Ideal.rsqrt (max (hv13 w G (ix2 o (0 : Fin 1)) - hv7 w S (ix2 o (0 : Fin 1)) * hv7 w S (ix2 o (0 : Fin 1))) Cert.Spec.zero + Cert.Spec.eps) := by
  unfold hv20
  show Ideal.rsqrt (max (hv13 w G (ix2 o (0 : Fin 1)) - hv7 w S (ix2 o (0 : Fin 1)) * hv7 w S (ix2 o (0 : Fin 1))) _ + _) = _
  refine congrArg Ideal.rsqrt (congrArg₂ (· + ·) (congrArg₂ max rfl ?_) ?_)
  · exact Cert.LibHostRead.bcast_scalar_apply _ _ _ _
  · exact Cert.LibHostRead.bcast_scalar_apply _ _ _ _

theorem hv22_apply (o : Fin 256) : hv22 w G S γ (ix2 o (0 : Fin 1)) = γ (ix1 o) * hv20 w G S (ix2 o (0 : Fin 1)) := by
  unfold hv22
  exact congrArg₂ (· * ·) (Cert.GridLoss.shapeCast_vec_col_apply γ _ o (0 : Fin 1)) rfl

theorem hv25_apply (o : Fin 256) :
    hv25 w G S γ β (ix2 o (0 : Fin 1)) = β (ix1 o) - hv7 w S (ix2 o (0 : Fin 1)) * hv22 w G S γ (ix2 o (0 : Fin 1)) := by
  unfold hv25
  exact congrArg₂ (· - ·) (Cert.GridLoss.shapeCast_vec_col_apply β _ o (0 : Fin 1)) rfl

theorem hv27_apply (o k : Fin 256) : hv27 w G S γ (ix2 o k) = hv22 w G S γ (ix2 o (0 : Fin 1)) * w (ix2 o k) := by
  unfold hv27
  exact congrArg₂ (· * ·) (Cert.LibHostRead.bcast_col_wide_apply _ rfl rfl _ _ o k) rfl

/-- When the summed arrays are the Gram matrix and the column sums of an input, the host lines compute the specification's
    mean, second moment, scale and shift, and the folded weight is the scale times the weight. -/
theorem host_spec (x : Cert.Spec.SX.Idx → EReal) (hG : ∀ i k : Fin 256, hv3 G (ix2 i k) = Cert.Spec.gram x i k)
    (hS : ∀ i : Fin 256, hv4 S (ix2 i (0 : Fin 1)) = Cert.Spec.colsum x i) (o : Fin 256) :
    hv7 w S (ix2 o (0 : Fin 1)) = Cert.Spec.mean x w o
    ∧ hv22 w G S γ (ix2 o (0 : Fin 1)) = Cert.Spec.scale x w γ o
    ∧ hv25 w G S γ β (ix2 o (0 : Fin 1)) = Cert.Spec.shift x w γ β o := by
  have h7 : hv7 w S (ix2 o (0 : Fin 1)) = Cert.Spec.mean x w o := by
    rw [hv7_apply]; unfold Cert.Spec.mean
    exact congrArg (Ideal.div · Cert.Spec.cnt) (Finset.sum_congr rfl fun k _ => by rw [hS k])
  have h13 : hv13 w G (ix2 o (0 : Fin 1)) = Cert.Spec.ey2 x w o := by
    rw [hv13_apply, hv10_apply, zero_add]; unfold Cert.Spec.ey2
    refine congrArg (Ideal.div · Cert.Spec.cnt) (Finset.sum_congr rfl fun i _ => ?_)
    exact congrArg (· * w (ix2 o i)) (Finset.sum_congr rfl fun k _ => by rw [hG k i])
  have h22 : hv22 w G S γ (ix2 o (0 : Fin 1)) = Cert.Spec.scale x w γ o := by
    rw [hv22_apply, hv20_apply, h13, h7]; rfl
  refine ⟨h7, h22, ?_⟩
  rw [hv25_apply, h22, h7]; rfl

end HostRead

end Cert.ReferenceIdeal.RefValue

end
-- ==== Proof.LibRangeSum.lean ====
/-
  A sum over the first `a · b` natural numbers taken `b` at a time, in any commutative additive monoid:
  `∑_{i < a·b} f i = ∑_{k < a} ∑_{j < b} f (k·b + j)`. Only associativity and commutativity of addition are used, so it
  holds on the extended reals with no finiteness assumption.
-/
import Mathlib.Algebra.BigOperators.Intervals
import Mathlib.Algebra.BigOperators.Fin

namespace Cert.GridLoss

theorem sum_range_mul {M : Type*} [AddCommMonoid M] (f : ℕ → M) (a b : ℕ) :
    ∑ i ∈ Finset.range (a * b), f i = ∑ k ∈ Finset.range a, ∑ j ∈ Finset.range b, f (k * b + j) := by
  induction a with
  | zero => simp
  | succ a ih => rw [Nat.succ_mul, Finset.sum_range_add, ih, Finset.sum_range_succ]

/-- A sum over `Fin n` of a function of the value is the sum over `range n`. -/
theorem sum_fin_eq_range {M : Type*} [AddCommMonoid M] (n : ℕ) (f : ℕ → M) :
    ∑ i : Fin n, f i.val = ∑ i ∈ Finset.range n, f i := (Finset.sum_range f).symm

end Cert.GridLoss
-- ==== Proof.RAlg.lean ====
/-
  The sum of a quantity over the 80 points of a grid of 2 splits × 8 images × 5 column tiles, each point
  contributing the 640 columns of its tile of a row zero-padded from 3136 to 3200 columns, is the sum over
  the 16 images and the 3136 true columns: point t belongs to image t / 5 and tile t % 5, column 640·(t % 5) + col;
  the padded columns contribute zero. Only commutativity and associativity of the addition are used.
-/
import proofs.«152739_g2000502477920874_pallasbulk_293_22_alg».proof.Proof.LibRangeSum

namespace Cert.ReferenceIdeal.RefValue

open Finset Cert.GridLoss

theorem tiled_sum {M : Type*} [AddCommMonoid M] (F : ℕ → ℕ → M) (hz : ∀ n q, 3136 ≤ q → F n q = 0) :
    ∑ s : Fin 2, ∑ j ∈ range 40, ∑ col : Fin 640, F ((40 * s.val + j) / 5) (640 * ((40 * s.val + j) % 5) + col.val)
      = ∑ n : Fin 16, ∑ p : Fin 3136, F n.val p.val := by
  let G : ℕ → M := fun t => ∑ col : Fin 640, F (t / 5) (640 * (t % 5) + col.val)
  calc ∑ s : Fin 2, ∑ j ∈ range 40, ∑ col : Fin 640, F ((40 * s.val + j) / 5) (640 * ((40 * s.val + j) % 5) + col.val)
      = ∑ s ∈ range 2, ∑ j ∈ range 40, G (s * 40 + j) := by
          rw [Finset.sum_range (fun s => ∑ j ∈ range 40, G (s * 40 + j))]
          refine Finset.sum_congr rfl fun s _ => Finset.sum_congr rfl fun j _ => ?_
          show _ = G (s.val * 40 + j)
          rw [Nat.mul_comm s.val 40]
    _ = ∑ t ∈ range (2 * 40), G t := (sum_range_mul G 2 40).symm
    _ = ∑ t ∈ range (16 * 5), G t := rfl
    _ = ∑ n ∈ range 16, ∑ mt ∈ range 5, G (n * 5 + mt) := sum_range_mul G 16 5
    _ = ∑ n ∈ range 16, ∑ q ∈ range 3200, F n q := by
          refine Finset.sum_congr rfl fun n _ => ?_
          rw [show (3200 : ℕ) = 5 * 640 from rfl, sum_range_mul]
          refine Finset.sum_congr rfl fun mt hmt => ?_
          have hlt : mt < 5 := Finset.mem_range.mp hmt
          show ∑ col : Fin 640, F ((n * 5 + mt) / 5) (640 * ((n * 5 + mt) % 5) + col.val) = ∑ j ∈ range 640, F n (mt * 640 + j)
          rw [Finset.sum_range (fun j => F n (mt * 640 + j))]
          refine Finset.sum_congr rfl fun col _ => ?_
          have h1 : (n * 5 + mt) / 5 = n := by omega
          have h2 : (n * 5 + mt) % 5 = mt := by omega
          rw [h1, h2, Nat.mul_comm 640 mt]
    _ = ∑ n ∈ range 16, ∑ p ∈ range 3136, F n p := by
          refine Finset.sum_congr rfl fun n _ => ?_
          rw [show (3200 : ℕ) = 3136 + 64 from rfl, Finset.sum_range_add,
            Finset.sum_eq_zero (fun q _ => hz n (3136 + q) (by omega)), add_zero]
    _ = ∑ n : Fin 16, ∑ p : Fin 3136, F n.val p.val := by
          rw [Finset.sum_range (fun n => ∑ p ∈ range 3136, F n p)]
          exact Finset.sum_congr rfl fun n _ => Finset.sum_range (fun p => F n.val p)

end Cert.ReferenceIdeal.RefValue
-- ==== Proof.RFinal.lean ====
import proofs.«152739_g2000502477920874_pallasbulk_293_22_alg».proof.Proof.RFrame
import proofs.«152739_g2000502477920874_pallasbulk_293_22_alg».proof.Proof.RChain
import proofs.«152739_g2000502477920874_pallasbulk_293_22_alg».proof.Proof.RHostRead
import proofs.«152739_g2000502477920874_pallasbulk_293_22_alg».proof.Proof.RAlg

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable (m : (ℓ : Loc nD τ sig) → Buf (Elt Ideal) ℓ) (ρ : Dev nD → PrngReg) (c : Dev nD)

theorem padN_in (x : Cert.Spec.SX.Idx → EReal) (n : Fin 16) (p : Fin 3136) (i : Fin 256) :
    padN x n.val p.val i = Cert.Spec.px x n i p := by
  unfold padN; rw [dif_pos ⟨n.isLt, p.isLt⟩]

theorem padN_out (x : Cert.Spec.SX.Idx → EReal) (n q : ℕ) (i : Fin 256) (hq : 3136 ≤ q) : padN x n q i = 0 := by
  unfold padN; rw [dif_neg fun h => by omega]

/-- A point's tile is the padded input at image n / 5, columns 640·(n % 5) + col. -/
theorem tileN (n : ℕ) (h : n < cfg0.N) (i : Fin 256) (col : Fin 640) :
    tile (V2 m ρ) c n (ix3 (0 : Fin 1) i col)
      = padN (m ((c.tc : Thread nD τ).loc main_arg0)) (n / 5) (640 * (n % 5) + col.val) i := by
  have hN : cfg0.N = 80 := N_0
  have hc : col.val < 640 := col.isLt
  refine (tile_apply (V2 m ρ) c n h i col (ix3 (⟨n / 5, by omega⟩ : Fin 16) i (⟨640 * (n % 5) + col.val, by omega⟩ : Fin 3200)) rfl rfl rfl).trans ?_
  refine (congrFun (W2_v1 m ρ c) _).trans ?_
  exact padX_apply _ _ i rfl

theorem MG_eq (n : ℕ) (h : n < cfg0.N) (i k : Fin 256) :
    MG (V2 m ρ) c n (i, k) = ∑ col : Fin 640, padN (m ((c.tc : Thread nD τ).loc main_arg0)) (n / 5) (640 * (n % 5) + col.val) i
      * padN (m ((c.tc : Thread nD τ).loc main_arg0)) (n / 5) (640 * (n % 5) + col.val) k := by
  unfold MG
  exact Finset.sum_congr rfl fun col _ => by rw [tileN m ρ c n h i col, tileN m ρ c n h k col]

theorem MS_eq (n : ℕ) (h : n < cfg0.N) (i : Fin 256) :
    MS (V2 m ρ) c n i = ∑ col : Fin 640, padN (m ((c.tc : Thread nD τ).loc main_arg0)) (n / 5) (640 * (n % 5) + col.val) i := by
  unfold MS
  exact Finset.sum_congr rfl fun col _ => tileN m ρ c n h i col

/-- The two per-split arrays summed over the splits are the Gram matrix and the column sums of the input: the grid's
    tiles cover each image's padded row once, and the padded columns contribute zero. -/
theorem gram_eq (i k : Fin 256) :
    hv3 (G0 (V2 m ρ) c) (ix2 i k) = Cert.Spec.gram (m ((c.tc : Thread nD τ).loc main_arg0)) i k := by
  have hN : cfg0.N = 80 := N_0
  rw [hv3_apply, zero_add]
  have e : ∀ s : Fin 2, G0 (V2 m ρ) c (ix3 s i k) = ∑ jj ∈ Finset.range 40, ∑ col : Fin 640,
      (fun n q => padN (m ((c.tc : Thread nD τ).loc main_arg0)) n q i * padN (m ((c.tc : Thread nD τ).loc main_arg0)) n q k)
        ((40 * s.val + jj) / 5) (640 * ((40 * s.val + jj) % 5) + col.val) := by
    intro s
    rw [G0_at (V2 m ρ) c _ s.val i k rfl rfl rfl, zero_add]
    refine Finset.sum_congr rfl fun jj hjj => ?_
    have hj : jj < 40 := Finset.mem_range.mp hjj
    have hs : s.val < 2 := s.isLt
    exact MG_eq m ρ c (40 * s.val + jj) (by omega) i k
  rw [Finset.sum_congr rfl fun s _ => e s]
  refine (tiled_sum (fun n q => padN (m ((c.tc : Thread nD τ).loc main_arg0)) n q i * padN (m ((c.tc : Thread nD τ).loc main_arg0)) n q k) (fun n q hq => by
    show padN _ n q i * padN _ n q k = 0
    rw [padN_out _ n q i hq, zero_mul])).trans ?_
  unfold Cert.Spec.gram
  exact Finset.sum_congr rfl fun n _ => Finset.sum_congr rfl fun p _ => by
    show padN _ n.val p.val i * padN _ n.val p.val k = _
    rw [padN_in, padN_in]

theorem colsum_eq (i : Fin 256) :
    hv4 (S0 (V2 m ρ) c) (ix2 i (0 : Fin 1)) = Cert.Spec.colsum (m ((c.tc : Thread nD τ).loc main_arg0)) i := by
  have hN : cfg0.N = 80 := N_0
  rw [hv4_apply, zero_add]
  have e : ∀ s : Fin 2, S0 (V2 m ρ) c (ix3 s i (0 : Fin 1)) = ∑ jj ∈ Finset.range 40, ∑ col : Fin 640,
      (fun n q => padN (m ((c.tc : Thread nD τ).loc main_arg0)) n q i)
        ((40 * s.val + jj) / 5) (640 * ((40 * s.val + jj) % 5) + col.val) := by
    intro s
    rw [S0_at (V2 m ρ) c _ s.val i rfl rfl, zero_add]
    refine Finset.sum_congr rfl fun jj hjj => ?_
    have hj : jj < 40 := Finset.mem_range.mp hjj
    have hs : s.val < 2 := s.isLt
    exact MS_eq m ρ c (40 * s.val + jj) (by omega) i
  rw [Finset.sum_congr rfl fun s _ => e s]
  refine (tiled_sum (fun n q => padN (m ((c.tc : Thread nD τ).loc main_arg0)) n q i) (fun n q hq => padN_out _ n q i hq)).trans ?_
  unfold Cert.Spec.colsum
  exact Finset.sum_congr rfl fun n _ => Finset.sum_congr rfl fun p _ => padN_in _ n p i

/-- What the result buffer holds at the last segment boundary is the specification's array of the four arguments. -/
theorem final :
    (W6 m ρ c (Proc.devRef .tc main_v30) : Spec.SX.Idx → EReal)
      = Cert.Spec.out (m ((c.tc : Thread nD τ).loc main_arg0)) (m ((c.tc : Thread nD τ).loc main_arg1))
          (m ((c.tc : Thread nD τ).loc main_arg2)) (m ((c.tc : Thread nD τ).loc main_arg3)) := by
  funext j
  obtain ⟨n, o, h, v, rfl⟩ : ∃ (n : Fin 16) (o : Fin 256) (h v : Fin 56), j = ix4 n o h v := ⟨j 0, j 1, j 2, j 3, eq_ix4 j⟩
  have hh : h.val < 56 := h.isLt
  have hv : v.val < 56 := v.isLt
  have hq : 56 * h.val + v.val < 3200 := by omega
  have e27 : W4 m ρ c (Proc.devRef .tc main_v27) = hv27 (m ((c.tc : Thread nD τ).loc main_arg1)) (G0 (V2 m ρ) c) (S0 (V2 m ρ) c) (m ((c.tc : Thread nD τ).loc main_arg2)) := by
    rw [W4_v27, W3_arg1, W3_v2_0, W3_v2_1, W3_arg2]
  have e25 : W4 m ρ c (Proc.devRef .tc main_v25) = hv25 (m ((c.tc : Thread nD τ).loc main_arg1)) (G0 (V2 m ρ) c) (S0 (V2 m ρ) c) (m ((c.tc : Thread nD τ).loc main_arg2)) (m ((c.tc : Thread nD τ).loc main_arg3)) := by
    rw [W4_v25, W3_arg1, W3_v2_0, W3_v2_1, W3_arg2, W3_arg3]
  have e1 : W4 m ρ c (Proc.devRef .tc main_v1) = padX (m ((c.tc : Thread nD τ).loc main_arg0)) := (W4_v1 m ρ c).trans (W3_v1 m ρ c)
  obtain ⟨h7, h22, hsh⟩ := host_spec (m ((c.tc : Thread nD τ).loc main_arg1)) (G0 (V2 m ρ) c) (S0 (V2 m ρ) c) (m ((c.tc : Thread nD τ).loc main_arg2)) (m ((c.tc : Thread nD τ).loc main_arg3))
    (m ((c.tc : Thread nD τ).loc main_arg0)) (gram_eq m ρ c) (colsum_eq m ρ c) o
  refine (congrFun (W6_v30 m ρ c) _).trans ?_
  refine (unflat_apply _ n o h v ⟨56 * h.val + v.val, hq⟩ rfl).trans ?_
  refine (congrFun (W5_v28 m ρ c) _).trans ?_
  unfold O1
  refine (applyFn_at _ _ _ _ n o ⟨56 * h.val + v.val, hq⟩ rfl rfl rfl).trans ?_
  show _ = Cert.Spec.outAt _ _ _ _ n o h v
  unfold Cert.Spec.outAt
  refine congrArg₂ max (congrArg₂ (· + ·) (Finset.sum_congr rfl fun k _ => congrArg₂ (· * ·) ?_ ?_) ?_) rfl
  · refine (congrFun e27 _).trans ((hv27_apply _ _ _ _ o k).trans ?_)
    rw [h22]
  · refine (congrFun e1 _).trans ((padX_apply _ _ k rfl).trans ?_)
    show padN _ n.val (56 * h.val + v.val) k = _
    unfold padN
    rw [dif_pos ⟨n.isLt, by omega⟩]
    unfold Cert.Spec.px
    refine congrArg _ (funext fun a => Fin.ext ?_)
    match a with
    | ⟨0, _⟩ => rfl
    | ⟨1, _⟩ => rfl
    | ⟨2, _⟩ => show (56 * h.val + v.val) / 56 = h.val; omega
    | ⟨3, _⟩ => show (56 * h.val + v.val) % 56 = v.val; omega
  · exact (congrFun e25 _).trans hsh

end Cert.ReferenceIdeal.RefValue

end
-- ==== Proof.RRun.lean ====
import proofs.«152739_g2000502477920874_pallasbulk_293_22_alg».proof.Proof.RFinal

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

/-- The reference program's run: it terminates, the result buffer holds the specification's array of the four
    arguments, and the arguments are as launched. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v30) = Cert.Spec.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono (fun _ h c => ⟨(h c).1.trans (final m ρ c), (h c).2⟩) (run_W6 (F := Ideal) m ρ)

end Cert.ReferenceIdeal.RefValue

end
-- ==== Proof.lean ====
/-
  The certificate of the fused 1×1-convolution + batch-normalisation + rectifier kernel against its two-pass
  reference. Both programs compute, over the extended reals, ONE function of (x, w, γ, β) — Cert.Spec.out: the
  channel mix by w, normalised with batch statistics taken from the Gram matrix of x, shifted, rectified.

  The kernel walks a 2 × 8 grid. In the first phase it keeps each pair of images and accumulates the Gram matrix
  and the column sums; at the phase's last point it folds mean, scale and shift into the weight; in the second
  phase it applies the folded weight to the kept pairs. Its frame and its value are read off one run of its
  body per control case, carried through the sixteen points by an invariant on the five scratch buffers. The
  reference pads the pixels to 3200 with zeros, sums tile by tile in two halves, folds on the host and applies
  tile by tile; the padding contributes zeros and the order of summation does not matter. The two sides differ
  from the specification only in the order of factors and in reading the symmetric Gram matrix transposed.
  The kernel rewrote no operation when idealised, so that conjunct is trivial.
-/
import proofs.«152739_g2000502477920874_pallasbulk_293_22_alg».proof.Defs
import proofs.«152739_g2000502477920874_pallasbulk_293_22_alg».proof.Proof.Gen.Kernel
import proofs.«152739_g2000502477920874_pallasbulk_293_22_alg».proof.Proof.Gen.KernelIdeal
import proofs.«152739_g2000502477920874_pallasbulk_293_22_alg».proof.Proof.Gen.ReferenceIdeal
import proofs.«152739_g2000502477920874_pallasbulk_293_22_alg».proof.Proof.Gen.ReferenceIdeal.Frame
import proofs.«152739_g2000502477920874_pallasbulk_293_22_alg».proof.Proof.Gen.Pre_finite_inputs
import proofs.«152739_g2000502477920874_pallasbulk_293_22_alg».proof.Proof.KFrameBits
import proofs.«152739_g2000502477920874_pallasbulk_293_22_alg».proof.Proof.KAlg
import proofs.«152739_g2000502477920874_pallasbulk_293_22_alg».proof.Proof.RRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- From memories that agree on the four arguments both programs end with the specification's array of them. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run (Cert.KernelIdeal.defs (F := Ideal)) _ _).mono
      (fun _ h c => ⟨(h c).1.trans (Cert.KernelIdeal.KValue.result_eq m c), (h c).2⟩)
      (Cert.KernelIdeal.KValue.run (F := Ideal) m ρ)
  · refine (θ_run (Cert.ReferenceIdeal.defs (F := Ideal)) _ _).mono (fun _ h c => ⟨(h c).1.trans ?_, (h c).2⟩)
      (Cert.ReferenceIdeal.RefValue.run m' ρ')
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
